-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S600000 : Shape := ⟨1, ![600000]⟩
abbrev S128x128 : Shape := ⟨2, ![128, 128]⟩
abbrev S128 : Shape := ⟨1, ![128]⟩
abbrev S192x192 : Shape := ⟨2, ![192, 192]⟩
abbrev S192 : Shape := ⟨1, ![192]⟩
abbrev S64x128 : Shape := ⟨2, ![64, 128]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg17 : FVec F S128 .f32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg18
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg14 : FVec F S192x192 .f32) (main_arg15 : FVec F S192 .f32) (main_arg16 : FVec F S128x128 .f32) (main_arg17 : FVec F S128 .f32) (main_arg18 : FVec F S64x128 .f32) (main_arg19 : FVec F S64 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x192 .f32 := Host.absf main_arg14
  let main_cst_20 : FVec F S_ .f32 := constant S_ .f32 0x7F800000#32
  let main_v55 : FVec F S192x192 .f32 := broadcastInDim S192x192 ![] bcast_S_S192x192 main_cst_20
  let main_v56 : IVec S192x192 1 := cmpf .olt main_v54 main_v55
  let main_c_21 : IVec S_ 1 := constantI S_ 1 1#1
  let main_v57 : IVec S_ 1 := (fun x v => Host.reduce IntOp.andi x v reducesTo_S192x192_S_d0_1 h_S_) main_v56 main_c_21
  let main_v58 : IVec S_ 1 := andi main_v53 main_v57
  let main_v59 : FVec F S192 .f32 := Host.absf main_arg15
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_v63 main_v67

def fn_part2 {F : FTy → Type} [FloatOps F] (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S64x128 .f32) (main_arg19 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x192 .f32 := Host.absf main_arg12
  let main_cst_16 : FVec F S_ .f32 := constant S_ .f32 0x7F800000#32
  let main_v45 : FVec F S192x192 .f32 := broadcastInDim S192x192 ![] bcast_S_S192x192 main_cst_16
  let main_v46 : IVec S192x192 1 := cmpf .olt main_v44 main_v45
  let main_c_17 : IVec S_ 1 := constantI S_ 1 1#1
  let main_v47 : IVec S_ 1 := (fun x v => Host.reduce IntOp.andi x v reducesTo_S192x192_S_d0_1 h_S_) main_v46 main_c_17
  let main_v48 : IVec S_ 1 := andi main_v43 main_v47
  let main_v49 : FVec F S192 .f32 := Host.absf main_arg13
  let main_cst_18 : FVec F S_ .f32 := constant S_ .f32 0x7F800000#32
  let main_v50 : FVec F S192 .f32 := broadcastInDim S192 ![] bcast_S_S192 main_cst_18
  fn_part3 (F := F) main_arg14 main_arg15 main_arg16 main_arg17 main_arg18 main_arg19 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S64x128 .f32) (main_arg19 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S200000x64 .f32) (main_arg1 : IVec S600000 32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S64x128 .f32) (main_arg19 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S200000x64 : Shape := ⟨2, ![200000, 64]⟩
abbrev S600000 : Shape := ⟨1, ![600000]⟩
abbrev S128x128 : Shape := ⟨2, ![128, 128]⟩
abbrev S128 : Shape := ⟨1, ![128]⟩
abbrev S192x192 : Shape := ⟨2, ![192, 192]⟩
abbrev S192 : Shape := ⟨1, ![192]⟩
abbrev S64x128 : Shape := ⟨2, ![64, 128]⟩
abbrev S64 : Shape := ⟨1, ![64]⟩
abbrev S_ : Shape := ⟨0, ![]⟩
abbrev S600000x1 : Shape := ⟨2, ![600000, 1]⟩
abbrev S600000x64 : Shape := ⟨2, ![600000, 64]⟩
abbrev S300000x128 : Shape := ⟨2, ![300000, 128]⟩
abbrev S1x128 : Shape := ⟨2, ![1, 128]⟩
abbrev S5000x128 : Shape := ⟨2, ![5000, 128]⟩
abbrev S200000x192 : Shape := ⟨2, ![200000, 192]⟩
abbrev S1x192 : Shape := ⟨2, ![1, 192]⟩
abbrev S5000x192 : Shape := ⟨2, ![5000, 192]⟩
abbrev S1 : Shape := ⟨1, ![1]⟩
abbrev S3 : Shape := ⟨1, ![3]⟩
abbrev S128x64 : Shape := ⟨2, ![128, 64]⟩
abbrev S1x64 : Shape := ⟨2, ![1, 64]⟩
abbrev S1x1 : Shape := ⟨2, ![1, 1]⟩
abbrev S5000x64 : Shape := ⟨2, ![5000, 64]⟩

abbrev nBuf : Space → Nat
  | .hbm => 144
  | .vmem => 35
  | .smem => 0
  | _ => 0

abbrev hbmTy0_0 (i : Nat) : BufTy := match i % 128 with
  | 0 => ⟨S200000x64, .f32⟩
  | 1 => ⟨S600000, .i32⟩
  | 2 => ⟨S600000, .i32⟩
  | 3 => ⟨S600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S192x192, .f32⟩
  | 13 => ⟨S192, .f32⟩
  | 14 => ⟨S192x192, .f32⟩
  | 15 => ⟨S192, .f32⟩
  | 16 => ⟨S128x128, .f32⟩
  | 17 => ⟨S128, .f32⟩
  | 18 => ⟨S64x128, .f32⟩
  | 19 => ⟨S64, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x64, .f32⟩
  | 29 => ⟨S300000x128, .f32⟩
  | 30 => ⟨S300000x128, .bf16⟩
  | 31 => ⟨S128x128, .f32⟩
  | 32 => ⟨S128x128, .bf16⟩
  | 33 => ⟨S128x128, .f32⟩
  | 34 => ⟨S128x128, .bf16⟩
  | 35 => ⟨S1x128, .f32⟩
  | 36 => ⟨S1x128, .f32⟩
  | 37 => ⟨S300000x128, .f32⟩
  | 38 => ⟨S600000x64, .f32⟩
  | 39 => ⟨S_, .f32⟩
  | 40 => ⟨S_, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x64, .f32⟩
  | 50 => ⟨S300000x128, .f32⟩
  | 51 => ⟨S300000x128, .bf16⟩
  | 52 => ⟨S128x128, .f32⟩
  | 53 => ⟨S128x128, .bf16⟩
  | 54 => ⟨S128x128, .f32⟩
  | 55 => ⟨S128x128, .bf16⟩
  | 56 => ⟨S1x128, .f32⟩
  | 57 => ⟨S1x128, .f32⟩
  | 58 => ⟨S300000x128, .f32⟩
  | 59 => ⟨S600000x64, .f32⟩
  | 60 => ⟨S_, .f32⟩
  | 61 => ⟨S_, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x64, .f32⟩
  | 71 => ⟨S200000x192, .f32⟩
  | 72 => ⟨S200000x192, .bf16⟩
  | 73 => ⟨S192x192, .f32⟩
  | 74 => ⟨S192x192, .bf16⟩
  | 75 => ⟨S192x192, .f32⟩
  | 76 => ⟨S192x192, .bf16⟩
  | 77 => ⟨S1x192, .f32⟩
  | 78 => ⟨S1x192, .f32⟩
  | 79 => ⟨S200000x192, .f32⟩
  | 80 => ⟨S600000x64, .f32⟩
  | 81 => ⟨S_, .f32⟩
  | 82 => ⟨S_, .f32⟩
  | 83 => ⟨S1, .f32⟩
  | 84 => ⟨S1, .f32⟩
  | 85 => ⟨S1, .f32⟩
  | 86 => ⟨S3, .f32⟩
  | 87 => ⟨S_, .f32⟩
  | 88 => ⟨S_, .f32⟩
  | 89 => ⟨S_, .f32⟩
  | 90 => ⟨S200000x64, .f32⟩
  | 91 => ⟨S600000x64, .f32⟩
  | 92 => ⟨S600000x64, .f32⟩
  | 93 => ⟨S_, .f32⟩
  | 94 => ⟨S600000x64, .f32⟩
  | 95 => ⟨S600000x64, .f32⟩
  | 96 => ⟨S600000x64, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S200000x64, .f32⟩
  | 106 => ⟨S600000x64, .f32⟩
  | 107 => ⟨S600000x64, .f32⟩
  | 108 => ⟨S_, .f32⟩
  | 109 => ⟨S600000x64, .f32⟩
  | 110 => ⟨S600000x64, .f32⟩
  | 111 => ⟨S600000x64, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S200000x64, .f32⟩
  | 121 => ⟨S600000x64, .f32⟩
  | 122 => ⟨S600000x64, .f32⟩
  | 123 => ⟨S_, .f32⟩
  | 124 => ⟨S600000x64, .f32⟩
  | 125 => ⟨S600000x64, .f32⟩
  | 126 => ⟨S600000x64, .f32⟩
  | 127 => ⟨S_, .i32⟩
  | _ => ⟨S200000x64, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S200000x64, .f32⟩
  | 8 => ⟨S128x128, .f32⟩
  | 9 => ⟨S128x128, .bf16⟩
  | 10 => ⟨S128x64, .f32⟩
  | 11 => ⟨S128x64, .bf16⟩
  | 12 => ⟨S1x128, .f32⟩
  | 13 => ⟨S1x64, .f32⟩
  | 14 => ⟨S1x1, .f32⟩
  | 15 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .bf16⟩
  | .local _ .vmem, ⟨9, _⟩ => ⟨S5000x128, .bf16⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x192, .bf16⟩
  | .local _ .vmem, ⟨17, _⟩ => ⟨S5000x192, .bf16⟩
  | .local _ .vmem, ⟨18, _⟩ => ⟨S192x192, .bf16⟩
  | .local _ .vmem, ⟨19, _⟩ => ⟨S1x192, .f32⟩
  | .local _ .vmem, ⟨20, _⟩ => ⟨S192x192, .bf16⟩
  | .local _ .vmem, ⟨21, _⟩ => ⟨S1x192, .f32⟩
  | .local _ .vmem, ⟨22, _⟩ => ⟨S5000x192, .f32⟩
  | .local _ .vmem, ⟨23, _⟩ => ⟨S5000x192, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x1, .f32⟩
  | .local _ .vmem, ⟨29, _⟩ => ⟨S128x128, .bf16⟩
  | .local _ .vmem, ⟨30, _⟩ => ⟨S1x128, .f32⟩
  | .local _ .vmem, ⟨31, _⟩ => ⟨S128x64, .bf16⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_c_4 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_c_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_16 : Ref sig .tc := ⟨.hbm, 127, rfl⟩
abbrev main_v89 : Ref sig .tc := ⟨.hbm, 128, rfl⟩
abbrev main_v90 : Ref sig .tc := ⟨.hbm, 129, rfl⟩
abbrev main_c_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x64_S300000x128 : S600000x64.ShapeCasts S300000x128
  bitsLt_bf16_f32 : FTy.bits .bf16 < FTy.bits .f32
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S300000x128_S600000x64 : S300000x128.ShapeCasts S600000x64
  reducesTo_S600000x64_S_d0_1 : S600000x64.ReducesTo [0, 1] S_
  h_S_ : 0 < S_.numel
  shapeCasts_S600000x64_S200000x192 : S600000x64.ShapeCasts S200000x192
  transposes_S192x192_S192x192_1_0 : S192x192.Transposes [1, 0] S192x192
  shapeCasts_S192_S1x192 : S192.ShapeCasts S1x192
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  shapeCasts_S200000x192_S600000x64 : S200000x192.ShapeCasts S600000x64
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  bcast_S_S200000x64 : S_.BroadcastsInDim S200000x64 (![] : Fin 0 → Fin S200000x64.rank)
  bcast_S_S600000x64 : S_.BroadcastsInDim S600000x64 (![] : Fin 0 → Fin S600000x64.rank)
  transposes_S64x128_S128x64_1_0 : S64x128.Transposes [1, 0] S128x64
  shapeCasts_S64_S1x64 : S64.ShapeCasts S1x64
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S200000x64_S600000x1_S600000x64_1_0_n_n_0_1_164_wf : GatherDims.WF S200000x64 S600000x1 S600000x64 [1] [0] [] [0] [] 1 ![1, 64]
  dot_S5000x128_S128x128_S5000x128_1_0_0_1_n_n_wf : DotDims.WF S5000x128 S128x128 S5000x128 [1] [0] [0] [1] [] []
  dot_S5000x192_S192x192_S5000x192_1_0_0_1_n_n_wf : DotDims.WF S5000x192 S192x192 S5000x192 [1] [0] [0] [1] [] []
  scatter_S200000x64_S600000x1_S600000x64_1_0_0_1_wf : ScatterDims.WF S200000x64 S600000x1 S600000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S300000x128.size a
  hwx0_0 : ∀ i : grid0.Coords, EltTy.bits .bf16 = 32 ∨ (Rect.block (s := S300000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S300000x128.size a
  hwx0_5 : ∀ i : grid0.Coords, EltTy.bits .f32 = 32 ∨ (Rect.block (s := S300000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S300000x128.size a
  hwx1_0 : ∀ i : grid1.Coords, EltTy.bits .bf16 = 32 ∨ (Rect.block (s := S300000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S300000x128.size a
  hwx1_5 : ∀ i : grid1.Coords, EltTy.bits .f32 = 32 ∨ (Rect.block (s := S300000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S200000x192.size a
  hwx2_0 : ∀ i : grid2.Coords, EltTy.bits .bf16 = 32 ∨ (Rect.block (s := S200000x192) S5000x192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .bf16 = 32 ∨ (Rect.block (s := S192x192) S192x192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x192.size a ≤ S192x192.size a
  hwx2_3 : ∀ i : grid2.Coords, EltTy.bits .bf16 = 32 ∨ (Rect.block (s := S192x192) S192x192.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x192.size a ≤ S200000x192.size a
  hwx2_5 : ∀ i : grid2.Coords, EltTy.bits .f32 = 32 ∨ (Rect.block (s := S200000x192) S5000x192.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .bf16 = 32 ∨ (Rect.block (s := S128x64) S128x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S200000x64.size a
  hwx3_7 : ∀ i : grid3.Coords, EltTy.bits .f32 = 32 ∨ (Rect.block (s := S200000x64) S5000x64.size (cc3_transform_7 i) (hinb3_7 i)).WholeWords (EltTy.packing .f32)

variable [Facts₀]

def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v8) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S192x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v95) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v101) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v103) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x64 : Shape := ⟨2, ![200000, 64]⟩
abbrev S600000 : Shape := ⟨1, ![600000]⟩
abbrev S128x128 : Shape := ⟨2, ![128, 128]⟩
abbrev S128 : Shape := ⟨1, ![128]⟩
abbrev S192x192 : Shape := ⟨2, ![192, 192]⟩
abbrev S192 : Shape := ⟨1, ![192]⟩
abbrev S64x128 : Shape := ⟨2, ![64, 128]⟩
abbrev S64 : Shape := ⟨1, ![64]⟩
abbrev S_ : Shape := ⟨0, ![]⟩
abbrev S600000x1 : Shape := ⟨2, ![600000, 1]⟩
abbrev S600000x64 : Shape := ⟨2, ![600000, 64]⟩
abbrev S300000x128 : Shape := ⟨2, ![300000, 128]⟩
abbrev S1x128 : Shape := ⟨2, ![1, 128]⟩
abbrev S200000x192 : Shape := ⟨2, ![200000, 192]⟩
abbrev S1x192 : Shape := ⟨2, ![1, 192]⟩
abbrev S1 : Shape := ⟨1, ![1]⟩
abbrev S3 : Shape := ⟨1, ![3]⟩
abbrev S200000x128 : Shape := ⟨2, ![200000, 128]⟩
abbrev S128x64 : Shape := ⟨2, ![128, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S200000x64, .f32⟩
  | 1 => ⟨S600000, .i32⟩
  | 2 => ⟨S600000, .i32⟩
  | 3 => ⟨S600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S192x192, .f32⟩
  | 13 => ⟨S192, .f32⟩
  | 14 => ⟨S192x192, .f32⟩
  | 15 => ⟨S192, .f32⟩
  | 16 => ⟨S128x128, .f32⟩
  | 17 => ⟨S128, .f32⟩
  | 18 => ⟨S64x128, .f32⟩
  | 19 => ⟨S64, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x64, .f32⟩
  | 29 => ⟨S300000x128, .f32⟩
  | 30 => ⟨S128x128, .f32⟩
  | 31 => ⟨S300000x128, .f32⟩
  | 32 => ⟨S1x128, .f32⟩
  | 33 => ⟨S300000x128, .f32⟩
  | 34 => ⟨S300000x128, .f32⟩
  | 35 => ⟨S_, .f32⟩
  | 36 => ⟨S300000x128, .f32⟩
  | 37 => ⟨S300000x128, .f32⟩
  | 38 => ⟨S128x128, .f32⟩
  | 39 => ⟨S300000x128, .f32⟩
  | 40 => ⟨S1x128, .f32⟩
  | 41 => ⟨S300000x128, .f32⟩
  | 42 => ⟨S300000x128, .f32⟩
  | 43 => ⟨S600000x64, .f32⟩
  | 44 => ⟨S_, .f32⟩
  | 45 => ⟨S_, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x64, .f32⟩
  | 55 => ⟨S300000x128, .f32⟩
  | 56 => ⟨S128x128, .f32⟩
  | 57 => ⟨S300000x128, .f32⟩
  | 58 => ⟨S1x128, .f32⟩
  | 59 => ⟨S300000x128, .f32⟩
  | 60 => ⟨S300000x128, .f32⟩
  | 61 => ⟨S_, .f32⟩
  | 62 => ⟨S300000x128, .f32⟩
  | 63 => ⟨S300000x128, .f32⟩
  | 64 => ⟨S128x128, .f32⟩
  | 65 => ⟨S300000x128, .f32⟩
  | 66 => ⟨S1x128, .f32⟩
  | 67 => ⟨S300000x128, .f32⟩
  | 68 => ⟨S300000x128, .f32⟩
  | 69 => ⟨S600000x64, .f32⟩
  | 70 => ⟨S_, .f32⟩
  | 71 => ⟨S_, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x64, .f32⟩
  | 81 => ⟨S200000x192, .f32⟩
  | 82 => ⟨S192x192, .f32⟩
  | 83 => ⟨S200000x192, .f32⟩
  | 84 => ⟨S1x192, .f32⟩
  | 85 => ⟨S200000x192, .f32⟩
  | 86 => ⟨S200000x192, .f32⟩
  | 87 => ⟨S_, .f32⟩
  | 88 => ⟨S200000x192, .f32⟩
  | 89 => ⟨S200000x192, .f32⟩
  | 90 => ⟨S192x192, .f32⟩
  | 91 => ⟨S200000x192, .f32⟩
  | 92 => ⟨S1x192, .f32⟩
  | 93 => ⟨S200000x192, .f32⟩
  | 94 => ⟨S200000x192, .f32⟩
  | 95 => ⟨S600000x64, .f32⟩
  | 96 => ⟨S_, .f32⟩
  | 97 => ⟨S_, .f32⟩
  | 98 => ⟨S1, .f32⟩
  | 99 => ⟨S1, .f32⟩
  | 100 => ⟨S1, .f32⟩
  | 101 => ⟨S3, .f32⟩
  | 102 => ⟨S_, .f32⟩
  | 103 => ⟨S_, .f32⟩
  | 104 => ⟨S_, .f32⟩
  | 105 => ⟨S200000x64, .f32⟩
  | 106 => ⟨S600000x64, .f32⟩
  | 107 => ⟨S600000x64, .f32⟩
  | 108 => ⟨S_, .f32⟩
  | 109 => ⟨S600000x64, .f32⟩
  | 110 => ⟨S600000x64, .f32⟩
  | 111 => ⟨S600000x64, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S200000x64, .f32⟩
  | 121 => ⟨S600000x64, .f32⟩
  | 122 => ⟨S600000x64, .f32⟩
  | 123 => ⟨S_, .f32⟩
  | 124 => ⟨S600000x64, .f32⟩
  | 125 => ⟨S600000x64, .f32⟩
  | 126 => ⟨S600000x64, .f32⟩
  | 127 => ⟨S_, .i32⟩
  | _ => ⟨S200000x64, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S200000x64, .f32⟩
  | 8 => ⟨S600000x64, .f32⟩
  | 9 => ⟨S600000x64, .f32⟩
  | 10 => ⟨S_, .f32⟩
  | 11 => ⟨S600000x64, .f32⟩
  | 12 => ⟨S600000x64, .f32⟩
  | 13 => ⟨S600000x64, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S200000x64, .f32⟩
  | 23 => ⟨S200000x64, .f32⟩
  | 24 => ⟨S_, .f32⟩
  | 25 => ⟨S200000x64, .f32⟩
  | 26 => ⟨S200000x64, .f32⟩
  | 27 => ⟨S200000x64, .f32⟩
  | 28 => ⟨S200000x64, .f32⟩
  | 29 => ⟨S200000x128, .f32⟩
  | 30 => ⟨S128x128, .f32⟩
  | 31 => ⟨S200000x128, .f32⟩
  | 32 => ⟨S1x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S128x64, .f32⟩
  | 39 => ⟨S200000x64, .f32⟩
  | 40 => ⟨S1x64, .f32⟩
  | 41 => ⟨S200000x64, .f32⟩
  | 42 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call0_cst : Ref sig .tc := ⟨.hbm, 35, rfl⟩
abbrev main_call0_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_cst : Ref sig .tc := ⟨.hbm, 61, rfl⟩
abbrev main_call1_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_c_4 : Ref sig .tc := ⟨.hbm, 72, rfl⟩
abbrev main_v42 : Ref sig .tc := ⟨.hbm, 73, rfl⟩
abbrev main_v43 : Ref sig .tc := ⟨.hbm, 74, rfl⟩
abbrev main_c_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_cst : Ref sig .tc := ⟨.hbm, 87, rfl⟩
abbrev main_call2_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_7 : Ref sig .tc := ⟨.hbm, 102, rfl⟩
abbrev main_v67 : Ref sig .tc := ⟨.hbm, 103, rfl⟩
abbrev main_cst_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_9 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_10 : Ref sig .tc := ⟨.hbm, 112, rfl⟩
abbrev main_v74 : Ref sig .tc := ⟨.hbm, 113, rfl⟩
abbrev main_v75 : Ref sig .tc := ⟨.hbm, 114, rfl⟩
abbrev main_c_11 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_12 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_13 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_15 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_16 : Ref sig .tc := ⟨.hbm, 142, rfl⟩
abbrev main_v98 : Ref sig .tc := ⟨.hbm, 143, rfl⟩
abbrev main_v99 : Ref sig .tc := ⟨.hbm, 144, rfl⟩
abbrev main_c_17 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_18 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call3_cst : Ref sig .tc := ⟨.hbm, 163, rfl⟩
abbrev main_call3_v0 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x64_S300000x128 : S600000x64.ShapeCasts S300000x128
  transposes_S128x128_S128x128_1_0 : S128x128.Transposes [1, 0] S128x128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  shapeCasts_S300000x128_S600000x64 : S300000x128.ShapeCasts S600000x64
  reducesTo_S600000x64_S_d0_1 : S600000x64.ReducesTo [0, 1] S_
  h_S_ : 0 < S_.numel
  shapeCasts_S600000x64_S200000x192 : S600000x64.ShapeCasts S200000x192
  transposes_S192x192_S192x192_1_0 : S192x192.Transposes [1, 0] S192x192
  bcast_S192_S1x192_1 : S192.BroadcastsInDim S1x192 (![1] : Fin 1 → Fin S1x192.rank)
  bcast_S1x192_S200000x192_0_1 : S1x192.BroadcastsInDim S200000x192 (![0, 1] : Fin 2 → Fin S200000x192.rank)
  bcast_S_S200000x192 : S_.BroadcastsInDim S200000x192 (![] : Fin 0 → Fin S200000x192.rank)
  shapeCasts_S200000x192_S600000x64 : S200000x192.ShapeCasts S600000x64
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  bcast_S_S200000x64 : S_.BroadcastsInDim S200000x64 (![] : Fin 0 → Fin S200000x64.rank)
  bcast_S_S600000x64 : S_.BroadcastsInDim S600000x64 (![] : Fin 0 → Fin S600000x64.rank)
  concatenates_S200000x64_S200000x64_S200000x128_d1 : Shape.Concatenates [S200000x64, S200000x64] S200000x128 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S600000x1_S600000x64_1_0_n_n_0_1_164_wf : GatherDims.WF S200000x64 S600000x1 S600000x64 [1] [0] [] [0] [] 1 ![1, 64]
  dot_S300000x128_S128x128_S300000x128_1_0_0_1_n_n_wf : DotDims.WF S300000x128 S128x128 S300000x128 [1] [0] [0] [1] [] []
  dot_S200000x192_S192x192_S200000x192_1_0_0_1_n_n_wf : DotDims.WF S200000x192 S192x192 S200000x192 [1] [0] [0] [1] [] []
  scatter_S200000x64_S600000x1_S600000x64_1_0_0_1_wf : ScatterDims.WF S200000x64 S600000x1 S600000x64 [1] [0] [0] 1
  dot_S200000x128_S128x128_S200000x128_1_0_0_1_n_n_wf : DotDims.WF S200000x128 S128x128 S200000x128 [1] [0] [0] [1] [] []
  dot_S200000x128_S128x64_S200000x64_1_0_0_1_n_n_wf : DotDims.WF S200000x128 S128x64 S200000x64 [1] [0] [0] [1] [] []

variable [Facts₀]

def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def dot_S200000x192_S192x192_S200000x192_1_0_0_1_n_n : DotDims S200000x192 S192x192 S200000x192 where
  lhsContracting := [1]
  rhsContracting := [0]
  lhsNonContracting := [0]
  rhsNonContracting := [1]
  lhsBatch := []
  rhsBatch := []
  wf := dot_S200000x192_S192x192_S200000x192_1_0_0_1_n_n_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf

class Facts : Prop extends Facts₀ where

variable [Facts]
-- ==== Proof.WordRegion0.lean ====
/-
  Region 0 of @main (the relation network of relation 0: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k0_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.Kernel.Launch
import proofs.«171401_j10385230921929_1_alg».proof.Proof.Gen.Kernel.Skeleton
import proofs.«171401_j10385230921929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output window's buffer -/

/-- The output buffer after the body: its one store, over the payload of the five loaded blocks. -/
def out0_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r0_x, k0_pay1 (View.ld x0 r0_x) (View.ld x1 r0_w) (View.ld x2 r0_b) (View.ld x3 r0_w) (View.ld x4 r0_b)⟩]

/-- The one store covers the buffer. -/
theorem cover0_5 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- On whole staging memrefs, the inputs' at contents `x0 … x4` and the output's at anything, the body runs to its
    continuation with the inputs as they were and the output at `out0_5` of them. -/
theorem sound_kernel0 (c : Dev nD) (E : Set ℕ) (i : grid0.Coords)
    (arg1 : Memref sig .tc .vmem S5000x128 .bf16) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__relation_kernel i arg1 harg1 arg2 harg2 arg3 harg3 arg4 harg4 arg5 harg5 arg6 harg6) K := by
  simp only [cc0__relation_kernel_eq_skeleton]; unfold cc0__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input buffer still at its block and the output buffer at `out0_5` of the input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.WordRegion1.lean ====
/-
  Region 1 of @main (the relation network of relation 1: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k1_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.Kernel.Launch
import proofs.«171401_j10385230921929_1_alg».proof.Proof.Gen.Kernel.Skeleton
import proofs.«171401_j10385230921929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-! ## What the body leaves in the output window's buffer -/

/-- The output buffer after the body: its one store, over the payload of the five loaded blocks. -/
def out1_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r1_x, k1_pay1 (View.ld x0 r1_x) (View.ld x1 r1_w) (View.ld x2 r1_b) (View.ld x3 r1_w) (View.ld x4 r1_b)⟩]

/-- The one store covers the buffer. -/
theorem cover1_5 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

/-! ## The body's triple -/

set_option maxHeartbeats 1000000 in
/-- On whole staging memrefs, the inputs' at contents `x0 … x4` and the output's at anything, the body runs to its
    continuation with the inputs as they were and the output at `out1_5` of them. -/
theorem sound_kernel1 (c : Dev nD) (E : Set ℕ) (i : grid1.Coords)
    (arg1 : Memref sig .tc .vmem S5000x128 .bf16) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__relation_kernel i arg1 harg1 arg2 harg2 arg3 harg3 arg4 harg4 arg5 harg5 arg6 harg6) K := by
  simp only [cc1__relation_kernel_eq_skeleton]; unfold cc1__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input buffer still at its block and the output buffer at `out1_5` of the input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.WordRegion2.lean ====
/-
  Region 2 of @main (the relation network of relation 2: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k2_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.Kernel.Launch
import proofs.«171401_j10385230921929_1_alg».proof.Proof.Gen.Kernel.Skeleton
import proofs.«171401_j10385230921929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_x : Rect S5000x192 := Rect.unit (s := S5000x192) ![0, 0] S5000x192.size inb_S5000x192_S5000x192_0_0
abbrev r2_w : Rect S192x192 := Rect.unit (s := S192x192) ![0, 0] S192x192.size inb_S192x192_S192x192_0_0
abbrev r2_b : Rect S1x192 := Rect.unit (s := S1x192) ![0, 0] S1x192.size inb_S1x192_S1x192_0_0

/-! ## What the body leaves in the output window's buffer -/

/-- The output buffer after the body: its one store, over the payload of the five loaded blocks. -/
def out2_5 (x0 : Vec F S5000x192 .bf16) (x1 : Vec F S192x192 .bf16) (x2 : Vec F S1x192 .f32) (x3 : Vec F S192x192 .bf16) (x4 : Vec F S1x192 .f32) : Vec F S5000x192 .f32 :=
  View.canon [⟨r2_x, k2_pay1 (View.ld x0 r2_x) (View.ld x1 r2_w) (View.ld x2 r2_b) (View.ld x3 r2_w) (View.ld x4 r2_b)⟩]

/-- The one store covers the buffer. -/
theorem cover2_5 (p0 : Vec F S5000x192 .f32) (y : S5000x192.Idx) :
    ∃ pc ∈ ([⟨r2_x, p0⟩] : List (View.Piece (Elt F) S5000x192 .f32)), y ∈ pc.1.set :=
  View.cover_of_tiled [⟨r2_x, p0⟩] S5000x192.size (by rfl) y

/-! ## The body's triple -/

set_option maxHeartbeats 1000000 in
/-- On whole staging memrefs, the inputs' at contents `x0 … x4` and the output's at anything, the body runs to its
    continuation with the inputs as they were and the output at `out2_5` of them. -/
theorem sound_kernel2 (c : Dev nD) (E : Set ℕ) (i : grid2.Coords)
    (arg1 : Memref sig .tc .vmem S5000x192 .bf16) (harg1 : arg1.IsWhole) (arg2 : Memref sig .tc .vmem S192x192 .bf16) (harg2 : arg2.IsWhole)
    (arg3 : Memref sig .tc .vmem S1x192 .f32) (harg3 : arg3.IsWhole) (arg4 : Memref sig .tc .vmem S192x192 .bf16) (harg4 : arg4.IsWhole)
    (arg5 : Memref sig .tc .vmem S1x192 .f32) (harg5 : arg5.IsWhole) (arg6 : Memref sig .tc .vmem S5000x192 .f32) (harg6 : arg6.IsWhole)
    (x0 : Vec F S5000x192 .bf16) (x1 : Vec F S192x192 .bf16) (x2 : Vec F S1x192 .f32) (x3 : Vec F S192x192 .bf16) (x4 : Vec F S1x192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__relation_kernel i arg1 harg1 arg2 harg2 arg3 harg3 arg4 harg4 arg5 harg5 arg6 harg6) K := by
  simp only [cc2__relation_kernel_eq_skeleton]; unfold cc2__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input buffer still at its block and the output buffer at `out2_5` of the input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the triple applies; the invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.WordRegion3.lean ====
/-
  Region 3 of @main (the update network: one pallas_call over row blocks of 5000 nodes), at any float instance and at ANY
  contents `V` of the TensorCore's buffers on entry.  The body reads seven whole staging buffers — the block of summed
  exponentials, the block of node states, the 1×1 offset, two weight matrices and two bias rows — and overwrites the whole
  output block with `max([log(e)/8 + off | s]·W₁ + b₁, 0)·W₂ + b₂` (the payload `k3_pay1`).  Stated here: each window's
  block at a grid point as a read of its array, what the body leaves in the output buffer as a function of the seven
  input blocks, the body's triple, and the pipeline's proof data with its body obligation.
-/
import proofs.«171401_j10385230921929_1_alg».proof.Proof.Gen.Kernel.Launch
import proofs.«171401_j10385230921929_1_alg».proof.Proof.Gen.Kernel.Skeleton
import proofs.«171401_j10385230921929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or the block index
    stood still since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the point fetched it or the block index
    stood still since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, whether the point fetched it or the block index
    stood still since the last fetch. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_n : Rect S5000x64 := Rect.unit (s := S5000x64) ![0, 0] S5000x64.size inb_S5000x64_S5000x64_0_0
abbrev r3_s : Rect S1x1 := Rect.unit (s := S1x1) ![0, 0] S1x1.size inb_S1x1_S1x1_0_0
abbrev r3_w1 : Rect S128x128 := Rect.unit (s := S128x128) ![0, 0] S128x128.size inb_S128x128_S128x128_0_0
abbrev r3_b1 : Rect S1x128 := Rect.unit (s := S1x128) ![0, 0] S1x128.size inb_S1x128_S1x128_0_0
abbrev r3_w2 : Rect S128x64 := Rect.unit (s := S128x64) ![0, 0] S128x64.size inb_S128x64_S128x64_0_0
abbrev r3_b2 : Rect S1x64 := Rect.unit (s := S1x64) ![0, 0] S1x64.size inb_S1x64_S1x64_0_0

/-! ## What the body leaves in the output window's buffer -/

/-- The output buffer after the body: its one store, over the payload of the seven loaded blocks (the payload takes the
    offset first, as the body loads it first). -/
def out3_7 (x0 : Vec F S5000x64 .f32) (x1 : Vec F S5000x64 .f32) (x2 : Vec F S1x1 .f32) (x3 : Vec F S128x128 .bf16) (x4 : Vec F S1x128 .f32)
    (x5 : Vec F S128x64 .bf16) (x6 : Vec F S1x64 .f32) : Vec F S5000x64 .f32 :=
  View.canon [⟨r3_n, k3_pay1 (View.ld x2 r3_s) (View.ld x0 r3_n) (View.ld x1 r3_n) (View.ld x3 r3_w1) (View.ld x4 r3_b1) (View.ld x5 r3_w2) (View.ld x6 r3_b2)⟩]

/-- The one store covers the buffer. -/
theorem cover3_7 (p0 : Vec F S5000x64 .f32) (y : S5000x64.Idx) :
    ∃ pc ∈ ([⟨r3_n, p0⟩] : List (View.Piece (Elt F) S5000x64 .f32)), y ∈ pc.1.set :=
  View.cover_of_tiled [⟨r3_n, p0⟩] S5000x64.size (by rfl) y

/-! ## The body's triple -/

set_option maxHeartbeats 1000000 in
/-- On whole staging memrefs, the inputs' at contents `x0 … x6` and the output's at anything, the body runs to its
    continuation with the inputs as they were and the output at `out3_7` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x64 .bf16) (harg6 : arg6.IsWhole)
    (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S1x1 .f32) (x3 : Vec F S128x128 .bf16) (x4 : Vec F S1x128 .f32)
    (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__update_kernel i arg1 harg1 arg2 harg2 arg3 harg3 arg4 harg4 arg5 harg5 arg6 harg6 arg7 harg7 arg8 harg8) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them; after the body at point `t` each
    input buffer still at its block and the output buffer at `out3_7` of the input blocks; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the input memrefs hold their blocks, so the triple applies; the invariant and the core's dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.WordRun.lean ====
/-
  The run of @main, at any float instance: four stretches of host operations alternating with the four pallas_calls.
  The contents of the TensorCore's buffers at each of the nine boundaries are a fold from the launch memory — a stretch
  applies its operations, a region replaces its arrays by what its pipeline leaves (an input array as entered, the output
  array with every point's write-back folded in) and keeps everything else.  Over the thread state "every unscoped buffer
  at the boundary's contents, the generator register at some state, nothing owed" each stretch and each region is a
  segment, and the launch theorem for a list of segments gives: every weakly fair execution terminates, nothing faults,
  and at the end every unscoped buffer holds the last boundary's contents.  Read at an argument that is the launch
  contents (no stretch writes an argument; a region at most reads one through an input window); read at the result
  buffer it is what the last region's pipeline leaves in its output array.
-/
import proofs.«171401_j10385230921929_1_alg».proof.Proof.WordRegion0
import proofs.«171401_j10385230921929_1_alg».proof.Proof.WordRegion1
import proofs.«171401_j10385230921929_1_alg».proof.Proof.WordRegion2
import proofs.«171401_j10385230921929_1_alg».proof.Proof.WordRegion3
import proofs.«171401_j10385230921929_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)

/-- After host stretch 0 (region 0's entry). -/
abbrev Bd1 : Dev nD → Valuation τ sig (Elt F) := fun c => StableHlo.after hostOps0 (Bd0 m ρ c)
/-- The same read at the TensorCore's references: what region 0's proof data take. -/
abbrev En1 : (c : Dev nD) → (b : Ref sig .tc) → Buf (Elt F) ((c : Thread nD τ).loc b) := fun c b => Bd1 m ρ c b
/-- At region 0's exit: its arrays at what the pipeline leaves (an input's as entered, the output's write-backs folded), every
    other buffer as entered. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (dat0 (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- A reference host stretch 0 does not write keeps its contents across it. -/
theorem Bd1_of (c : Dev nD) (r : Ref sig .tc) (h : r ∉ hostOps0_W) :
    Bd1 m ρ c (Proc.devRef .tc r) = Bd0 m ρ c (Proc.devRef .tc r) :=
  StableHlo.after_of_writes_sub hostOps0 _ hostOps0_writes h

/-- After host stretch 1 (region 1's entry). -/
abbrev Bd3 : Dev nD → Valuation τ sig (Elt F) := fun c => StableHlo.after hostOps1 (Bd2 m ρ c)
/-- The same read at the TensorCore's references: what region 1's proof data take. -/
abbrev En3 : (c : Dev nD) → (b : Ref sig .tc) → Buf (Elt F) ((c : Thread nD τ).loc b) := fun c b => Bd3 m ρ c b
/-- At region 1's exit: its arrays at what the pipeline leaves (an input's as entered, the output's write-backs folded), every
    other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- A reference host stretch 1 does not write keeps its contents across it. -/
theorem Bd3_of (c : Dev nD) (r : Ref sig .tc) (h : r ∉ hostOps1_W) :
    Bd3 m ρ c (Proc.devRef .tc r) = Bd2 m ρ c (Proc.devRef .tc r) :=
  StableHlo.after_of_writes_sub hostOps1 _ hostOps1_writes h

/-- After host stretch 2 (region 2's entry). -/
abbrev Bd5 : Dev nD → Valuation τ sig (Elt F) := fun c => StableHlo.after hostOps2 (Bd4 m ρ c)
/-- The same read at the TensorCore's references: what region 2's proof data take. -/
abbrev En5 : (c : Dev nD) → (b : Ref sig .tc) → Buf (Elt F) ((c : Thread nD τ).loc b) := fun c b => Bd5 m ρ c b
/-- At region 2's exit: its arrays at what the pipeline leaves (an input's as entered, the output's write-backs folded), every
    other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem hF2 (c : Dev nD) (w : Fin cfg2.W) : (dat2 (En5 m ρ) c).arrAt w cfg2.N = Ex6 m ρ c (Pipeline.arrRef spec2 w) :=
  (Bd6_arr m ρ c w).symm
theorem hrest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)
/-- A reference host stretch 2 does not write keeps its contents across it. -/
theorem Bd5_of (c : Dev nD) (r : Ref sig .tc) (h : r ∉ hostOps2_W) :
    Bd5 m ρ c (Proc.devRef .tc r) = Bd4 m ρ c (Proc.devRef .tc r) :=
  StableHlo.after_of_writes_sub hostOps2 _ hostOps2_writes h

/-- After host stretch 3 (region 3's entry). -/
abbrev Bd7 : Dev nD → Valuation τ sig (Elt F) := fun c => StableHlo.after hostOps3 (Bd6 m ρ c)
/-- The same read at the TensorCore's references: what region 3's proof data take. -/
abbrev En7 : (c : Dev nD) → (b : Ref sig .tc) → Buf (Elt F) ((c : Thread nD τ).loc b) := fun c b => Bd7 m ρ c b
/-- At region 3's exit: its arrays at what the pipeline leaves (an input's as entered, the output's write-backs folded), every
    other buffer as entered. -/
def Bd8 (c : Dev nD) : Valuation τ sig (Elt F) :=
  Pipeline.withArrays spec3 c (Bd7 m ρ c) fun w => (dat3 (En7 m ρ) c).arrAt w cfg3.N
theorem Bd8_arr (c : Dev nD) (w : Fin cfg3.W) :
    Bd8 m ρ c (Proc.devRef .tc (Pipeline.arrRef spec3 w)) = (dat3 (En7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m ρ c b
theorem hF3 (c : Dev nD) (w : Fin cfg3.W) : (dat3 (En7 m ρ) c).arrAt w cfg3.N = Ex8 m ρ c (Pipeline.arrRef spec3 w) :=
  (Bd8_arr m ρ c w).symm
theorem hrest3 (c : Dev nD) : ∀ b, b ∉ Finset.univ.image (Pipeline.arrRef spec3) → Ex8 m ρ c b = En7 m ρ c b :=
  fun b hb => Bd8_of_ne m ρ c b fun w e => hb (Finset.mem_image.mpr ⟨w, Finset.mem_univ _, e⟩)
/-- A reference host stretch 3 does not write keeps its contents across it. -/
theorem Bd7_of (c : Dev nD) (r : Ref sig .tc) (h : r ∉ hostOps3_W) :
    Bd7 m ρ c (Proc.devRef .tc r) = Bd6 m ρ c (Proc.devRef .tc r) :=
  StableHlo.after_of_writes_sub hostOps3 _ hostOps3_writes h

/-! ## The arguments end as launched -/

/-- A reference no stretch writes and no region stages holds its launch contents at the end. -/
theorem Bd8_kept (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r)
    (n3 : ∀ w, Pipeline.arrRef spec3 w ≠ r) : Bd8 m ρ c (Proc.devRef .tc r) = m ((c : Thread nD τ).loc r) :=
  (Bd8_of_ne m ρ c r n3).trans <| (Bd7_of m ρ c r h3).trans <| (Bd6_of_ne m ρ c r n2).trans <| (Bd5_of m ρ c r h2).trans <|
    (Bd4_of_ne m ρ c r n1).trans <| (Bd3_of m ρ c r h1).trans <| (Bd2_of_ne m ρ c r n0).trans <| (Bd1_of m ρ c r h0).trans rfl

/-- The node states are the last region's second input window: its array is as entered, and nothing before wrote it. -/
theorem Bd8_main_arg0 (c : Dev nD) : Bd8 m ρ c (Proc.devRef .tc main_arg0) = m ((c : Thread nD τ).loc main_arg0) :=
  ((Bd8_arr m ρ c 1).trans (((dat3 (En7 m ρ) c).arrAt_in 1 rfl _).trans (A_eq3 (En7 m ρ) c 1))).trans <|
    (Bd7_of m ρ c main_arg0 (by decide)).trans <| (Bd6_of_ne m ρ c main_arg0 (by decide)).trans <| (Bd5_of m ρ c main_arg0 (by decide)).trans <|
    (Bd4_of_ne m ρ c main_arg0 (by decide)).trans <| (Bd3_of m ρ c main_arg0 (by decide)).trans <| (Bd2_of_ne m ρ c main_arg0 (by decide)).trans <|
    (Bd1_of m ρ c main_arg0 (by decide)).trans rfl

theorem Bd8_main_arg1 (c : Dev nD) : Bd8 m ρ c (Proc.devRef .tc main_arg1) = m ((c : Thread nD τ).loc main_arg1) :=
  Bd8_kept m ρ c main_arg1 (by decide) (by decide) (by decide) (by decide) (by decide) (by decide) (by decide) (by decide)
theorem Bd8_main_arg2 (c : Dev nD) : Bd8 m ρ c (Proc.devRef .tc main_arg2) = m ((c : Thread nD τ).loc main_arg2) :=
  Bd8_kept m ρ c main_arg2 (by decide) (by decide) (by decide) (by decide) (by decide) (by decide) (by decide) (by decide)
theorem Bd8_main_arg3 (c : Dev nD) : Bd8 m ρ c (Proc.devRef .tc main_arg3) = m ((c : Thread nD τ).loc main_arg3) :=
  Bd8_kept m ρ c main_arg3 (by decide) (by decide) (by decide) (by decide) (by decide) (by decide) (by decide) (by decide)
theorem Bd8_main_arg4 (c : Dev nD) : Bd8 m ρ c (Proc.devRef .tc main_arg4) = m ((c : Thread nD τ).loc main_arg4) :=
  Bd8_kept m ρ c main_arg4 (by decide) (by decide) (by decide) (by decide) (by decide) (by decide) (by decide) (by decide)
theorem Bd8_main_arg5 (c : Dev nD) : Bd8 m ρ c (Proc.devRef .tc main_arg5) = m ((c : Thread nD τ).loc main_arg5) :=
  Bd8_kept m ρ c main_arg5 (by decide) (by decide) (by decide) (by decide) (by decide) (by decide) (by decide) (by decide)
theorem Bd8_main_arg6 (c : Dev nD) : Bd8 m ρ c (Proc.devRef .tc main_arg6) = m ((c : Thread nD τ).loc main_arg6) :=
  Bd8_kept m ρ c main_arg6 (by decide) (by decide) (by decide) (by decide) (by decide) (by decide) (by decide) (by decide)
theorem Bd8_main_arg7 (c : Dev nD) : Bd8 m ρ c (Proc.devRef .tc main_arg7) = m ((c : Thread nD τ).loc main_arg7) :=
  Bd8_kept m ρ c main_arg7 (by decide) (by decide) (by decide) (by decide) (by decide) (by decide) (by decide) (by decide)
theorem Bd8_main_arg8 (c : Dev nD) : Bd8 m ρ c (Proc.devRef .tc main_arg8) = m ((c : Thread nD τ).loc main_arg8) :=
  Bd8_kept m ρ c main_arg8 (by decide) (by decide) (by decide) (by decide) (by decide) (by decide) (by decide) (by decide)
theorem Bd8_main_arg9 (c : Dev nD) : Bd8 m ρ c (Proc.devRef .tc main_arg9) = m ((c : Thread nD τ).loc main_arg9) :=
  Bd8_kept m ρ c main_arg9 (by decide) (by decide) (by decide) (by decide) (by decide) (by decide) (by decide) (by decide)
theorem Bd8_main_arg10 (c : Dev nD) : Bd8 m ρ c (Proc.devRef .tc main_arg10) = m ((c : Thread nD τ).loc main_arg10) :=
  Bd8_kept m ρ c main_arg10 (by decide) (by decide) (by decide) (by decide) (by decide) (by decide) (by decide) (by decide)
theorem Bd8_main_arg11 (c : Dev nD) : Bd8 m ρ c (Proc.devRef .tc main_arg11) = m ((c : Thread nD τ).loc main_arg11) :=
  Bd8_kept m ρ c main_arg11 (by decide) (by decide) (by decide) (by decide) (by decide) (by decide) (by decide) (by decide)
theorem Bd8_main_arg12 (c : Dev nD) : Bd8 m ρ c (Proc.devRef .tc main_arg12) = m ((c : Thread nD τ).loc main_arg12) :=
  Bd8_kept m ρ c main_arg12 (by decide) (by decide) (by decide) (by decide) (by decide) (by decide) (by decide) (by decide)
theorem Bd8_main_arg13 (c : Dev nD) : Bd8 m ρ c (Proc.devRef .tc main_arg13) = m ((c : Thread nD τ).loc main_arg13) :=
  Bd8_kept m ρ c main_arg13 (by decide) (by decide) (by decide) (by decide) (by decide) (by decide) (by decide) (by decide)
theorem Bd8_main_arg14 (c : Dev nD) : Bd8 m ρ c (Proc.devRef .tc main_arg14) = m ((c : Thread nD τ).loc main_arg14) :=
  Bd8_kept m ρ c main_arg14 (by decide) (by decide) (by decide) (by decide) (by decide) (by decide) (by decide) (by decide)
theorem Bd8_main_arg15 (c : Dev nD) : Bd8 m ρ c (Proc.devRef .tc main_arg15) = m ((c : Thread nD τ).loc main_arg15) :=
  Bd8_kept m ρ c main_arg15 (by decide) (by decide) (by decide) (by decide) (by decide) (by decide) (by decide) (by decide)
theorem Bd8_main_arg16 (c : Dev nD) : Bd8 m ρ c (Proc.devRef .tc main_arg16) = m ((c : Thread nD τ).loc main_arg16) :=
  Bd8_kept m ρ c main_arg16 (by decide) (by decide) (by decide) (by decide) (by decide) (by decide) (by decide) (by decide)
theorem Bd8_main_arg17 (c : Dev nD) : Bd8 m ρ c (Proc.devRef .tc main_arg17) = m ((c : Thread nD τ).loc main_arg17) :=
  Bd8_kept m ρ c main_arg17 (by decide) (by decide) (by decide) (by decide) (by decide) (by decide) (by decide) (by decide)
theorem Bd8_main_arg18 (c : Dev nD) : Bd8 m ρ c (Proc.devRef .tc main_arg18) = m ((c : Thread nD τ).loc main_arg18) :=
  Bd8_kept m ρ c main_arg18 (by decide) (by decide) (by decide) (by decide) (by decide) (by decide) (by decide) (by decide)
theorem Bd8_main_arg19 (c : Dev nD) : Bd8 m ρ c (Proc.devRef .tc main_arg19) = m ((c : Thread nD τ).loc main_arg19) :=
  Bd8_kept m ρ c main_arg19 (by decide) (by decide) (by decide) (by decide) (by decide) (by decide) (by decide) (by decide)

/-- The result buffer at the end: what the last region's pipeline leaves in its output array. -/
theorem Bd8_result (c : Dev nD) : Bd8 m ρ c (Proc.devRef .tc main_v103) = (dat3 (En7 m ρ) c).arrAt 7 cfg3.N :=
  Bd8_arr m ρ c 7

/-! ## The proof data family and the thread state -/

abbrev admK : (p : Fin 4) → (pcfgs (F := F) p).Adm := fun p => (cfgs p).toPCfg_adm
/-- Every pipeline's proof data, each at its region's entry contents (a literal match on the pipeline's number). -/
def pdats : (p : Fin 4) → (c : Dev nD) → Dat τ (Elt F) Unit ℕ (UR sig nD τ) ℕ (Pipeline.pin (pcfgs (F := F)) admK p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd8 m ρ c) ∗ ∃ r, prngReg c r)

/-! ## The regions as segments -/

set_option backward.isDefEq.respectTransparency.types false in
/-- Region 0 over the thread state: entered with every unscoped buffer at `Bd1`, left with them at `Bd2`.  Its arrays
    are split out of the unscoped buffers on entry and put back, at what the pipeline leaves, on exit; the generator
    register goes into the class invariant and comes back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Bd3`, left with them at `Bd4`.  Its arrays
    are split out of the unscoped buffers on entry and put back, at what the pipeline leaves, on exit; the generator
    register goes into the class invariant and comes back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Bd5`, left with them at `Bd6`.  Its arrays
    are split out of the unscoped buffers on entry and put back, at what the pipeline leaves, on exit; the generator
    register goes into the class invariant and comes back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Bd7`, left with them at `Bd8`.  Its arrays
    are split out of the unscoped buffers on entry and put back, at what the pipeline leaves, on exit; the generator
    register goes into the class invariant and comes back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) admK (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .host (hseg hostOps3 hostOps3_sub hostOps3_fresh (Bd6 m ρ)),
    .region (reg3 m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, with the
    result buffer at the last boundary's contents and every argument as launched. -/
theorem run : θ_run defs (onTc (τ := τ) (main (F := F))) ⟨m, fun _ => 0, ρ⟩ (fun r => ∀ c : Dev nD,
      r.2.mem ((c.tc : Thread nD τ).loc main_v103) = Bd8 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) admK (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Bd8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd8 m ρ c) s')
      isplitl [Hh] <;> iassumption)
    (hQ := fun s h c =>
      ⟨h c _ (mem_uc main_v103 (by decide)),
       (h c _ (mem_uc main_arg0 (by decide))).trans (Bd8_main_arg0 m ρ c),
       (h c _ (mem_uc main_arg1 (by decide))).trans (Bd8_main_arg1 m ρ c),
       (h c _ (mem_uc main_arg2 (by decide))).trans (Bd8_main_arg2 m ρ c),
       (h c _ (mem_uc main_arg3 (by decide))).trans (Bd8_main_arg3 m ρ c),
       (h c _ (mem_uc main_arg4 (by decide))).trans (Bd8_main_arg4 m ρ c),
       (h c _ (mem_uc main_arg5 (by decide))).trans (Bd8_main_arg5 m ρ c),
       (h c _ (mem_uc main_arg6 (by decide))).trans (Bd8_main_arg6 m ρ c),
       (h c _ (mem_uc main_arg7 (by decide))).trans (Bd8_main_arg7 m ρ c),
       (h c _ (mem_uc main_arg8 (by decide))).trans (Bd8_main_arg8 m ρ c),
       (h c _ (mem_uc main_arg9 (by decide))).trans (Bd8_main_arg9 m ρ c),
       (h c _ (mem_uc main_arg10 (by decide))).trans (Bd8_main_arg10 m ρ c),
       (h c _ (mem_uc main_arg11 (by decide))).trans (Bd8_main_arg11 m ρ c),
       (h c _ (mem_uc main_arg12 (by decide))).trans (Bd8_main_arg12 m ρ c),
       (h c _ (mem_uc main_arg13 (by decide))).trans (Bd8_main_arg13 m ρ c),
       (h c _ (mem_uc main_arg14 (by decide))).trans (Bd8_main_arg14 m ρ c),
       (h c _ (mem_uc main_arg15 (by decide))).trans (Bd8_main_arg15 m ρ c),
       (h c _ (mem_uc main_arg16 (by decide))).trans (Bd8_main_arg16 m ρ c),
       (h c _ (mem_uc main_arg17 (by decide))).trans (Bd8_main_arg17 m ρ c),
       (h c _ (mem_uc main_arg18 (by decide))).trans (Bd8_main_arg18 m ρ c),
       (h c _ (mem_uc main_arg19 (by decide))).trans (Bd8_main_arg19 m ρ c)⟩)

end Cert.Kernel.Frame

end
-- ==== Proof.IdealRegion0.lean ====
/-
  Region 0 of @main (the relation network of relation 0: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k0_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.KernelIdeal.Launch
import proofs.«171401_j10385230921929_1_alg».proof.Proof.Gen.KernelIdeal.Skeleton
import proofs.«171401_j10385230921929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output window's buffer -/

/-- The output buffer after the body: its one store, over the payload of the five loaded blocks. -/
def out0_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r0_x, k0_pay1 (View.ld x0 r0_x) (View.ld x1 r0_w) (View.ld x2 r0_b) (View.ld x3 r0_w) (View.ld x4 r0_b)⟩]

/-- The one store covers the buffer. -/
theorem cover0_5 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- On whole staging memrefs, the inputs' at contents `x0 … x4` and the output's at anything, the body runs to its
    continuation with the inputs as they were and the output at `out0_5` of them. -/
theorem sound_kernel0 (c : Dev nD) (E : Set ℕ) (i : grid0.Coords)
    (arg1 : Memref sig .tc .vmem S5000x128 .bf16) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__relation_kernel i arg1 harg1 arg2 harg2 arg3 harg3 arg4 harg4 arg5 harg5 arg6 harg6) K := by
  simp only [cc0__relation_kernel_eq_skeleton]; unfold cc0__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input buffer still at its block and the output buffer at `out0_5` of the input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealRegion1.lean ====
/-
  Region 1 of @main (the relation network of relation 1: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k1_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.KernelIdeal.Launch
import proofs.«171401_j10385230921929_1_alg».proof.Proof.Gen.KernelIdeal.Skeleton
import proofs.«171401_j10385230921929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-! ## What the body leaves in the output window's buffer -/

/-- The output buffer after the body: its one store, over the payload of the five loaded blocks. -/
def out1_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r1_x, k1_pay1 (View.ld x0 r1_x) (View.ld x1 r1_w) (View.ld x2 r1_b) (View.ld x3 r1_w) (View.ld x4 r1_b)⟩]

/-- The one store covers the buffer. -/
theorem cover1_5 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

/-! ## The body's triple -/

set_option maxHeartbeats 1000000 in
/-- On whole staging memrefs, the inputs' at contents `x0 … x4` and the output's at anything, the body runs to its
    continuation with the inputs as they were and the output at `out1_5` of them. -/
theorem sound_kernel1 (c : Dev nD) (E : Set ℕ) (i : grid1.Coords)
    (arg1 : Memref sig .tc .vmem S5000x128 .bf16) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__relation_kernel i arg1 harg1 arg2 harg2 arg3 harg3 arg4 harg4 arg5 harg5 arg6 harg6) K := by
  simp only [cc1__relation_kernel_eq_skeleton]; unfold cc1__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input buffer still at its block and the output buffer at `out1_5` of the input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IdealRegion2.lean ====
/-
  Region 2 of @main (the relation network of relation 2: one pallas_call over row blocks of 5000 rows), at any float
  instance and at ANY contents `V` of the TensorCore's buffers on entry.  The body reads five whole staging buffers —
  the row block `x`, the two weight matrices and the two bias rows — and overwrites the whole output block with
  `max(x·W₁ + b₁, 0)·W₂ + b₂` (the payload `k2_pay1`).  Stated here: each window's block at a grid point as a read
  of its array, what the body leaves in the output buffer as a function of the five input blocks, the body's
  triple, and the pipeline's proof data with its body obligation (an input window's buffer holds its block at every
  point, fetched there or carried over from the point before).
-/
import proofs.«171401_j10385230921929_1_alg».proof.Proof.Gen.KernelIdeal.Launch
import proofs.«171401_j10385230921929_1_alg».proof.Proof.Gen.KernelIdeal.Skeleton
import proofs.«171401_j10385230921929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_x : Rect S5000x192 := Rect.unit (s := S5000x192) ![0, 0] S5000x192.size inb_S5000x192_S5000x192_0_0
abbrev r2_w : Rect S192x192 := Rect.unit (s := S192x192) ![0, 0] S192x192.size inb_S192x192_S192x192_0_0
abbrev r2_b : Rect S1x192 := Rect.unit (s := S1x192) ![0, 0] S1x192.size inb_S1x192_S1x192_0_0

/-! ## What the body leaves in the output window's buffer -/

/-- The output buffer after the body: its one store, over the payload of the five loaded blocks. -/
def out2_5 (x0 : Vec F S5000x192 .bf16) (x1 : Vec F S192x192 .bf16) (x2 : Vec F S1x192 .f32) (x3 : Vec F S192x192 .bf16) (x4 : Vec F S1x192 .f32) : Vec F S5000x192 .f32 :=
  View.canon [⟨r2_x, k2_pay1 (View.ld x0 r2_x) (View.ld x1 r2_w) (View.ld x2 r2_b) (View.ld x3 r2_w) (View.ld x4 r2_b)⟩]

/-- The one store covers the buffer. -/
theorem cover2_5 (p0 : Vec F S5000x192 .f32) (y : S5000x192.Idx) :
    ∃ pc ∈ ([⟨r2_x, p0⟩] : List (View.Piece (Elt F) S5000x192 .f32)), y ∈ pc.1.set :=
  View.cover_of_tiled [⟨r2_x, p0⟩] S5000x192.size (by rfl) y

/-! ## The body's triple -/

set_option maxHeartbeats 1000000 in
/-- On whole staging memrefs, the inputs' at contents `x0 … x4` and the output's at anything, the body runs to its
    continuation with the inputs as they were and the output at `out2_5` of them. -/
theorem sound_kernel2 (c : Dev nD) (E : Set ℕ) (i : grid2.Coords)
    (arg1 : Memref sig .tc .vmem S5000x192 .bf16) (harg1 : arg1.IsWhole) (arg2 : Memref sig .tc .vmem S192x192 .bf16) (harg2 : arg2.IsWhole)
    (arg3 : Memref sig .tc .vmem S1x192 .f32) (harg3 : arg3.IsWhole) (arg4 : Memref sig .tc .vmem S192x192 .bf16) (harg4 : arg4.IsWhole)
    (arg5 : Memref sig .tc .vmem S1x192 .f32) (harg5 : arg5.IsWhole) (arg6 : Memref sig .tc .vmem S5000x192 .f32) (harg6 : arg6.IsWhole)
    (x0 : Vec F S5000x192 .bf16) (x1 : Vec F S192x192 .bf16) (x2 : Vec F S1x192 .f32) (x3 : Vec F S192x192 .bf16) (x4 : Vec F S1x192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__relation_kernel i arg1 harg1 arg2 harg2 arg3 harg3 arg4 harg4 arg5 harg5 arg6 harg6) K := by
  simp only [cc2__relation_kernel_eq_skeleton]; unfold cc2__relation_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input buffer still at its block and the output buffer at `out2_5` of the input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the triple applies; the invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.IdealRegion3.lean ====
/-
  Region 3 of @main (the update network: one pallas_call over row blocks of 5000 nodes), at any float instance and at ANY
  contents `V` of the TensorCore's buffers on entry.  The body reads seven whole staging buffers — the block of summed
  exponentials, the block of node states, the 1×1 offset, two weight matrices and two bias rows — and overwrites the whole
  output block with `max([log(e)/8 + off | s]·W₁ + b₁, 0)·W₂ + b₂` (the payload `k3_pay1`).  Stated here: each window's
  block at a grid point as a read of its array, what the body leaves in the output buffer as a function of the seven
  input blocks, the body's triple, and the pipeline's proof data with its body obligation.
-/
import proofs.«171401_j10385230921929_1_alg».proof.Proof.Gen.KernelIdeal.Launch
import proofs.«171401_j10385230921929_1_alg».proof.Proof.Gen.KernelIdeal.Skeleton
import proofs.«171401_j10385230921929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the index map selects, read off `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or the block index
    stood still since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the point fetched it or the block index
    stood still since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, whether the point fetched it or the block index
    stood still since the last fetch. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_n : Rect S5000x64 := Rect.unit (s := S5000x64) ![0, 0] S5000x64.size inb_S5000x64_S5000x64_0_0
abbrev r3_s : Rect S1x1 := Rect.unit (s := S1x1) ![0, 0] S1x1.size inb_S1x1_S1x1_0_0
abbrev r3_w1 : Rect S128x128 := Rect.unit (s := S128x128) ![0, 0] S128x128.size inb_S128x128_S128x128_0_0
abbrev r3_b1 : Rect S1x128 := Rect.unit (s := S1x128) ![0, 0] S1x128.size inb_S1x128_S1x128_0_0
abbrev r3_w2 : Rect S128x64 := Rect.unit (s := S128x64) ![0, 0] S128x64.size inb_S128x64_S128x64_0_0
abbrev r3_b2 : Rect S1x64 := Rect.unit (s := S1x64) ![0, 0] S1x64.size inb_S1x64_S1x64_0_0

/-! ## What the body leaves in the output window's buffer -/

/-- The output buffer after the body: its one store, over the payload of the seven loaded blocks (the payload takes the
    offset first, as the body loads it first). -/
def out3_7 (x0 : Vec F S5000x64 .f32) (x1 : Vec F S5000x64 .f32) (x2 : Vec F S1x1 .f32) (x3 : Vec F S128x128 .bf16) (x4 : Vec F S1x128 .f32)
    (x5 : Vec F S128x64 .bf16) (x6 : Vec F S1x64 .f32) : Vec F S5000x64 .f32 :=
  View.canon [⟨r3_n, k3_pay1 (View.ld x2 r3_s) (View.ld x0 r3_n) (View.ld x1 r3_n) (View.ld x3 r3_w1) (View.ld x4 r3_b1) (View.ld x5 r3_w2) (View.ld x6 r3_b2)⟩]

/-- The one store covers the buffer. -/
theorem cover3_7 (p0 : Vec F S5000x64 .f32) (y : S5000x64.Idx) :
    ∃ pc ∈ ([⟨r3_n, p0⟩] : List (View.Piece (Elt F) S5000x64 .f32)), y ∈ pc.1.set :=
  View.cover_of_tiled [⟨r3_n, p0⟩] S5000x64.size (by rfl) y

/-! ## The body's triple -/

set_option maxHeartbeats 1000000 in
/-- On whole staging memrefs, the inputs' at contents `x0 … x6` and the output's at anything, the body runs to its
    continuation with the inputs as they were and the output at `out3_7` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x64 .bf16) (harg6 : arg6.IsWhole)
    (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S1x1 .f32) (x3 : Vec F S128x128 .bf16) (x4 : Vec F S1x128 .f32)
    (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__update_kernel i arg1 harg1 arg2 harg2 arg3 harg3 arg4 harg4 arg5 harg5 arg6 harg6 arg7 harg7 arg8 harg8) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them; after the body at point `t` each
    input buffer still at its block and the output buffer at `out3_7` of the input blocks; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the input memrefs hold their blocks, so the triple applies; the invariant and the core's dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.IdealRun.lean ====
/-
  The run of @main, at any float instance: four stretches of host operations alternating with the four pallas_calls.
  The contents of the TensorCore's buffers at each of the nine boundaries are a fold from the launch memory — a stretch
  applies its operations, a region replaces its arrays by what its pipeline leaves (an input array as entered, the output
  array with every point's write-back folded in) and keeps everything else.  Over the thread state "every unscoped buffer
  at the boundary's contents, the generator register at some state, nothing owed" each stretch and each region is a
  segment, and the launch theorem for a list of segments gives: every weakly fair execution terminates, nothing faults,
  and at the end every unscoped buffer holds the last boundary's contents.  Read at an argument that is the launch
  contents (no stretch writes an argument; a region at most reads one through an input window); read at the result
  buffer it is what the last region's pipeline leaves in its output array.
-/
import proofs.«171401_j10385230921929_1_alg».proof.Proof.IdealRegion0
import proofs.«171401_j10385230921929_1_alg».proof.Proof.IdealRegion1
import proofs.«171401_j10385230921929_1_alg».proof.Proof.IdealRegion2
import proofs.«171401_j10385230921929_1_alg».proof.Proof.IdealRegion3
import proofs.«171401_j10385230921929_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)

/-- After host stretch 0 (region 0's entry). -/
abbrev Bd1 : Dev nD → Valuation τ sig (Elt F) := fun c => StableHlo.after hostOps0 (Bd0 m ρ c)
/-- The same read at the TensorCore's references: what region 0's proof data take. -/
abbrev En1 : (c : Dev nD) → (b : Ref sig .tc) → Buf (Elt F) ((c : Thread nD τ).loc b) := fun c b => Bd1 m ρ c b
/-- At region 0's exit: its arrays at what the pipeline leaves (an input's as entered, the output's write-backs folded), every
    other buffer as entered. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (dat0 (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- A reference host stretch 0 does not write keeps its contents across it. -/
theorem Bd1_of (c : Dev nD) (r : Ref sig .tc) (h : r ∉ hostOps0_W) :
    Bd1 m ρ c (Proc.devRef .tc r) = Bd0 m ρ c (Proc.devRef .tc r) :=
  StableHlo.after_of_writes_sub hostOps0 _ hostOps0_writes h

/-- After host stretch 1 (region 1's entry). -/
abbrev Bd3 : Dev nD → Valuation τ sig (Elt F) := fun c => StableHlo.after hostOps1 (Bd2 m ρ c)
/-- The same read at the TensorCore's references: what region 1's proof data take. -/
abbrev En3 : (c : Dev nD) → (b : Ref sig .tc) → Buf (Elt F) ((c : Thread nD τ).loc b) := fun c b => Bd3 m ρ c b
/-- At region 1's exit: its arrays at what the pipeline leaves (an input's as entered, the output's write-backs folded), every
    other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- A reference host stretch 1 does not write keeps its contents across it. -/
theorem Bd3_of (c : Dev nD) (r : Ref sig .tc) (h : r ∉ hostOps1_W) :
    Bd3 m ρ c (Proc.devRef .tc r) = Bd2 m ρ c (Proc.devRef .tc r) :=
  StableHlo.after_of_writes_sub hostOps1 _ hostOps1_writes h

/-- After host stretch 2 (region 2's entry). -/
abbrev Bd5 : Dev nD → Valuation τ sig (Elt F) := fun c => StableHlo.after hostOps2 (Bd4 m ρ c)
/-- The same read at the TensorCore's references: what region 2's proof data take. -/
abbrev En5 : (c : Dev nD) → (b : Ref sig .tc) → Buf (Elt F) ((c : Thread nD τ).loc b) := fun c b => Bd5 m ρ c b
/-- At region 2's exit: its arrays at what the pipeline leaves (an input's as entered, the output's write-backs folded), every
    other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem hF2 (c : Dev nD) (w : Fin cfg2.W) : (dat2 (En5 m ρ) c).arrAt w cfg2.N = Ex6 m ρ c (Pipeline.arrRef spec2 w) :=
  (Bd6_arr m ρ c w).symm
theorem hrest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)
/-- A reference host stretch 2 does not write keeps its contents across it. -/
theorem Bd5_of (c : Dev nD) (r : Ref sig .tc) (h : r ∉ hostOps2_W) :
    Bd5 m ρ c (Proc.devRef .tc r) = Bd4 m ρ c (Proc.devRef .tc r) :=
  StableHlo.after_of_writes_sub hostOps2 _ hostOps2_writes h

/-- After host stretch 3 (region 3's entry). -/
abbrev Bd7 : Dev nD → Valuation τ sig (Elt F) := fun c => StableHlo.after hostOps3 (Bd6 m ρ c)
/-- The same read at the TensorCore's references: what region 3's proof data take. -/
abbrev En7 : (c : Dev nD) → (b : Ref sig .tc) → Buf (Elt F) ((c : Thread nD τ).loc b) := fun c b => Bd7 m ρ c b
/-- At region 3's exit: its arrays at what the pipeline leaves (an input's as entered, the output's write-backs folded), every
    other buffer as entered. -/
def Bd8 (c : Dev nD) : Valuation τ sig (Elt F) :=
  Pipeline.withArrays spec3 c (Bd7 m ρ c) fun w => (dat3 (En7 m ρ) c).arrAt w cfg3.N
theorem Bd8_arr (c : Dev nD) (w : Fin cfg3.W) :
    Bd8 m ρ c (Proc.devRef .tc (Pipeline.arrRef spec3 w)) = (dat3 (En7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m ρ c b
theorem hF3 (c : Dev nD) (w : Fin cfg3.W) : (dat3 (En7 m ρ) c).arrAt w cfg3.N = Ex8 m ρ c (Pipeline.arrRef spec3 w) :=
  (Bd8_arr m ρ c w).symm
theorem hrest3 (c : Dev nD) : ∀ b, b ∉ Finset.univ.image (Pipeline.arrRef spec3) → Ex8 m ρ c b = En7 m ρ c b :=
  fun b hb => Bd8_of_ne m ρ c b fun w e => hb (Finset.mem_image.mpr ⟨w, Finset.mem_univ _, e⟩)
/-- A reference host stretch 3 does not write keeps its contents across it. -/
theorem Bd7_of (c : Dev nD) (r : Ref sig .tc) (h : r ∉ hostOps3_W) :
    Bd7 m ρ c (Proc.devRef .tc r) = Bd6 m ρ c (Proc.devRef .tc r) :=
  StableHlo.after_of_writes_sub hostOps3 _ hostOps3_writes h

/-! ## The arguments end as launched -/

/-- A reference no stretch writes and no region stages holds its launch contents at the end. -/
theorem Bd8_kept (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r)
    (n3 : ∀ w, Pipeline.arrRef spec3 w ≠ r) : Bd8 m ρ c (Proc.devRef .tc r) = m ((c : Thread nD τ).loc r) :=
  (Bd8_of_ne m ρ c r n3).trans <| (Bd7_of m ρ c r h3).trans <| (Bd6_of_ne m ρ c r n2).trans <| (Bd5_of m ρ c r h2).trans <|
    (Bd4_of_ne m ρ c r n1).trans <| (Bd3_of m ρ c r h1).trans <| (Bd2_of_ne m ρ c r n0).trans <| (Bd1_of m ρ c r h0).trans rfl

/-- The node states are the last region's second input window: its array is as entered, and nothing before wrote it. -/
theorem Bd8_main_arg0 (c : Dev nD) : Bd8 m ρ c (Proc.devRef .tc main_arg0) = m ((c : Thread nD τ).loc main_arg0) :=
  ((Bd8_arr m ρ c 1).trans (((dat3 (En7 m ρ) c).arrAt_in 1 rfl _).trans (A_eq3 (En7 m ρ) c 1))).trans <|
    (Bd7_of m ρ c main_arg0 (by decide)).trans <| (Bd6_of_ne m ρ c main_arg0 (by decide)).trans <| (Bd5_of m ρ c main_arg0 (by decide)).trans <|
    (Bd4_of_ne m ρ c main_arg0 (by decide)).trans <| (Bd3_of m ρ c main_arg0 (by decide)).trans <| (Bd2_of_ne m ρ c main_arg0 (by decide)).trans <|
    (Bd1_of m ρ c main_arg0 (by decide)).trans rfl

theorem Bd8_main_arg1 (c : Dev nD) : Bd8 m ρ c (Proc.devRef .tc main_arg1) = m ((c : Thread nD τ).loc main_arg1) :=
  Bd8_kept m ρ c main_arg1 (by decide) (by decide) (by decide) (by decide) (by decide) (by decide) (by decide) (by decide)
theorem Bd8_main_arg2 (c : Dev nD) : Bd8 m ρ c (Proc.devRef .tc main_arg2) = m ((c : Thread nD τ).loc main_arg2) :=
  Bd8_kept m ρ c main_arg2 (by decide) (by decide) (by decide) (by decide) (by decide) (by decide) (by decide) (by decide)
theorem Bd8_main_arg3 (c : Dev nD) : Bd8 m ρ c (Proc.devRef .tc main_arg3) = m ((c : Thread nD τ).loc main_arg3) :=
  Bd8_kept m ρ c main_arg3 (by decide) (by decide) (by decide) (by decide) (by decide) (by decide) (by decide) (by decide)
theorem Bd8_main_arg4 (c : Dev nD) : Bd8 m ρ c (Proc.devRef .tc main_arg4) = m ((c : Thread nD τ).loc main_arg4) :=
  Bd8_kept m ρ c main_arg4 (by decide) (by decide) (by decide) (by decide) (by decide) (by decide) (by decide) (by decide)
theorem Bd8_main_arg5 (c : Dev nD) : Bd8 m ρ c (Proc.devRef .tc main_arg5) = m ((c : Thread nD τ).loc main_arg5) :=
  Bd8_kept m ρ c main_arg5 (by decide) (by decide) (by decide) (by decide) (by decide) (by decide) (by decide) (by decide)
theorem Bd8_main_arg6 (c : Dev nD) : Bd8 m ρ c (Proc.devRef .tc main_arg6) = m ((c : Thread nD τ).loc main_arg6) :=
  Bd8_kept m ρ c main_arg6 (by decide) (by decide) (by decide) (by decide) (by decide) (by decide) (by decide) (by decide)
theorem Bd8_main_arg7 (c : Dev nD) : Bd8 m ρ c (Proc.devRef .tc main_arg7) = m ((c : Thread nD τ).loc main_arg7) :=
  Bd8_kept m ρ c main_arg7 (by decide) (by decide) (by decide) (by decide) (by decide) (by decide) (by decide) (by decide)
theorem Bd8_main_arg8 (c : Dev nD) : Bd8 m ρ c (Proc.devRef .tc main_arg8) = m ((c : Thread nD τ).loc main_arg8) :=
  Bd8_kept m ρ c main_arg8 (by decide) (by decide) (by decide) (by decide) (by decide) (by decide) (by decide) (by decide)
theorem Bd8_main_arg9 (c : Dev nD) : Bd8 m ρ c (Proc.devRef .tc main_arg9) = m ((c : Thread nD τ).loc main_arg9) :=
  Bd8_kept m ρ c main_arg9 (by decide) (by decide) (by decide) (by decide) (by decide) (by decide) (by decide) (by decide)
theorem Bd8_main_arg10 (c : Dev nD) : Bd8 m ρ c (Proc.devRef .tc main_arg10) = m ((c : Thread nD τ).loc main_arg10) :=
  Bd8_kept m ρ c main_arg10 (by decide) (by decide) (by decide) (by decide) (by decide) (by decide) (by decide) (by decide)
theorem Bd8_main_arg11 (c : Dev nD) : Bd8 m ρ c (Proc.devRef .tc main_arg11) = m ((c : Thread nD τ).loc main_arg11) :=
  Bd8_kept m ρ c main_arg11 (by decide) (by decide) (by decide) (by decide) (by decide) (by decide) (by decide) (by decide)
theorem Bd8_main_arg12 (c : Dev nD) : Bd8 m ρ c (Proc.devRef .tc main_arg12) = m ((c : Thread nD τ).loc main_arg12) :=
  Bd8_kept m ρ c main_arg12 (by decide) (by decide) (by decide) (by decide) (by decide) (by decide) (by decide) (by decide)
theorem Bd8_main_arg13 (c : Dev nD) : Bd8 m ρ c (Proc.devRef .tc main_arg13) = m ((c : Thread nD τ).loc main_arg13) :=
  Bd8_kept m ρ c main_arg13 (by decide) (by decide) (by decide) (by decide) (by decide) (by decide) (by decide) (by decide)
theorem Bd8_main_arg14 (c : Dev nD) : Bd8 m ρ c (Proc.devRef .tc main_arg14) = m ((c : Thread nD τ).loc main_arg14) :=
  Bd8_kept m ρ c main_arg14 (by decide) (by decide) (by decide) (by decide) (by decide) (by decide) (by decide) (by decide)
theorem Bd8_main_arg15 (c : Dev nD) : Bd8 m ρ c (Proc.devRef .tc main_arg15) = m ((c : Thread nD τ).loc main_arg15) :=
  Bd8_kept m ρ c main_arg15 (by decide) (by decide) (by decide) (by decide) (by decide) (by decide) (by decide) (by decide)
theorem Bd8_main_arg16 (c : Dev nD) : Bd8 m ρ c (Proc.devRef .tc main_arg16) = m ((c : Thread nD τ).loc main_arg16) :=
  Bd8_kept m ρ c main_arg16 (by decide) (by decide) (by decide) (by decide) (by decide) (by decide) (by decide) (by decide)
theorem Bd8_main_arg17 (c : Dev nD) : Bd8 m ρ c (Proc.devRef .tc main_arg17) = m ((c : Thread nD τ).loc main_arg17) :=
  Bd8_kept m ρ c main_arg17 (by decide) (by decide) (by decide) (by decide) (by decide) (by decide) (by decide) (by decide)
theorem Bd8_main_arg18 (c : Dev nD) : Bd8 m ρ c (Proc.devRef .tc main_arg18) = m ((c : Thread nD τ).loc main_arg18) :=
  Bd8_kept m ρ c main_arg18 (by decide) (by decide) (by decide) (by decide) (by decide) (by decide) (by decide) (by decide)
theorem Bd8_main_arg19 (c : Dev nD) : Bd8 m ρ c (Proc.devRef .tc main_arg19) = m ((c : Thread nD τ).loc main_arg19) :=
  Bd8_kept m ρ c main_arg19 (by decide) (by decide) (by decide) (by decide) (by decide) (by decide) (by decide) (by decide)

/-- The result buffer at the end: what the last region's pipeline leaves in its output array. -/
theorem Bd8_result (c : Dev nD) : Bd8 m ρ c (Proc.devRef .tc main_v103) = (dat3 (En7 m ρ) c).arrAt 7 cfg3.N :=
  Bd8_arr m ρ c 7

/-! ## The proof data family and the thread state -/

abbrev admK : (p : Fin 4) → (pcfgs (F := F) p).Adm := fun p => (cfgs p).toPCfg_adm
/-- Every pipeline's proof data, each at its region's entry contents (a literal match on the pipeline's number). -/
def pdats : (p : Fin 4) → (c : Dev nD) → Dat τ (Elt F) Unit ℕ (UR sig nD τ) ℕ (Pipeline.pin (pcfgs (F := F)) admK p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd8 m ρ c) ∗ ∃ r, prngReg c r)

/-! ## The regions as segments -/

set_option backward.isDefEq.respectTransparency.types false in
/-- Region 0 over the thread state: entered with every unscoped buffer at `Bd1`, left with them at `Bd2`.  Its arrays
    are split out of the unscoped buffers on entry and put back, at what the pipeline leaves, on exit; the generator
    register goes into the class invariant and comes back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Bd3`, left with them at `Bd4`.  Its arrays
    are split out of the unscoped buffers on entry and put back, at what the pipeline leaves, on exit; the generator
    register goes into the class invariant and comes back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Bd5`, left with them at `Bd6`.  Its arrays
    are split out of the unscoped buffers on entry and put back, at what the pipeline leaves, on exit; the generator
    register goes into the class invariant and comes back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Bd7`, left with them at `Bd8`.  Its arrays
    are split out of the unscoped buffers on entry and put back, at what the pipeline leaves, on exit; the generator
    register goes into the class invariant and comes back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) admK (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .host (hseg hostOps3 hostOps3_sub hostOps3_fresh (Bd6 m ρ)),
    .region (reg3 m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, with the
    result buffer at the last boundary's contents and every argument as launched. -/
theorem run : θ_run defs (onTc (τ := τ) (main (F := F))) ⟨m, fun _ => 0, ρ⟩ (fun r => ∀ c : Dev nD,
      r.2.mem ((c.tc : Thread nD τ).loc main_v103) = Bd8 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) admK (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Bd8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd8 m ρ c) s')
      isplitl [Hh] <;> iassumption)
    (hQ := fun s h c =>
      ⟨h c _ (mem_uc main_v103 (by decide)),
       (h c _ (mem_uc main_arg0 (by decide))).trans (Bd8_main_arg0 m ρ c),
       (h c _ (mem_uc main_arg1 (by decide))).trans (Bd8_main_arg1 m ρ c),
       (h c _ (mem_uc main_arg2 (by decide))).trans (Bd8_main_arg2 m ρ c),
       (h c _ (mem_uc main_arg3 (by decide))).trans (Bd8_main_arg3 m ρ c),
       (h c _ (mem_uc main_arg4 (by decide))).trans (Bd8_main_arg4 m ρ c),
       (h c _ (mem_uc main_arg5 (by decide))).trans (Bd8_main_arg5 m ρ c),
       (h c _ (mem_uc main_arg6 (by decide))).trans (Bd8_main_arg6 m ρ c),
       (h c _ (mem_uc main_arg7 (by decide))).trans (Bd8_main_arg7 m ρ c),
       (h c _ (mem_uc main_arg8 (by decide))).trans (Bd8_main_arg8 m ρ c),
       (h c _ (mem_uc main_arg9 (by decide))).trans (Bd8_main_arg9 m ρ c),
       (h c _ (mem_uc main_arg10 (by decide))).trans (Bd8_main_arg10 m ρ c),
       (h c _ (mem_uc main_arg11 (by decide))).trans (Bd8_main_arg11 m ρ c),
       (h c _ (mem_uc main_arg12 (by decide))).trans (Bd8_main_arg12 m ρ c),
       (h c _ (mem_uc main_arg13 (by decide))).trans (Bd8_main_arg13 m ρ c),
       (h c _ (mem_uc main_arg14 (by decide))).trans (Bd8_main_arg14 m ρ c),
       (h c _ (mem_uc main_arg15 (by decide))).trans (Bd8_main_arg15 m ρ c),
       (h c _ (mem_uc main_arg16 (by decide))).trans (Bd8_main_arg16 m ρ c),
       (h c _ (mem_uc main_arg17 (by decide))).trans (Bd8_main_arg17 m ρ c),
       (h c _ (mem_uc main_arg18 (by decide))).trans (Bd8_main_arg18 m ρ c),
       (h c _ (mem_uc main_arg19 (by decide))).trans (Bd8_main_arg19 m ρ c)⟩)

end Cert.KernelIdeal.Frame

end
-- ==== Proof.Spec.lean ====
/-
  The mathematics both programs compute, on the extended reals, one ROW at a time.

  A two-layer network sends a row x ∈ EReal^K to  out_q = (∑_k max((∑_j x_j·W₁[j,k]) + b₁[k], 0)·W₂[k,q]) + b₂[q] :
  every entry of an output row depends on the matching input row only, on the two weight matrices and on the two bias
  vectors.  Applied to every row of an [n, K] array this is `mlp`; a block of rows of the result is therefore the same
  function of the block of rows of the input, whatever the tiling (`mlp_congr`).

  The update network first turns a row e of summed exponentials into the smooth-maximum message  (1/8)·log e_j + off,
  joins it to the node's own row (a row of 128 = 64 + 64 entries), and applies a two-layer network to the joined row:
  `upd`.  The zero of the rectifier and the constant 1/8 are kept as the float words the programs carry; nothing here
  evaluates them, and no finiteness is used: sums and products on the extended reals are used only as written.
-/
import Idealize.ShloMosaic.PureOps.Ideal
import Idealize.ShloMosaic.Lib.ValueIdx

noncomputable section

namespace Cert.Spec

open Idealize.ShloMosaic Idealize.ShloMosaic.ValueIdx

/-- The rectifier's zero, as the word both programs carry. -/
abbrev zero32 : EReal := Ideal.ofBits .f32 0x00000000#32
/-- The constant 1/8 of the smooth maximum, as the word both programs carry. -/
abbrev eighth32 : EReal := Ideal.ofBits .f32 0x3E000000#32

/-- The hidden row: max(x·W₁ + b₁, 0). -/
def hiddenRow {K d : ℕ} (x : Fin K → EReal) (w : (⟨2, ![K, d]⟩ : Shape).Idx → EReal) (b : (⟨1, ![d]⟩ : Shape).Idx → EReal) :
    Fin d → EReal :=
  fun k => max ((∑ j : Fin K, x j * w (ix2 j k)) + b (ix1 k)) zero32

/-- The output row: h·W₂ + b₂. -/
def outRow {d e : ℕ} (h : Fin d → EReal) (w : (⟨2, ![d, e]⟩ : Shape).Idx → EReal) (b : (⟨1, ![e]⟩ : Shape).Idx → EReal) :
    Fin e → EReal :=
  fun q => (∑ k : Fin d, h k * w (ix2 k q)) + b (ix1 q)

/-- The two layers on one row. -/
def mlpRow {K d e : ℕ} (x : Fin K → EReal) (w1 : (⟨2, ![K, d]⟩ : Shape).Idx → EReal) (b1 : (⟨1, ![d]⟩ : Shape).Idx → EReal)
    (w2 : (⟨2, ![d, e]⟩ : Shape).Idx → EReal) (b2 : (⟨1, ![e]⟩ : Shape).Idx → EReal) : Fin e → EReal :=
  outRow (hiddenRow x w1 b1) w2 b2

/-- Row r of an [n, K] array. -/
def row {n K : ℕ} (x : (⟨2, ![n, K]⟩ : Shape).Idx → EReal) (r : Fin n) : Fin K → EReal := fun j => x (ix2 r j)

/-- The two layers on every row of an [n, K] array. -/
def mlp {n K d e : ℕ} (x : (⟨2, ![n, K]⟩ : Shape).Idx → EReal) (w1 : (⟨2, ![K, d]⟩ : Shape).Idx → EReal)
    (b1 : (⟨1, ![d]⟩ : Shape).Idx → EReal) (w2 : (⟨2, ![d, e]⟩ : Shape).Idx → EReal) (b2 : (⟨1, ![e]⟩ : Shape).Idx → EReal) :
    (⟨2, ![n, e]⟩ : Shape).Idx → EReal :=
  fun i => mlpRow (row x (i 0)) w1 b1 w2 b2 (i 1)

/-- An entry of `mlp` reads one row of the input: arrays that agree on that row give the same entry. -/
theorem mlp_congr {n n' K d e : ℕ} (x : (⟨2, ![n, K]⟩ : Shape).Idx → EReal) (x' : (⟨2, ![n', K]⟩ : Shape).Idx → EReal)
    (w1 : (⟨2, ![K, d]⟩ : Shape).Idx → EReal) (b1 : (⟨1, ![d]⟩ : Shape).Idx → EReal)
    (w2 : (⟨2, ![d, e]⟩ : Shape).Idx → EReal) (b2 : (⟨1, ![e]⟩ : Shape).Idx → EReal)
    (r : Fin n) (r' : Fin n') (q : Fin e) (hx : ∀ j : Fin K, x (ix2 r j) = x' (ix2 r' j)) :
    mlp x w1 b1 w2 b2 (ix2 r q) = mlp x' w1 b1 w2 b2 (ix2 r' q) := by
  show mlpRow (row x r) w1 b1 w2 b2 q = mlpRow (row x' r') w1 b1 w2 b2 q
  rw [show row x r = row x' r' from funext hx]

/-- The smooth-maximum message of a row of summed exponentials: (1/8)·log e + off. -/
def msgRow (e : Fin 64 → EReal) (off : EReal) : Fin 64 → EReal := fun j => eighth32 * Ideal.log (e j) + off

/-- Two rows of 64 joined into a row of 128. -/
def catRow (a b : Fin 64 → EReal) : Fin 128 → EReal :=
  fun k => if h : k.val < 64 then a ⟨k.val, h⟩ else b ⟨k.val - 64, by have := k.isLt; omega⟩

/-- The update network on every node: the message of the node's row of summed exponentials joined to the node's state,
    through two layers. -/
def upd {n d : ℕ} (e s : (⟨2, ![n, 64]⟩ : Shape).Idx → EReal) (off : EReal) (w1 : (⟨2, ![128, d]⟩ : Shape).Idx → EReal)
    (b1 : (⟨1, ![d]⟩ : Shape).Idx → EReal) (w2 : (⟨2, ![d, 64]⟩ : Shape).Idx → EReal) (b2 : (⟨1, ![64]⟩ : Shape).Idx → EReal) :
    (⟨2, ![n, 64]⟩ : Shape).Idx → EReal :=
  fun i => mlpRow (catRow (msgRow (row e (i 0)) off) (row s (i 0))) w1 b1 w2 b2 (i 1)

/-- An entry of `upd` reads one row of each of the two arrays. -/
theorem upd_congr {n n' d : ℕ} (e s : (⟨2, ![n, 64]⟩ : Shape).Idx → EReal) (e' s' : (⟨2, ![n', 64]⟩ : Shape).Idx → EReal) (off : EReal)
    (w1 : (⟨2, ![128, d]⟩ : Shape).Idx → EReal) (b1 : (⟨1, ![d]⟩ : Shape).Idx → EReal)
    (w2 : (⟨2, ![d, 64]⟩ : Shape).Idx → EReal) (b2 : (⟨1, ![64]⟩ : Shape).Idx → EReal)
    (r : Fin n) (r' : Fin n') (q : Fin 64) (he : ∀ j : Fin 64, e (ix2 r j) = e' (ix2 r' j)) (hs : ∀ j : Fin 64, s (ix2 r j) = s' (ix2 r' j)) :
    upd e s off w1 b1 w2 b2 (ix2 r q) = upd e' s' off w1 b1 w2 b2 (ix2 r' q) := by
  show mlpRow (catRow (msgRow (row e r) off) (row s r)) w1 b1 w2 b2 q = mlpRow (catRow (msgRow (row e' r') off) (row s' r')) w1 b1 w2 b2 q
  rw [show row e r = row e' r' from funext he, show row s r = row s' r' from funext hs]

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibTwoLayer.lean ====
/-
  The vector unit's spelling of a two-layer network, read at an entry as the row function of Spec.lean.

  The body of such a kernel casts each loaded block to its own shape, multiplies the row block by the first weight matrix
  into a zero accumulator, adds the first bias row to every row, takes the maximum with a broadcast zero, rounds to
  bf16 (the identity on the extended reals), multiplies by the second weight matrix into a zero accumulator and adds the
  second bias row.  At entry (r, q) this is the two-layer row function of row r of the block at q: the matrix
  products are row-by-column sums, a bias row added to every row adds its entry of the same column, and nothing else
  moves between rows.  Generic in the block height n and the three widths; no finiteness is needed.
-/
import proofs.«171401_j10385230921929_1_alg».proof.Proof.Spec
import proofs.«171401_j10385230921929_1_alg».proof.Proof.LibDense
import proofs.«171401_j10385230921929_1_alg».proof.Proof.LibBiasRows

noncomputable section

namespace Cert.LibTwoLayer

open Idealize.ShloMosaic Idealize.ShloMosaic.ValueIdx Cert.Spec

/-- A bias row [1, d] as the vector [d] of its entries. -/
def rowVec {d : ℕ} (b : (⟨2, ![1, d]⟩ : Shape).Idx → EReal) : (⟨1, ![d]⟩ : Shape).Idx → EReal :=
  fun j => b (ix2 ⟨0, Nat.one_pos⟩ (j 0))

/-- The hidden layer as the vector unit spells it, at an entry. -/
theorem vec_hidden {n K d : ℕ} {φx φw : FTy} (x : FVec Ideal ⟨2, ![n, K]⟩ φx) (w : FVec Ideal ⟨2, ![K, d]⟩ φw)
    (b : FVec Ideal ⟨2, ![1, d]⟩ .f32) (hB : (⟨2, ![1, d]⟩ : Shape).Broadcasts ⟨2, ![n, d]⟩)
    (ht : (FTy.bf16).bits < (FTy.f32).bits) (r : Fin n) (k : Fin d) :
    (truncf .bf16 (maximumf (addf (FloatOps.matmul (DotDims.plain n K d) none x w (constant (F := Ideal) ⟨2, ![n, d]⟩ .f32 0x00000000#32))
        (broadcastTo ⟨2, ![n, d]⟩ b hB)) (broadcast ⟨2, ![n, d]⟩ (FloatOps.ofBits (F := Ideal) .f32 0x00000000#32))) ht
      : FVec Ideal ⟨2, ![n, d]⟩ .bf16) (ix2 r k)
      = hiddenRow (row x r) w (rowVec b) k := by
  show max (FloatOps.matmul (DotDims.plain n K d) none x w (constant (F := Ideal) ⟨2, ![n, d]⟩ .f32 0x00000000#32) (ix2 r k)
      + broadcastTo ⟨2, ![n, d]⟩ b hB (ix2 r k)) (Ideal.ofBits .f32 0x00000000#32) = _
  rw [LibDense.matmul_plain, LibBiasRows.row_broadcast]
  rfl

/-- The two layers as the vector unit spells them, at an entry. -/
theorem vec_mlp {n K d e : ℕ} {φx φw1 φw2 : FTy} (x : FVec Ideal ⟨2, ![n, K]⟩ φx) (w1 : FVec Ideal ⟨2, ![K, d]⟩ φw1)
    (b1 : FVec Ideal ⟨2, ![1, d]⟩ .f32) (w2 : FVec Ideal ⟨2, ![d, e]⟩ φw2) (b2 : FVec Ideal ⟨2, ![1, e]⟩ .f32)
    (hx : (⟨2, ![n, K]⟩ : Shape).ShapeCasts ⟨2, ![n, K]⟩) (hw1 : (⟨2, ![K, d]⟩ : Shape).ShapeCasts ⟨2, ![K, d]⟩)
    (hb1 : (⟨2, ![1, d]⟩ : Shape).ShapeCasts ⟨2, ![1, d]⟩) (hB1 : (⟨2, ![1, d]⟩ : Shape).Broadcasts ⟨2, ![n, d]⟩)
    (hw2 : (⟨2, ![d, e]⟩ : Shape).ShapeCasts ⟨2, ![d, e]⟩) (hb2 : (⟨2, ![1, e]⟩ : Shape).ShapeCasts ⟨2, ![1, e]⟩)
    (hB2 : (⟨2, ![1, e]⟩ : Shape).Broadcasts ⟨2, ![n, e]⟩) (ht : (FTy.bf16).bits < (FTy.f32).bits)
    (i : (⟨2, ![n, e]⟩ : Shape).Idx) :
    addf (FloatOps.matmul (DotDims.plain n d e) none
        (truncf .bf16 (maximumf (addf (FloatOps.matmul (DotDims.plain n K d) none (shapeCast ⟨2, ![n, K]⟩ x hx) (shapeCast ⟨2, ![K, d]⟩ w1 hw1)
            (constant (F := Ideal) ⟨2, ![n, d]⟩ .f32 0x00000000#32)) (broadcastTo ⟨2, ![n, d]⟩ (shapeCast ⟨2, ![1, d]⟩ b1 hb1) hB1))
          (broadcast ⟨2, ![n, d]⟩ (FloatOps.ofBits (F := Ideal) .f32 0x00000000#32))) ht)
        (shapeCast ⟨2, ![d, e]⟩ w2 hw2) (constant (F := Ideal) ⟨2, ![n, e]⟩ .f32 0x00000000#32))
      (broadcastTo ⟨2, ![n, e]⟩ (shapeCast ⟨2, ![1, e]⟩ b2 hb2) hB2) i
      = mlp x w1 (rowVec b1) w2 (rowVec b2) i := by
  rw [shapeCast_self, shapeCast_self, shapeCast_self, shapeCast_self, shapeCast_self]
  obtain ⟨r, q, rfl⟩ : ∃ (r : Fin n) (q : Fin e), i = ix2 r q := ⟨i 0, i 1, eq_ix2 i⟩
  show FloatOps.matmul (DotDims.plain n d e) none _ w2 (constant (F := Ideal) ⟨2, ![n, e]⟩ .f32 0x00000000#32) (ix2 r q)
      + broadcastTo ⟨2, ![n, e]⟩ b2 hB2 (ix2 r q) = _
  rw [LibDense.matmul_plain, LibBiasRows.row_broadcast]
  unfold LibDense.prod
  refine congrArg₂ (· + ·) (Finset.sum_congr rfl fun k _ => congrArg (· * w2 (ix2 k q)) ?_) rfl
  exact vec_hidden x w1 b1 hB1 ht r k

end Cert.LibTwoLayer

end
-- ==== Proof.KernelPay.lean ====
/-
  The relation kernels' stored value, at an entry: the body's arithmetic on its five loaded blocks is the two-layer row
  function of Spec.lean — row r of the output block depends on row r of the input block, the two weight blocks and the
  two bias rows.
-/
import proofs.«171401_j10385230921929_1_alg».proof.Proof.Gen.KernelIdeal.Skeleton
import proofs.«171401_j10385230921929_1_alg».proof.Proof.LibTwoLayer

noncomputable section

namespace Cert.KernelIdeal.Pay

open Idealize.ShloMosaic Idealize.ShloMosaic.ValueIdx Cert.KernelIdeal Cert.KernelIdeal.Gen Cert.Spec Cert.LibTwoLayer

/-- Relation 0's payload is the two layers applied to the row block. -/
theorem pay0 (x0 : Vec Ideal S5000x128 .bf16) (x1 : Vec Ideal S128x128 .bf16) (x2 : Vec Ideal S1x128 .f32) (x3 : Vec Ideal S128x128 .bf16)
    (x4 : Vec Ideal S1x128 .f32) (i : S5000x128.Idx) :
    k0_pay1 (F := Ideal) x0 x1 x2 x3 x4 i = mlp x0 x1 (rowVec x2) x3 (rowVec x4) i := by
  unfold k0_pay1
  exact vec_mlp x0 x1 x2 x3 x4 _ _ _ _ _ _ _ _ i

/-- Relation 1's payload, likewise. -/
theorem pay1 (x0 : Vec Ideal S5000x128 .bf16) (x1 : Vec Ideal S128x128 .bf16) (x2 : Vec Ideal S1x128 .f32) (x3 : Vec Ideal S128x128 .bf16)
    (x4 : Vec Ideal S1x128 .f32) (i : S5000x128.Idx) :
    k1_pay1 (F := Ideal) x0 x1 x2 x3 x4 i = mlp x0 x1 (rowVec x2) x3 (rowVec x4) i := by
  unfold k1_pay1
  exact vec_mlp x0 x1 x2 x3 x4 _ _ _ _ _ _ _ _ i

/-- Relation 2's payload, at width 192. -/
theorem pay2 (x0 : Vec Ideal S5000x192 .bf16) (x1 : Vec Ideal S192x192 .bf16) (x2 : Vec Ideal S1x192 .f32) (x3 : Vec Ideal S192x192 .bf16)
    (x4 : Vec Ideal S1x192 .f32) (i : S5000x192.Idx) :
    k2_pay1 (F := Ideal) x0 x1 x2 x3 x4 i = mlp x0 x1 (rowVec x2) x3 (rowVec x4) i := by
  unfold k2_pay1
  exact vec_mlp x0 x1 x2 x3 x4 _ _ _ _ _ _ _ _ i

end Cert.KernelIdeal.Pay

end
-- ==== Proof.KernelBlocks0.lean ====
/-
  Region 0's output array as ONE function of the arrays the region finds on entry.

  The grid has 60 points; point t stages rows 5000·t … 5000·t + 4999 of the gathered rows and the whole of the two
  weight matrices and two bias rows, and writes back rows 5000·t … 5000·t + 4999 of the output.  Since an output row is
  the two-layer row function of the matching input row, what point t writes back is block t of
  `mlp X W₁ b₁ W₂ b₂` — one function of the whole arrays.  The 60 blocks cover the 300000 rows (row r lies in block
  r / 5000), so after the region the output array IS that function.
-/
import proofs.«171401_j10385230921929_1_alg».proof.Proof.IdealRegion0
import proofs.«171401_j10385230921929_1_alg».proof.Proof.KernelPay
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.Spec Cert.LibTwoLayer

variable (V : (c : Dev nD) → (b : Ref sig .tc) → Buf (Elt Ideal) ((c : Thread nD τ).loc b))

theorem hz : (![0, 0] : Fin 2 → Nat) = fun _ => 0 := funext fun a => by fin_cases a <;> rfl

/-- A block of rows is the same two-layer function of its rows: if block row (j 0) of `x0` is row R of `X` and the
    weight and bias blocks are the whole arrays, the block's entry j is the array's entry (R, j 1). -/
theorem point_mlp {n N K d e : ℕ} (X : (⟨2, ![N, K]⟩ : Shape).Idx → EReal) (W1 : (⟨2, ![K, d]⟩ : Shape).Idx → EReal)
    (B1 : (⟨2, ![1, d]⟩ : Shape).Idx → EReal) (W2 : (⟨2, ![d, e]⟩ : Shape).Idx → EReal) (B2 : (⟨2, ![1, e]⟩ : Shape).Idx → EReal)
    (x0 : (⟨2, ![n, K]⟩ : Shape).Idx → EReal) (x1 : (⟨2, ![K, d]⟩ : Shape).Idx → EReal) (x2 : (⟨2, ![1, d]⟩ : Shape).Idx → EReal)
    (x3 : (⟨2, ![d, e]⟩ : Shape).Idx → EReal) (x4 : (⟨2, ![1, e]⟩ : Shape).Idx → EReal)
    (j : (⟨2, ![n, e]⟩ : Shape).Idx) (R : Fin N)
    (h0 : ∀ k : Fin K, x0 (ix2 (j 0) k) = X (ix2 R k)) (h1 : x1 = W1) (h2 : x2 = B1) (h3 : x3 = W2) (h4 : x4 = B2) :
    mlp x0 x1 (rowVec x2) x3 (rowVec x4) j = mlp X W1 (rowVec B1) W2 (rowVec B2) (ix2 R (j 1)) := by
  subst h1 h2 h3 h4
  exact (congrArg (mlp x0 x1 (rowVec x2) x3 (rowVec x4)) (eq_ix2 j)).trans (mlp_congr x0 X x1 (rowVec x2) x3 (rowVec x4) (j 0) R (j 1) h0)

/-- What region 0's output array ends holding: the two layers on every gathered row. -/
abbrev G0 (c : Dev nD) : S300000x128.Idx → EReal :=
  mlp (V c main_v8 : S300000x128.Idx → EReal) (V c main_v10 : S128x128.Idx → EReal) (rowVec (V c main_v13 : S1x128.Idx → EReal))
    (V c main_v12 : S128x128.Idx → EReal) (rowVec (V c main_v14 : S1x128.Idx → EReal))

/-- The printed index maps over the grid: the row-block windows move with the point, the others stand still. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  have ht : t.val < 60 := lt_of_lt_of_eq t.isLt N_0
  funext j
  have hj0 : (j 0).val < 5000 := (j 0).isLt
  have hj1 : (j 1).val < 128 := (j 1).isLt
  refine (Pay.pay0 _ _ _ _ _ j).trans ?_
  have hJ : ((cfg0.win 5).blk t).view.emb j = ix2 (⟨t.val * 5000 + (j 0).val, by omega⟩ : Fin 300000) (j 1) := by
    funext a; apply Fin.ext
    match a with
    | ⟨0, _⟩ => show win0_5.index t (0 : Fin 2) * 5000 + 1 * (j 0).val = t.val * 5000 + (j 0).val; omega
    | ⟨1, _⟩ => show win0_5.index t (1 : Fin 2) * 128 + 1 * (j 1).val = (j 1).val; omega
  show _ = G0 V c (((cfg0.win 5).blk t).view.emb j)
  rw [hJ]
  refine point_mlp (V c main_v8 : S300000x128.Idx → EReal) (V c main_v10 : S128x128.Idx → EReal) (V c main_v13 : S1x128.Idx → EReal)
    (V c main_v12 : S128x128.Idx → EReal) (V c main_v14 : S1x128.Idx → EReal)
    (iblk0 V c 0 t) (iblk0 V c 1 t) (iblk0 V c 2 t) (iblk0 V c 3 t) (iblk0 V c 4 t) j ⟨t.val * 5000 + (j 0).val, by omega⟩ (fun k => ?_) ?_ ?_ ?_ ?_
  · show V c main_v8 (((cfg0.win 0).blk t).view.emb (ix2 (j 0) k)) = V c main_v8 (ix2 ⟨t.val * 5000 + (j 0).val, _⟩ k)
    refine congrArg (V c main_v8) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · funext y
    show V c main_v10 (((cfg0.win 1).blk t).view.emb y) = V c main_v10 y
    refine congrArg (V c main_v10) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v13 (((cfg0.win 2).blk t).view.emb y) = V c main_v13 y
    refine congrArg (V c main_v13) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V c main_v12 (((cfg0.win 3).blk t).view.emb y) = V c main_v12 y
    refine congrArg (V c main_v12) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v14 (((cfg0.win 4).blk t).view.emb y) = V c main_v14 y
    refine congrArg (V c main_v14) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the array is in point t's block iff each coordinate is in the block's range on its axis. -/
theorem mem_blk0 (t : Fin cfg0.N) (i : S300000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- The blocks cover the array: row r is in block r / 5000. -/
theorem cover0 (i : S300000x128.Idx) : ∃ t : Fin cfg0.N, (cfg0.win 5).flush t = true ∧ i ∈ ((cfg0.win 5).blk t).view.set := by
  have hi0 : (i 0).val < 300000 := (i 0).isLt
  have hi1 : (i 1).val < 128 := (i 1).isLt
  have hN : cfg0.N = 60 := N_0
  let t : Fin cfg0.N := ⟨(i 0).val / 5000, by rw [hN]; omega⟩
  obtain ⟨e00, e01, e10, e11, e20, e21, e30, e31, e40, e41, e50, e51⟩ := idx_facts0 t
  have htv : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the two layers on every gathered row. -/
theorem final0 (c : Dev nD) : (dat0 V c).arrAt 5 cfg0.N = G0 V c :=
  (dat0 V c).arrAt_eq_of_cover 5 (G0 V c) (fun t _ => flushed0 V c t) (cover0)

end Cert.KernelIdeal.Blocks

end
-- ==== Proof.KernelBlocks1.lean ====
/-
  Region 1's output array as ONE function of the arrays the region finds on entry.

  The grid has 60 points; point t stages rows 5000·t … 5000·t + 4999 of the gathered rows and the whole of the two
  weight matrices and two bias rows, and writes back rows 5000·t … 5000·t + 4999 of the output.  Since an output row is
  the two-layer row function of the matching input row, what point t writes back is block t of
  `mlp X W₁ b₁ W₂ b₂` — one function of the whole arrays.  The 60 blocks cover the 300000 rows (row r lies in block
  r / 5000), so after the region the output array IS that function.
-/
import proofs.«171401_j10385230921929_1_alg».proof.Proof.IdealRegion1
import proofs.«171401_j10385230921929_1_alg».proof.Proof.KernelBlocks0
import proofs.«171401_j10385230921929_1_alg».proof.Proof.KernelPay
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.Spec Cert.LibTwoLayer

variable (V : (c : Dev nD) → (b : Ref sig .tc) → Buf (Elt Ideal) ((c : Thread nD τ).loc b))

/-- What region 1's output array ends holding: the two layers on every gathered row. -/
abbrev G1 (c : Dev nD) : S300000x128.Idx → EReal :=
  mlp (V c main_v26 : S300000x128.Idx → EReal) (V c main_v28 : S128x128.Idx → EReal) (rowVec (V c main_v31 : S1x128.Idx → EReal))
    (V c main_v30 : S128x128.Idx → EReal) (rowVec (V c main_v32 : S1x128.Idx → EReal))

/-- The printed index maps over the grid: the row-block windows move with the point, the others stand still. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of `G1`. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  have ht : t.val < 60 := lt_of_lt_of_eq t.isLt N_1
  funext j
  have hj0 : (j 0).val < 5000 := (j 0).isLt
  have hj1 : (j 1).val < 128 := (j 1).isLt
  refine (Pay.pay1 _ _ _ _ _ j).trans ?_
  have hJ : ((cfg1.win 5).blk t).view.emb j = ix2 (⟨t.val * 5000 + (j 0).val, by omega⟩ : Fin 300000) (j 1) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  show _ = G1 V c (((cfg1.win 5).blk t).view.emb j)
  rw [hJ]
  refine point_mlp (V c main_v26 : S300000x128.Idx → EReal) (V c main_v28 : S128x128.Idx → EReal) (V c main_v31 : S1x128.Idx → EReal)
    (V c main_v30 : S128x128.Idx → EReal) (V c main_v32 : S1x128.Idx → EReal)
    (iblk1 V c 0 t) (iblk1 V c 1 t) (iblk1 V c 2 t) (iblk1 V c 3 t) (iblk1 V c 4 t) j ⟨t.val * 5000 + (j 0).val, by omega⟩ (fun k => ?_) ?_ ?_ ?_ ?_
  · show V c main_v26 (((cfg1.win 0).blk t).view.emb (ix2 (j 0) k)) = V c main_v26 (ix2 ⟨t.val * 5000 + (j 0).val, _⟩ k)
    refine congrArg (V c main_v26) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · funext y
    show V c main_v28 (((cfg1.win 1).blk t).view.emb y) = V c main_v28 y
    refine congrArg (V c main_v28) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v31 (((cfg1.win 2).blk t).view.emb y) = V c main_v31 y
    refine congrArg (V c main_v31) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_v30 (((cfg1.win 3).blk t).view.emb y) = V c main_v30 y
    refine congrArg (V c main_v30) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v32 (((cfg1.win 4).blk t).view.emb y) = V c main_v32 y
    refine congrArg (V c main_v32) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the array is in point t's block iff each coordinate is in the block's range on its axis. -/
theorem mem_blk1 (t : Fin cfg1.N) (i : S300000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v33).slice (win1_5.rect t)).set ↔ _
  rw [View.set_slice_whole, Rect.mem_set_unit]
  exact Iff.rfl

/-- The blocks cover the array: row r is in block r / 5000. -/
theorem cover1 (i : S300000x128.Idx) : ∃ t : Fin cfg1.N, (cfg1.win 5).flush t = true ∧ i ∈ ((cfg1.win 5).blk t).view.set := by
  have hi0 : (i 0).val < 300000 := (i 0).isLt
  have hi1 : (i 1).val < 128 := (i 1).isLt
  have hN : cfg1.N = 60 := N_1
  let t : Fin cfg1.N := ⟨(i 0).val / 5000, by rw [hN]; omega⟩
  obtain ⟨e00, e01, e10, e11, e20, e21, e30, e31, e40, e41, e50, e51⟩ := idx_facts1 t
  have htv : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the two layers on every gathered row. -/
theorem final1 (c : Dev nD) : (dat1 V c).arrAt 5 cfg1.N = G1 V c :=
  (dat1 V c).arrAt_eq_of_cover 5 (G1 V c) (fun t _ => flushed1 V c t) (cover1)

end Cert.KernelIdeal.Blocks

end
-- ==== Proof.KernelBlocks2.lean ====
/-
  Region 2's output array as ONE function of the arrays the region finds on entry.

  The grid has 40 points; point t stages rows 5000·t … 5000·t + 4999 of the gathered rows and the whole of the two
  weight matrices and two bias rows, and writes back rows 5000·t … 5000·t + 4999 of the output.  Since an output row is
  the two-layer row function of the matching input row, what point t writes back is block t of
  `mlp X W₁ b₁ W₂ b₂` — one function of the whole arrays.  The 40 blocks cover the 200000 rows (row r lies in block
  r / 5000), so after the region the output array IS that function.
-/
import proofs.«171401_j10385230921929_1_alg».proof.Proof.IdealRegion2
import proofs.«171401_j10385230921929_1_alg».proof.Proof.KernelBlocks0
import proofs.«171401_j10385230921929_1_alg».proof.Proof.KernelPay
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.Spec Cert.LibTwoLayer

variable (V : (c : Dev nD) → (b : Ref sig .tc) → Buf (Elt Ideal) ((c : Thread nD τ).loc b))

/-- What region 2's output array ends holding: the two layers on every gathered row. -/
abbrev G2 (c : Dev nD) : S200000x192.Idx → EReal :=
  mlp (V c main_v44 : S200000x192.Idx → EReal) (V c main_v46 : S192x192.Idx → EReal) (rowVec (V c main_v49 : S1x192.Idx → EReal))
    (V c main_v48 : S192x192.Idx → EReal) (rowVec (V c main_v50 : S1x192.Idx → EReal))

/-- The printed index maps over the grid: the row-block windows move with the point, the others stand still. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t of `G2`. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S5000x192) hz, View.ld_unit_zero (S := S192x192) hz, View.ld_unit_zero (S := S1x192) hz]
  obtain ⟨e00, e01, e10, e11, e20, e21, e30, e31, e40, e41, e50, e51⟩ := idx_facts2 t
  have ht : t.val < 40 := lt_of_lt_of_eq t.isLt N_2
  funext j
  have hj0 : (j 0).val < 5000 := (j 0).isLt
  have hj1 : (j 1).val < 192 := (j 1).isLt
  refine (Pay.pay2 _ _ _ _ _ j).trans ?_
  have hJ : ((cfg2.win 5).blk t).view.emb j = ix2 (⟨t.val * 5000 + (j 0).val, by omega⟩ : Fin 200000) (j 1) := by
    funext a; apply Fin.ext
    match a with
    | ⟨0, _⟩ => show win2_5.index t (0 : Fin 2) * 5000 + 1 * (j 0).val = t.val * 5000 + (j 0).val; omega
    | ⟨1, _⟩ => show win2_5.index t (1 : Fin 2) * 192 + 1 * (j 1).val = (j 1).val; omega
  show _ = G2 V c (((cfg2.win 5).blk t).view.emb j)
  rw [hJ]
  refine point_mlp (V c main_v44 : S200000x192.Idx → EReal) (V c main_v46 : S192x192.Idx → EReal) (V c main_v49 : S1x192.Idx → EReal)
    (V c main_v48 : S192x192.Idx → EReal) (V c main_v50 : S1x192.Idx → EReal)
    (iblk2 V c 0 t) (iblk2 V c 1 t) (iblk2 V c 2 t) (iblk2 V c 3 t) (iblk2 V c 4 t) j ⟨t.val * 5000 + (j 0).val, by omega⟩ (fun k => ?_) ?_ ?_ ?_ ?_
  · show V c main_v44 (((cfg2.win 0).blk t).view.emb (ix2 (j 0) k)) = V c main_v44 (ix2 ⟨t.val * 5000 + (j 0).val, _⟩ k)
    refine congrArg (V c main_v44) (funext fun a => Fin.ext ?_)
    match a with
    | ⟨0, _⟩ => show win2_0.index t (0 : Fin 2) * 5000 + 1 * (j 0).val = t.val * 5000 + (j 0).val; omega
    | ⟨1, _⟩ => show win2_0.index t (1 : Fin 2) * 192 + 1 * k.val = k.val; omega
  · funext y
    show V c main_v46 (((cfg2.win 1).blk t).view.emb y) = V c main_v46 y
    refine congrArg (V c main_v46) (funext fun a => Fin.ext ?_)
    match a with
    | ⟨0, _⟩ => show win2_1.index t (0 : Fin 2) * 192 + 1 * (y 0).val = (y 0).val; omega
    | ⟨1, _⟩ => show win2_1.index t (1 : Fin 2) * 192 + 1 * (y 1).val = (y 1).val; omega
  · funext y
    show V c main_v49 (((cfg2.win 2).blk t).view.emb y) = V c main_v49 y
    refine congrArg (V c main_v49) (funext fun a => Fin.ext ?_)
    match a with
    | ⟨0, _⟩ => show win2_2.index t (0 : Fin 2) * 1 + 1 * (y 0).val = (y 0).val; omega
    | ⟨1, _⟩ => show win2_2.index t (1 : Fin 2) * 192 + 1 * (y 1).val = (y 1).val; omega
  · funext y
    show V c main_v48 (((cfg2.win 3).blk t).view.emb y) = V c main_v48 y
    refine congrArg (V c main_v48) (funext fun a => Fin.ext ?_)
    match a with
    | ⟨0, _⟩ => show win2_3.index t (0 : Fin 2) * 192 + 1 * (y 0).val = (y 0).val; omega
    | ⟨1, _⟩ => show win2_3.index t (1 : Fin 2) * 192 + 1 * (y 1).val = (y 1).val; omega
  · funext y
    show V c main_v50 (((cfg2.win 4).blk t).view.emb y) = V c main_v50 y
    refine congrArg (V c main_v50) (funext fun a => Fin.ext ?_)
    match a with
    | ⟨0, _⟩ => show win2_4.index t (0 : Fin 2) * 1 + 1 * (y 0).val = (y 0).val; omega
    | ⟨1, _⟩ => show win2_4.index t (1 : Fin 2) * 192 + 1 * (y 1).val = (y 1).val; omega

/-- An index of the array is in point t's block iff each coordinate is in the block's range on its axis. -/
theorem mem_blk2 (t : Fin cfg2.N) (i : S200000x192.Idx) :
    i ∈ ((cfg2.win 5).blk t).view.set ↔ ∀ a : Fin 2, win2_5.index t a * S5000x192.size a ≤ (i a).val
      ∧ (i a).val < win2_5.index t a * S5000x192.size a + S5000x192.size a := by
  show i ∈ ((View.whole main_v51).slice (win2_5.rect t)).set ↔ _
  rw [View.set_slice_whole, Rect.mem_set_unit]
  exact Iff.rfl

/-- The blocks cover the array: row r is in block r / 5000. -/
theorem cover2 (i : S200000x192.Idx) : ∃ t : Fin cfg2.N, (cfg2.win 5).flush t = true ∧ i ∈ ((cfg2.win 5).blk t).view.set := by
  have hi0 : (i 0).val < 200000 := (i 0).isLt
  have hi1 : (i 1).val < 192 := (i 1).isLt
  have hN : cfg2.N = 40 := N_2
  let t : Fin cfg2.N := ⟨(i 0).val / 5000, by rw [hN]; omega⟩
  obtain ⟨e00, e01, e10, e11, e20, e21, e30, e31, e40, e41, e50, e51⟩ := idx_facts2 t
  have htv : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 192 ≤ (i 1).val ∧ (i 1).val < win2_5.index t (1 : Fin 2) * 192 + 192; omega

/-- THE ARRAY after the region: the two layers on every gathered row. -/
theorem final2 (c : Dev nD) : (dat2 V c).arrAt 5 cfg2.N = G2 V c :=
  (dat2 V c).arrAt_eq_of_cover 5 (G2 V c) (fun t _ => flushed2 V c t) (cover2)

end Cert.KernelIdeal.Blocks

end
-- ==== Proof.LibUpdateLayer.lean ====
/-
  The vector unit's spelling of the update network, read at an entry as the row function `upd` of Spec.lean.

  The body turns its block e of summed exponentials into the message (1/8)·log e + off (the offset a scalar read out
  of a 1×1 block), joins it along the columns to the block s of node states (a two-piece concatenation: columns 0–63
  the message, columns 64–127 the state), rounds to bf16 (the identity here) and applies the two layers.  A joined row
  is the join of the two rows, so entry (r, q) is the two-layer row function of the joined row r at q.  Generic in the
  block height and the hidden width; no finiteness is needed.
-/
import proofs.«171401_j10385230921929_1_alg».proof.Proof.LibTwoLayer

noncomputable section

namespace Cert.LibUpdateLayer

open Idealize.ShloMosaic Idealize.ShloMosaic.ValueIdx Cert.Spec Cert.LibTwoLayer

/-- Two [n, 64] arrays joined along the columns, at (r, k): the join of their rows r at k. -/
theorem concat_row {n : ℕ} (a b : (⟨2, ![n, 64]⟩ : Shape).Idx → EReal)
    (h : Shape.Concatenates [(⟨2, ![n, 64]⟩ : Shape), (⟨2, ![n, 64]⟩ : Shape)] ⟨2, ![n, 128]⟩ 1) (r : Fin n) (k : Fin 128) :
    concatenate (⟨2, ![n, 128]⟩ : Shape) 1 [⟨(⟨2, ![n, 64]⟩ : Shape), a⟩, ⟨(⟨2, ![n, 64]⟩ : Shape), b⟩] h (ix2 r k)
      = catRow (row a r) (row b r) k := by
  unfold catRow
  split
  · rename_i hk
    exact concatenate_pair_apply_left (1 : Fin 2) a b h (ix2 r k) rfl (ix2 r ⟨k.val, hk⟩)
      (fun b' => by match b' with | ⟨0, _⟩ => rfl | ⟨1, _⟩ => rfl)
  · rename_i hk
    have hk' : k.val - 64 < 64 := by have := k.isLt; omega
    exact concatenate_pair_apply_right (1 : Fin 2) a b h (ix2 r k) rfl rfl (ix2 r ⟨k.val - 64, hk'⟩)
      (fun b' hb => by match b' with | ⟨0, _⟩ => rfl | ⟨1, _⟩ => exact absurd rfl hb)
      (by show (k.val - 64) + 64 = k.val; omega)

/-- The output layer as the vector unit spells it, at an entry. -/
theorem vec_out {n d e : ℕ} {φh φw : FTy} (hid : FVec Ideal ⟨2, ![n, d]⟩ φh) (w : FVec Ideal ⟨2, ![d, e]⟩ φw)
    (b : FVec Ideal ⟨2, ![1, e]⟩ .f32) (hB : (⟨2, ![1, e]⟩ : Shape).Broadcasts ⟨2, ![n, e]⟩) (r : Fin n) (q : Fin e) :
    addf (FloatOps.matmul (DotDims.plain n d e) none hid w (constant (F := Ideal) ⟨2, ![n, e]⟩ .f32 0x00000000#32))
        (broadcastTo ⟨2, ![n, e]⟩ b hB) (ix2 r q)
      = outRow (row hid r) w (rowVec b) q := by
  show FloatOps.matmul (DotDims.plain n d e) none hid w (constant (F := Ideal) ⟨2, ![n, e]⟩ .f32 0x00000000#32) (ix2 r q)
      + broadcastTo ⟨2, ![n, e]⟩ b hB (ix2 r q) = _
  rw [LibDense.matmul_plain, LibBiasRows.row_broadcast]
  rfl

/-- The update network as the vector unit spells it, at an entry. -/
theorem vec_upd {n d : ℕ} {φw1 φw2 : FTy} (off : FVec Ideal ⟨2, ![1, 1]⟩ .f32) (e s : FVec Ideal ⟨2, ![n, 64]⟩ .f32)
    (w1 : FVec Ideal ⟨2, ![128, d]⟩ φw1) (b1 : FVec Ideal ⟨2, ![1, d]⟩ .f32) (w2 : FVec Ideal ⟨2, ![d, 64]⟩ φw2)
    (b2 : FVec Ideal ⟨2, ![1, 64]⟩ .f32)
    (hp : ∀ a, (![0, 0] : Fin 2 → Nat) a < (⟨2, ![1, 1]⟩ : Shape).size a)
    (he : (⟨2, ![n, 64]⟩ : Shape).ShapeCasts ⟨2, ![n, 64]⟩)
    (hc : Shape.Concatenates [(⟨2, ![n, 64]⟩ : Shape), (⟨2, ![n, 64]⟩ : Shape)] ⟨2, ![n, 128]⟩ 1)
    (hw1 : (⟨2, ![128, d]⟩ : Shape).ShapeCasts ⟨2, ![128, d]⟩) (hb1 : (⟨2, ![1, d]⟩ : Shape).ShapeCasts ⟨2, ![1, d]⟩)
    (hB1 : (⟨2, ![1, d]⟩ : Shape).Broadcasts ⟨2, ![n, d]⟩)
    (hw2 : (⟨2, ![d, 64]⟩ : Shape).ShapeCasts ⟨2, ![d, 64]⟩) (hb2 : (⟨2, ![1, 64]⟩ : Shape).ShapeCasts ⟨2, ![1, 64]⟩)
    (hB2 : (⟨2, ![1, 64]⟩ : Shape).Broadcasts ⟨2, ![n, 64]⟩) (ht : (FTy.bf16).bits < (FTy.f32).bits)
    (i : (⟨2, ![n, 64]⟩ : Shape).Idx) :
    addf (FloatOps.matmul (DotDims.plain n d 64) none
        (truncf .bf16 (maximumf (addf (FloatOps.matmul (DotDims.plain n 128 d) none
              (truncf .bf16 (concatenate (⟨2, ![n, 128]⟩ : Shape) 1
                [⟨(⟨2, ![n, 64]⟩ : Shape), addf (mulf (broadcast ⟨2, ![n, 64]⟩ (FloatOps.ofBits (F := Ideal) .f32 0x3E000000#32))
                    (log (shapeCast ⟨2, ![n, 64]⟩ e he))) (broadcast ⟨2, ![n, 64]⟩ (extractAt ![0, 0] off hp))⟩,
                 ⟨(⟨2, ![n, 64]⟩ : Shape), s⟩] hc) ht)
              (shapeCast ⟨2, ![128, d]⟩ w1 hw1) (constant (F := Ideal) ⟨2, ![n, d]⟩ .f32 0x00000000#32))
            (broadcastTo ⟨2, ![n, d]⟩ (shapeCast ⟨2, ![1, d]⟩ b1 hb1) hB1))
          (broadcast ⟨2, ![n, d]⟩ (FloatOps.ofBits (F := Ideal) .f32 0x00000000#32))) ht)
        (shapeCast ⟨2, ![d, 64]⟩ w2 hw2) (constant (F := Ideal) ⟨2, ![n, 64]⟩ .f32 0x00000000#32))
      (broadcastTo ⟨2, ![n, 64]⟩ (shapeCast ⟨2, ![1, 64]⟩ b2 hb2) hB2) i
      = upd e s (off (ix2 ⟨0, Nat.one_pos⟩ ⟨0, Nat.one_pos⟩)) w1 (rowVec b1) w2 (rowVec b2) i := by
  rw [shapeCast_self, shapeCast_self, shapeCast_self, shapeCast_self, shapeCast_self]
  obtain ⟨r, q, rfl⟩ : ∃ (r : Fin n) (q : Fin 64), i = ix2 r q := ⟨i 0, i 1, eq_ix2 i⟩
  refine (vec_out _ w2 b2 hB2 r q).trans ?_
  show outRow _ w2 (rowVec b2) q = outRow (hiddenRow (catRow (msgRow (row e r) (off (ix2 ⟨0, Nat.one_pos⟩ ⟨0, Nat.one_pos⟩))) (row s r)) w1 (rowVec b1)) w2 (rowVec b2) q
  refine congrArg (fun ρ => outRow ρ w2 (rowVec b2) q) (funext fun k => ?_)
  refine (vec_hidden _ w1 b1 hB1 ht r k).trans ?_
  refine congrArg (fun ρ => hiddenRow ρ w1 (rowVec b1) k) (funext fun j => ?_)
  refine (concat_row _ s hc r j).trans ?_
  refine congrArg (fun ρ => catRow ρ (row s r) j) (funext fun j' => ?_)
  show Ideal.ofBits .f32 0x3E000000#32 * Ideal.log (e (ix2 r j')) + off (fun a => ⟨(![0, 0] : Fin 2 → Nat) a, hp a⟩) = _
  refine congrArg (fun z => Ideal.ofBits .f32 0x3E000000#32 * Ideal.log (e (ix2 r j')) + off z) (funext fun a => Fin.ext ?_)
  match a with
  | ⟨0, _⟩ => rfl
  | ⟨1, _⟩ => rfl

end Cert.LibUpdateLayer

end
-- ==== Proof.KernelPay3.lean ====
/-
  The update kernel's stored value, at an entry: the body's arithmetic on its seven loaded blocks is the update row
  function of Spec.lean — row r of the output block depends on row r of the block of summed exponentials, row r of the
  block of node states, the offset, the two weight blocks and the two bias rows.
-/
import proofs.«171401_j10385230921929_1_alg».proof.Proof.Gen.KernelIdeal.Skeleton
import proofs.«171401_j10385230921929_1_alg».proof.Proof.LibUpdateLayer

noncomputable section

namespace Cert.KernelIdeal.Pay

open Idealize.ShloMosaic Idealize.ShloMosaic.ValueIdx Cert.KernelIdeal Cert.KernelIdeal.Gen Cert.Spec Cert.LibTwoLayer Cert.LibUpdateLayer

/-- The update kernel's payload is the update network applied to the two row blocks (the payload takes the offset block
    first, as the body loads it first). -/
theorem pay3 (x0 : Vec Ideal S1x1 .f32) (x1 : Vec Ideal S5000x64 .f32) (x2 : Vec Ideal S5000x64 .f32) (x3 : Vec Ideal S128x128 .bf16)
    (x4 : Vec Ideal S1x128 .f32) (x5 : Vec Ideal S128x64 .bf16) (x6 : Vec Ideal S1x64 .f32) (i : S5000x64.Idx) :
    k3_pay1 (F := Ideal) x0 x1 x2 x3 x4 x5 x6 i
      = upd x1 x2 (x0 (ix2 ⟨0, Nat.one_pos⟩ ⟨0, Nat.one_pos⟩)) x3 (rowVec x4) x5 (rowVec x6) i := by
  unfold k3_pay1
  exact vec_upd x0 x1 x2 x3 x4 x5 x6 _ _ _ _ _ _ _ _ _ _ i

end Cert.KernelIdeal.Pay

end
-- ==== Proof.KernelBlocks3.lean ====
/-
  Region 3's output array as ONE function of the arrays the region finds on entry.

  The grid has 40 points; point t stages rows 5000·t … 5000·t + 4999 of the summed exponentials and of the node states,
  and the whole of the 1×1 offset, the two weight matrices and the two bias rows, and writes back rows 5000·t … 5000·t + 4999
  of the output.  An output row is the update row function of the matching rows of the two row-blocked inputs, so what
  point t writes back is block t of `upd E S off W₁ b₁ W₂ b₂` — one function of the whole arrays — and the 40 blocks
  cover the 200000 rows (row r lies in block r / 5000): after the region the output array IS that function.
-/
import proofs.«171401_j10385230921929_1_alg».proof.Proof.IdealRegion3
import proofs.«171401_j10385230921929_1_alg».proof.Proof.KernelPay3
import proofs.«171401_j10385230921929_1_alg».proof.Proof.KernelBlocks0
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.Spec Cert.LibTwoLayer

variable (V : (c : Dev nD) → (b : Ref sig .tc) → Buf (Elt Ideal) ((c : Thread nD τ).loc b))

/-- A block of rows is the same update function of its rows: if block row (j 0) of the two row blocks is row R of the two
    arrays and the other blocks are the whole arrays, the block's entry j is the arrays' entry (R, j 1). -/
theorem point_upd {n N d : ℕ} (E S : (⟨2, ![N, 64]⟩ : Shape).Idx → EReal) (OFF : (⟨2, ![1, 1]⟩ : Shape).Idx → EReal)
    (W1 : (⟨2, ![128, d]⟩ : Shape).Idx → EReal) (B1 : (⟨2, ![1, d]⟩ : Shape).Idx → EReal) (W2 : (⟨2, ![d, 64]⟩ : Shape).Idx → EReal)
    (B2 : (⟨2, ![1, 64]⟩ : Shape).Idx → EReal)
    (x0 x1 : (⟨2, ![n, 64]⟩ : Shape).Idx → EReal) (x2 : (⟨2, ![1, 1]⟩ : Shape).Idx → EReal) (x3 : (⟨2, ![128, d]⟩ : Shape).Idx → EReal)
    (x4 : (⟨2, ![1, d]⟩ : Shape).Idx → EReal) (x5 : (⟨2, ![d, 64]⟩ : Shape).Idx → EReal) (x6 : (⟨2, ![1, 64]⟩ : Shape).Idx → EReal)
    (j : (⟨2, ![n, 64]⟩ : Shape).Idx) (R : Fin N)
    (h0 : ∀ k : Fin 64, x0 (ix2 (j 0) k) = E (ix2 R k)) (h1 : ∀ k : Fin 64, x1 (ix2 (j 0) k) = S (ix2 R k))
    (h2 : x2 = OFF) (h3 : x3 = W1) (h4 : x4 = B1) (h5 : x5 = W2) (h6 : x6 = B2) :
    upd x0 x1 (x2 (ix2 ⟨0, Nat.one_pos⟩ ⟨0, Nat.one_pos⟩)) x3 (rowVec x4) x5 (rowVec x6) j
      = upd E S (OFF (ix2 ⟨0, Nat.one_pos⟩ ⟨0, Nat.one_pos⟩)) W1 (rowVec B1) W2 (rowVec B2) (ix2 R (j 1)) := by
  subst h2 h3 h4 h5 h6
  exact (congrArg (upd x0 x1 (x2 (ix2 ⟨0, Nat.one_pos⟩ ⟨0, Nat.one_pos⟩)) x3 (rowVec x4) x5 (rowVec x6)) (eq_ix2 j)).trans
    (upd_congr x0 x1 E S (x2 (ix2 ⟨0, Nat.one_pos⟩ ⟨0, Nat.one_pos⟩)) x3 (rowVec x4) x5 (rowVec x6) (j 0) R (j 1) h0 h1)

/-- What region 3's output array ends holding: the update network on every node. -/
abbrev G3 (c : Dev nD) : S200000x64.Idx → EReal :=
  upd (V c main_v95 : S200000x64.Idx → EReal) (V c main_arg0 : S200000x64.Idx → EReal)
    ((V c main_v102 : S1x1.Idx → EReal) (ix2 ⟨0, Nat.one_pos⟩ ⟨0, Nat.one_pos⟩))
    (V c main_v97 : S128x128.Idx → EReal) (rowVec (V c main_v100 : S1x128.Idx → EReal))
    (V c main_v99 : S128x64.Idx → EReal) (rowVec (V c main_v101 : S1x64.Idx → EReal))

/-- The printed index maps over the grid: the row-block windows move with the point, the others stand still. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- WHAT POINT t WRITES BACK is block t of `G3`. -/
theorem flushed3 (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S5000x64) hz, View.ld_unit_zero (S := S1x1) hz, View.ld_unit_zero (S := S128x128) hz,
    View.ld_unit_zero (S := S1x128) hz, View.ld_unit_zero (S := S128x64) hz, View.ld_unit_zero (S := S1x64) hz]
  obtain ⟨e00, e01, e10, e11, e20, e21, e30, e31, e40, e41, e50, e51, e60, e61, e70, e71⟩ := idx_facts3 t
  have ht : t.val < 40 := lt_of_lt_of_eq t.isLt N_3
  funext j
  have hj0 : (j 0).val < 5000 := (j 0).isLt
  have hj1 : (j 1).val < 64 := (j 1).isLt
  refine (Pay.pay3 _ _ _ _ _ _ _ j).trans ?_
  have hJ : ((cfg3.win 7).blk t).view.emb j = ix2 (⟨t.val * 5000 + (j 0).val, by omega⟩ : Fin 200000) (j 1) := by
    funext a; apply Fin.ext
    match a with
    | ⟨0, _⟩ => show win3_7.index t (0 : Fin 2) * 5000 + 1 * (j 0).val = t.val * 5000 + (j 0).val; omega
    | ⟨1, _⟩ => show win3_7.index t (1 : Fin 2) * 64 + 1 * (j 1).val = (j 1).val; omega
  show _ = G3 V c (((cfg3.win 7).blk t).view.emb j)
  rw [hJ]
  refine point_upd (V c main_v95 : S200000x64.Idx → EReal) (V c main_arg0 : S200000x64.Idx → EReal) (V c main_v102 : S1x1.Idx → EReal)
    (V c main_v97 : S128x128.Idx → EReal) (V c main_v100 : S1x128.Idx → EReal) (V c main_v99 : S128x64.Idx → EReal) (V c main_v101 : S1x64.Idx → EReal)
    (iblk3 V c 0 t) (iblk3 V c 1 t) (iblk3 V c 2 t) (iblk3 V c 3 t) (iblk3 V c 4 t) (iblk3 V c 5 t) (iblk3 V c 6 t) j
    ⟨t.val * 5000 + (j 0).val, by omega⟩ (fun k => ?_) (fun k => ?_) ?_ ?_ ?_ ?_ ?_
  · show V c main_v95 (((cfg3.win 0).blk t).view.emb (ix2 (j 0) k)) = V c main_v95 (ix2 ⟨t.val * 5000 + (j 0).val, _⟩ k)
    refine congrArg (V c main_v95) (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 64 + 1 * k.val = k.val; omega
  · show V c main_arg0 (((cfg3.win 1).blk t).view.emb (ix2 (j 0) k)) = V c main_arg0 (ix2 ⟨t.val * 5000 + (j 0).val, _⟩ k)
    refine congrArg (V c main_arg0) (funext fun a => Fin.ext ?_)
    match a with
    | ⟨0, _⟩ => show win3_1.index t (0 : Fin 2) * 5000 + 1 * (j 0).val = t.val * 5000 + (j 0).val; omega
    | ⟨1, _⟩ => show win3_1.index t (1 : Fin 2) * 64 + 1 * k.val = k.val; omega
  · funext y
    show V c main_v102 (((cfg3.win 2).blk t).view.emb y) = V c main_v102 y
    refine congrArg (V c main_v102) (funext fun a => Fin.ext ?_)
    match a with
    | ⟨0, _⟩ => show win3_2.index t (0 : Fin 2) * 1 + 1 * (y 0).val = (y 0).val; omega
    | ⟨1, _⟩ => show win3_2.index t (1 : Fin 2) * 1 + 1 * (y 1).val = (y 1).val; omega
  · funext y
    show V c main_v97 (((cfg3.win 3).blk t).view.emb y) = V c main_v97 y
    refine congrArg (V c main_v97) (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  · funext y
    show V c main_v100 (((cfg3.win 4).blk t).view.emb y) = V c main_v100 y
    refine congrArg (V c main_v100) (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · funext y
    show V c main_v99 (((cfg3.win 5).blk t).view.emb y) = V c main_v99 y
    refine congrArg (V c main_v99) (funext fun a => Fin.ext ?_)
    match a with
    | ⟨0, _⟩ => show win3_5.index t (0 : Fin 2) * 128 + 1 * (y 0).val = (y 0).val; omega
    | ⟨1, _⟩ => show win3_5.index t (1 : Fin 2) * 64 + 1 * (y 1).val = (y 1).val; omega
  · funext y
    show V c main_v101 (((cfg3.win 6).blk t).view.emb y) = V c main_v101 y
    refine congrArg (V c main_v101) (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega

/-- An index of the array is in point t's block iff each coordinate is in the block's range on its axis. -/
theorem mem_blk3 (t : Fin cfg3.N) (i : S200000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v103).slice (win3_7.rect t)).set ↔ _
  rw [View.set_slice_whole, Rect.mem_set_unit]
  exact Iff.rfl

/-- The blocks cover the array: row r is in block r / 5000. -/
theorem cover3 (i : S200000x64.Idx) : ∃ t : Fin cfg3.N, (cfg3.win 7).flush t = true ∧ i ∈ ((cfg3.win 7).blk t).view.set := by
  have hi0 : (i 0).val < 200000 := (i 0).isLt
  have hi1 : (i 1).val < 64 := (i 1).isLt
  have hN : cfg3.N = 40 := N_3
  let t : Fin cfg3.N := ⟨(i 0).val / 5000, by rw [hN]; omega⟩
  obtain ⟨e00, e01, e10, e11, e20, e21, e30, e31, e40, e41, e50, e51, e60, e61, e70, e71⟩ := idx_facts3 t
  have htv : t.val = (i 0).val / 5000 := rfl
  refine ⟨t, flush3_7 t, ?_⟩
  rw [mem_blk3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

/-- THE ARRAY after the region: the update network on every node. -/
theorem final3 (c : Dev nD) : (dat3 V c).arrAt 7 cfg3.N = G3 V c :=
  (dat3 V c).arrAt_eq_of_cover 7 (G3 V c) (fun t _ => flushed3 V c t) (cover3)

end Cert.KernelIdeal.Blocks

end
-- ==== Proof.Chain.lean ====
/-
  The reference program's chain of values, written as functions of plain arrays.

  A relation's edges name source nodes through an index array; a negative index counts from the end (200000 is added
  to it), and the index array becomes a column of start indices.  The gathered rows, two or three edges to a row,
  pass through the relation's two-layer network (Spec.mlp over the transposed weights), the result is laid out again
  as 600000 rows of 64, and its maximum is taken.  The three maxima are joined and their maximum is the common offset.
  Each relation's flat output gives  exp(8·(o − offset)),  which three scatter-additions accumulate, relation after
  relation, into an array filled with one small constant.  The update network (Spec.upd over the transposed weights)
  is applied to the accumulated sums, the node states and the offset.  Nothing is evaluated and no finiteness is used.
-/
import proofs.«171401_j10385230921929_1_alg».proof.ReferenceIdeal
import proofs.«171401_j10385230921929_1_alg».proof.Proof.Spec

noncomputable section

namespace Cert.Chain

open Idealize.ShloMosaic Cert.ReferenceIdeal Cert.ReferenceIdeal.Facts₀ Cert.Spec

variable [Facts]

/-- The column of start indices of an index array: a negative index has 200000 added. -/
def idxCol (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 200000#32))) a)

/-- The node rows the index array names, one row of 64 per index. -/
def gathered (nodes : FVec Ideal S200000x64 .f32) (a : IVec S600000 32) : FVec Ideal S600000x64 .f32 :=
  Host.gather gather_S200000x64_S600000x1_S600000x64_1_0_n_n_0_1_164 nodes (idxCol a)

/-- The gathered rows, two to a row of 128. -/
def x128 (nodes : FVec Ideal S200000x64 .f32) (a : IVec S600000 32) : FVec Ideal S300000x128 .f32 :=
  shapeCast S300000x128 (gathered nodes a) shapeCasts_S600000x64_S300000x128

/-- The gathered rows, three to a row of 192. -/
def x192 (nodes : FVec Ideal S200000x64 .f32) (a : IVec S600000 32) : FVec Ideal S200000x192 .f32 :=
  shapeCast S200000x192 (gathered nodes a) shapeCasts_S600000x64_S200000x192

/-- A relation network of width 128 on the gathered rows. -/
def o128 (nodes : FVec Ideal S200000x64 .f32) (a : IVec S600000 32) (w1 : FVec Ideal S128x128 .f32) (b1 : FVec Ideal S128 .f32)
    (w2 : FVec Ideal S128x128 .f32) (b2 : FVec Ideal S128 .f32) : FVec Ideal S300000x128 .f32 :=
  mlp (x128 nodes a) (transpose S128x128 [1, 0] w1 transposes_S128x128_S128x128_1_0) b1
    (transpose S128x128 [1, 0] w2 transposes_S128x128_S128x128_1_0) b2

/-- The relation network of width 192 on the gathered rows. -/
def o192 (nodes : FVec Ideal S200000x64 .f32) (a : IVec S600000 32) (w1 : FVec Ideal S192x192 .f32) (b1 : FVec Ideal S192 .f32)
    (w2 : FVec Ideal S192x192 .f32) (b2 : FVec Ideal S192 .f32) : FVec Ideal S200000x192 .f32 :=
  mlp (x192 nodes a) (transpose S192x192 [1, 0] w1 transposes_S192x192_S192x192_1_0) b1
    (transpose S192x192 [1, 0] w2 transposes_S192x192_S192x192_1_0) b2

/-- A width-128 output laid out as 600000 rows of 64. -/
def flat128 (o : FVec Ideal S300000x128 .f32) : FVec Ideal S600000x64 .f32 :=
  shapeCast S600000x64 o shapeCasts_S300000x128_S600000x64

/-- The width-192 output laid out as 600000 rows of 64. -/
def flat192 (o : FVec Ideal S200000x192 .f32) : FVec Ideal S600000x64 .f32 :=
  shapeCast S600000x64 o shapeCasts_S200000x192_S600000x64

/-- The maximum of a flat output (from −∞). -/
def mxOf (f : FVec Ideal S600000x64 .f32) : FVec Ideal S_ .f32 :=
  Host.reduce FloatOps.maximumf f (constant S_ .f32 0xFF800000#32) reducesTo_S600000x64_S_d0_1 h_S_

/-- The common offset: the maximum of the three maxima. -/
def mxAll (f0 f1 f2 : FVec Ideal S600000x64 .f32) : FVec Ideal S_ .f32 :=
  Host.reduce FloatOps.maximumf
    (concatenate S3 0 [⟨S1, broadcastInDim S1 ![] bcast_S_S1 (mxOf f0)⟩, ⟨S1, broadcastInDim S1 ![] bcast_S_S1 (mxOf f1)⟩,
      ⟨S1, broadcastInDim S1 ![] bcast_S_S1 (mxOf f2)⟩] concatenates_S1_S1_S1_S3_d0)
    (constant S_ .f32 0xFF800000#32) reducesTo_S3_S_d0 h_S_

/-- exp(8·(o − offset)) on a flat output. -/
def expsOf (f : FVec Ideal S600000x64 .f32) (mx : FVec Ideal S_ .f32) : FVec Ideal S600000x64 .f32 :=
  Host.exp (mulf (broadcastInDim S600000x64 ![] bcast_S_S600000x64 (constant S_ .f32 0x41000000#32))
    (subf f (broadcastInDim S600000x64 ![] bcast_S_S600000x64 mx)))

/-- The three scatter-additions, relation after relation, into the array filled with the small constant. -/
def esum (f0 f1 f2 : FVec Ideal S600000x64 .f32) (a1 a2 a3 : IVec S600000 32) : FVec Ideal S200000x64 .f32 :=
  Host.scatterAdd scatter_S200000x64_S600000x1_S600000x64_1_0_0_1
    (Host.scatterAdd scatter_S200000x64_S600000x1_S600000x64_1_0_0_1
      (Host.scatterAdd scatter_S200000x64_S600000x1_S600000x64_1_0_0_1
        (broadcastInDim S200000x64 ![] bcast_S_S200000x64 (constant S_ .f32 0x24E69595#32))
        (idxCol a1) (expsOf f0 (mxAll f0 f1 f2)))
      (idxCol a2) (expsOf f1 (mxAll f0 f1 f2)))
    (idxCol a3) (expsOf f2 (mxAll f0 f1 f2))

/-- The whole reference: the update network on the accumulated sums, the node states and the common offset. -/
def final (nodes : FVec Ideal S200000x64 .f32) (a1 a2 a3 : IVec S600000 32)
    (r0w1 : FVec Ideal S128x128 .f32) (r0b1 : FVec Ideal S128 .f32) (r0w2 : FVec Ideal S128x128 .f32) (r0b2 : FVec Ideal S128 .f32)
    (r1w1 : FVec Ideal S128x128 .f32) (r1b1 : FVec Ideal S128 .f32) (r1w2 : FVec Ideal S128x128 .f32) (r1b2 : FVec Ideal S128 .f32)
    (r2w1 : FVec Ideal S192x192 .f32) (r2b1 : FVec Ideal S192 .f32) (r2w2 : FVec Ideal S192x192 .f32) (r2b2 : FVec Ideal S192 .f32)
    (uw1 : FVec Ideal S128x128 .f32) (ub1 : FVec Ideal S128 .f32) (uw2 : FVec Ideal S64x128 .f32) (ub2 : FVec Ideal S64 .f32) :
    FVec Ideal S200000x64 .f32 :=
  upd
    (esum (flat128 (o128 nodes a1 r0w1 r0b1 r0w2 r0b2)) (flat128 (o128 nodes a2 r1w1 r1b1 r1w2 r1b2))
      (flat192 (o192 nodes a3 r2w1 r2b1 r2w2 r2b2)) a1 a2 a3)
    nodes
    (mxAll (flat128 (o128 nodes a1 r0w1 r0b1 r0w2 r0b2)) (flat128 (o128 nodes a2 r1w1 r1b1 r1w2 r1b2))
      (flat192 (o192 nodes a3 r2w1 r2b1 r2w2 r2b2)) ValueIdx.ix0)
    (transpose S128x128 [1, 0] uw1 transposes_S128x128_S128x128_1_0) ub1
    (transpose S128x64 [1, 0] uw2 transposes_S64x128_S128x64_1_0) ub2

end Cert.Chain

end
-- ==== Proof.KernelHost.lean ====
/-
  What each stretch of host operations of the kernel's program leaves in the buffers the regions read, as functions of
  the buffers it starts from — for ANY starting contents `W`.  Each stretch gathers the node rows of one relation
  (indices below zero wrapped once by the table's height), lays two or three gathered rows side by side as one input row,
  transposes the weights and lays each bias vector out as a row; the later stretches also flatten the previous
  relation's output and take its maximum; the last one stacks the three maxima and takes their maximum, scales and
  exponentiates the flattened outputs against it and adds them into the node table row by row (a scatter-add into a table
  of 10⁻¹⁶s), and hands the update network the weights, bias rows and the offset as a 1×1 array.  Rounding to bf16 is the
  identity on the extended reals, so these are the reference's own operations on the same inputs: each read is stated
  directly in the terms of Chain.lean.  The stacking of the three maxima is one operation with three operands; the
  stretch is read in three parts around it.
-/
import proofs.«171401_j10385230921929_1_alg».proof.Proof.Gen.KernelIdeal.Launch
import proofs.«171401_j10385230921929_1_alg».proof.Proof.Chain
import proofs.«171401_j10385230921929_1_alg».proof.Proof.LibTwoLayer
import Idealize.ShloMosaic.Lib.StableHlo.Run

set_option maxRecDepth 16384

noncomputable section

namespace Cert.KernelIdeal.HostReads

open Idealize.ShloMosaic Idealize.ShloMosaic.TcCoe Idealize.ShloMosaic.ValueIdx Idealize.ShloMosaic.StableHlo
open Idealize.SL.Sem
open Cert.KernelIdeal Cert.KernelIdeal.Gen Cert.Spec Cert.LibTwoLayer

variable [Cert.ReferenceIdeal.Facts]
variable (W : Valuation τ sig (Elt Ideal))

/-! ## Stretch 0: relation 0's inputs -/

/-- Relation 0's input rows: the gathered node rows, two to a row. -/
theorem h0_x : (after hostOps0 W (Proc.devRef .tc main_v8) : S300000x128.Idx → EReal) = Cert.Chain.x128 (W (Proc.devRef .tc main_arg0)) (W (Proc.devRef .tc main_arg1)) := by
  dsimp only [hostOps0]
  after_results
  all_goals rfl

/-- Relation 0's first weight matrix, transposed. -/
theorem h0_w1 : (after hostOps0 W (Proc.devRef .tc main_v10) : S128x128.Idx → EReal) = transpose Cert.ReferenceIdeal.S128x128 [1, 0] (W (Proc.devRef .tc main_arg4)) Cert.ReferenceIdeal.Facts₀.transposes_S128x128_S128x128_1_0 := by
  dsimp only [hostOps0]
  after_results
  all_goals rfl

/-- Relation 0's second weight matrix, transposed. -/
theorem h0_w2 : (after hostOps0 W (Proc.devRef .tc main_v12) : S128x128.Idx → EReal) = transpose Cert.ReferenceIdeal.S128x128 [1, 0] (W (Proc.devRef .tc main_arg6)) Cert.ReferenceIdeal.Facts₀.transposes_S128x128_S128x128_1_0 := by
  dsimp only [hostOps0]
  after_results
  all_goals rfl

/-- Relation 0's first bias, laid out as a row. -/
theorem h0_b1 : rowVec (after hostOps0 W (Proc.devRef .tc main_v13) : S1x128.Idx → EReal) = (W (Proc.devRef .tc main_arg5) : S128.Idx → EReal) := by
  have e : (after hostOps0 W (Proc.devRef .tc main_v13) : S1x128.Idx → EReal) = shapeCast S1x128 (W (Proc.devRef .tc main_arg5) : S128.Idx → EReal) shapeCasts_S128_S1x128 := by
    dsimp only [hostOps0]
    after_results
    all_goals rfl
  rw [e]
  funext j
  exact (LibBiasRows.row_of_vector _ shapeCasts_S128_S1x128 (j 0)).trans (congrArg _ (eq_ix1 j).symm)

/-- Relation 0's second bias, laid out as a row. -/
theorem h0_b2 : rowVec (after hostOps0 W (Proc.devRef .tc main_v14) : S1x128.Idx → EReal) = (W (Proc.devRef .tc main_arg7) : S128.Idx → EReal) := by
  have e : (after hostOps0 W (Proc.devRef .tc main_v14) : S1x128.Idx → EReal) = shapeCast S1x128 (W (Proc.devRef .tc main_arg7) : S128.Idx → EReal) shapeCasts_S128_S1x128 := by
    dsimp only [hostOps0]
    after_results
    all_goals rfl
  rw [e]
  funext j
  exact (LibBiasRows.row_of_vector _ shapeCasts_S128_S1x128 (j 0)).trans (congrArg _ (eq_ix1 j).symm)

/-! ## Stretch 1: relation 0's output flattened and its maximum; relation 1's inputs -/

/-- Relation 0's output, one message per row. -/
theorem h1_flat : (after hostOps1 W (Proc.devRef .tc main_v16) : S600000x64.Idx → EReal) = Cert.Chain.flat128 (W (Proc.devRef .tc main_v15)) := by
  dsimp only [hostOps1]
  after_results
  all_goals rfl

/-- Its maximum. -/
theorem h1_mx : (after hostOps1 W (Proc.devRef .tc main_v17) : S_.Idx → EReal) = Cert.Chain.mxOf (Cert.Chain.flat128 (W (Proc.devRef .tc main_v15))) := by
  dsimp only [hostOps1]
  after_results
  all_goals rfl

/-- Relation 1's input rows. -/
theorem h1_x : (after hostOps1 W (Proc.devRef .tc main_v26) : S300000x128.Idx → EReal) = Cert.Chain.x128 (W (Proc.devRef .tc main_arg0)) (W (Proc.devRef .tc main_arg2)) := by
  dsimp only [hostOps1]
  after_results
  all_goals rfl

/-- Relation 1's first weight matrix, transposed. -/
theorem h1_w1 : (after hostOps1 W (Proc.devRef .tc main_v28) : S128x128.Idx → EReal) = transpose Cert.ReferenceIdeal.S128x128 [1, 0] (W (Proc.devRef .tc main_arg8)) Cert.ReferenceIdeal.Facts₀.transposes_S128x128_S128x128_1_0 := by
  dsimp only [hostOps1]
  after_results
  all_goals rfl

/-- Relation 1's second weight matrix, transposed. -/
theorem h1_w2 : (after hostOps1 W (Proc.devRef .tc main_v30) : S128x128.Idx → EReal) = transpose Cert.ReferenceIdeal.S128x128 [1, 0] (W (Proc.devRef .tc main_arg10)) Cert.ReferenceIdeal.Facts₀.transposes_S128x128_S128x128_1_0 := by
  dsimp only [hostOps1]
  after_results
  all_goals rfl

/-- Relation 1's first bias, as a row. -/
theorem h1_b1 : rowVec (after hostOps1 W (Proc.devRef .tc main_v31) : S1x128.Idx → EReal) = (W (Proc.devRef .tc main_arg9) : S128.Idx → EReal) := by
  have e : (after hostOps1 W (Proc.devRef .tc main_v31) : S1x128.Idx → EReal) = shapeCast S1x128 (W (Proc.devRef .tc main_arg9) : S128.Idx → EReal) shapeCasts_S128_S1x128 := by
    dsimp only [hostOps1]
    after_results
    all_goals rfl
  rw [e]
  funext j
  exact (LibBiasRows.row_of_vector _ shapeCasts_S128_S1x128 (j 0)).trans (congrArg _ (eq_ix1 j).symm)

/-- Relation 1's second bias, as a row. -/
theorem h1_b2 : rowVec (after hostOps1 W (Proc.devRef .tc main_v32) : S1x128.Idx → EReal) = (W (Proc.devRef .tc main_arg11) : S128.Idx → EReal) := by
  have e : (after hostOps1 W (Proc.devRef .tc main_v32) : S1x128.Idx → EReal) = shapeCast S1x128 (W (Proc.devRef .tc main_arg11) : S128.Idx → EReal) shapeCasts_S128_S1x128 := by
    dsimp only [hostOps1]
    after_results
    all_goals rfl
  rw [e]
  funext j
  exact (LibBiasRows.row_of_vector _ shapeCasts_S128_S1x128 (j 0)).trans (congrArg _ (eq_ix1 j).symm)

/-! ## Stretch 2: relation 1's output flattened and its maximum; relation 2's inputs -/

/-- Relation 1's output, one message per row. -/
theorem h2_flat : (after hostOps2 W (Proc.devRef .tc main_v34) : S600000x64.Idx → EReal) = Cert.Chain.flat128 (W (Proc.devRef .tc main_v33)) := by
  dsimp only [hostOps2]
  after_results
  all_goals rfl

/-- Its maximum. -/
theorem h2_mx : (after hostOps2 W (Proc.devRef .tc main_v35) : S_.Idx → EReal) = Cert.Chain.mxOf (Cert.Chain.flat128 (W (Proc.devRef .tc main_v33))) := by
  dsimp only [hostOps2]
  after_results
  all_goals rfl

/-- Relation 2's input rows: three gathered rows to a row. -/
theorem h2_x : (after hostOps2 W (Proc.devRef .tc main_v44) : S200000x192.Idx → EReal) = Cert.Chain.x192 (W (Proc.devRef .tc main_arg0)) (W (Proc.devRef .tc main_arg3)) := by
  dsimp only [hostOps2]
  after_results
  all_goals rfl

/-- Relation 2's first weight matrix, transposed. -/
theorem h2_w1 : (after hostOps2 W (Proc.devRef .tc main_v46) : S192x192.Idx → EReal) = transpose Cert.ReferenceIdeal.S192x192 [1, 0] (W (Proc.devRef .tc main_arg12)) Cert.ReferenceIdeal.Facts₀.transposes_S192x192_S192x192_1_0 := by
  dsimp only [hostOps2]
  after_results
  all_goals rfl

/-- Relation 2's second weight matrix, transposed. -/
theorem h2_w2 : (after hostOps2 W (Proc.devRef .tc main_v48) : S192x192.Idx → EReal) = transpose Cert.ReferenceIdeal.S192x192 [1, 0] (W (Proc.devRef .tc main_arg14)) Cert.ReferenceIdeal.Facts₀.transposes_S192x192_S192x192_1_0 := by
  dsimp only [hostOps2]
  after_results
  all_goals rfl

/-- Relation 2's first bias, as a row. -/
theorem h2_b1 : rowVec (after hostOps2 W (Proc.devRef .tc main_v49) : S1x192.Idx → EReal) = (W (Proc.devRef .tc main_arg13) : S192.Idx → EReal) := by
  have e : (after hostOps2 W (Proc.devRef .tc main_v49) : S1x192.Idx → EReal) = shapeCast S1x192 (W (Proc.devRef .tc main_arg13) : S192.Idx → EReal) shapeCasts_S192_S1x192 := by
    dsimp only [hostOps2]
    after_results
    all_goals rfl
  rw [e]
  funext j
  exact (LibBiasRows.row_of_vector _ shapeCasts_S192_S1x192 (j 0)).trans (congrArg _ (eq_ix1 j).symm)

/-- Relation 2's second bias, as a row. -/
theorem h2_b2 : rowVec (after hostOps2 W (Proc.devRef .tc main_v50) : S1x192.Idx → EReal) = (W (Proc.devRef .tc main_arg15) : S192.Idx → EReal) := by
  have e : (after hostOps2 W (Proc.devRef .tc main_v50) : S1x192.Idx → EReal) = shapeCast S1x192 (W (Proc.devRef .tc main_arg15) : S192.Idx → EReal) shapeCasts_S192_S1x192 := by
    dsimp only [hostOps2]
    after_results
    all_goals rfl
  rw [e]
  funext j
  exact (LibBiasRows.row_of_vector _ shapeCasts_S192_S1x192 (j 0)).trans (congrArg _ (eq_ix1 j).symm)

end Cert.KernelIdeal.HostReads

end
-- ==== Proof.KernelHost3.lean ====
/-
  The last stretch of host operations of the kernel's program, read for ANY starting contents `W`, in three parts: the six
  operations up to the stacking of the three relation maxima (relation 2's output flattened, its maximum, and each maximum
  laid out as a one-entry vector), the stacking itself — one operation with three operands —, and the fifty-six after it
  (the overall maximum; for each relation 8·(o − max) exponentiated and added into the node table row by row, starting from
  a table of 10⁻¹⁶s; the update network's transposed weights, bias rows and the offset as a 1×1 array).  Rounding to
  bf16 is the identity on the extended reals, so these are the reference's own operations on the same inputs, and each
  read is stated in the terms of Chain.lean.
-/
import proofs.«171401_j10385230921929_1_alg».proof.Proof.Gen.KernelIdeal.Launch
import proofs.«171401_j10385230921929_1_alg».proof.Proof.Chain
import proofs.«171401_j10385230921929_1_alg».proof.Proof.LibTwoLayer
import Idealize.ShloMosaic.Lib.StableHlo.Run

set_option maxRecDepth 16384

noncomputable section

namespace Cert.KernelIdeal.HostReads

open Idealize.ShloMosaic Idealize.ShloMosaic.TcCoe Idealize.ShloMosaic.ValueIdx Idealize.ShloMosaic.StableHlo
open Idealize.SL.Sem
open Cert.KernelIdeal Cert.KernelIdeal.Gen Cert.Spec Cert.LibTwoLayer

section Parts
variable {F : FTy → Type} [FloatOps F]

/-- The stretch's first six operations. -/
abbrev pre3 : List (HloOp τ sig (Elt F)) :=
  [ StableHlo.reshape main_v51 main_v52 rfl shapeCasts_S200000x192_S600000x64,
    StableHlo.nullary main_cst_6 (constant S_ .f32 0xFF800000#32),
    StableHlo.binary main_v52 main_cst_6 main_v53 ((fun x v => Host.reduce FloatOps.maximumf x v reducesTo_S600000x64_S_d0_1 h_S_) : (⟨S600000x64, .f32⟩ : BufTy).Contents (Elt F) → (⟨S_, .f32⟩ : BufTy).Contents (Elt F) → (⟨S_, .f32⟩ : BufTy).Contents (Elt F)),
    StableHlo.unary main_v17 main_v54 (broadcastInDim S1 ![] bcast_S_S1 : (⟨S_, .f32⟩ : BufTy).Contents (Elt F) → (⟨S1, .f32⟩ : BufTy).Contents (Elt F)),
    StableHlo.unary main_v35 main_v55 (broadcastInDim S1 ![] bcast_S_S1 : (⟨S_, .f32⟩ : BufTy).Contents (Elt F) → (⟨S1, .f32⟩ : BufTy).Contents (Elt F)),
    StableHlo.unary main_v53 main_v56 (broadcastInDim S1 ![] bcast_S_S1 : (⟨S_, .f32⟩ : BufTy).Contents (Elt F) → (⟨S1, .f32⟩ : BufTy).Contents (Elt F)) ]
/-- The stacking of the three maxima. -/
abbrev nary3 : HloOp τ sig (Elt F) :=
  StableHlo.nary ![main_v54, main_v55, main_v56] main_v57 (fun u => concatenate S3 0 [⟨S1, u 0⟩, ⟨S1, u 1⟩, ⟨S1, u 2⟩] concatenates_S1_S1_S1_S3_d0)
/-- The fifty-six operations after it. -/
abbrev post3 : List (HloOp τ sig (Elt F)) :=
  [ StableHlo.nullary main_cst_7 (constant S_ .f32 0xFF800000#32),
    StableHlo.binary main_v57 main_cst_7 main_v58 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_8 (constant S_ .f32 0x24E69595#32),
    StableHlo.unary main_cst_8 main_v59 (broadcastInDim S200000x64 ![] bcast_S_S200000x64 : (⟨S_, .f32⟩ : BufTy).Contents (Elt F) → (⟨S200000x64, .f32⟩ : BufTy).Contents (Elt F)),
    StableHlo.unary main_v58 main_v60 (broadcastInDim S600000x64 ![] bcast_S_S600000x64 : (⟨S_, .f32⟩ : BufTy).Contents (Elt F) → (⟨S600000x64, .f32⟩ : BufTy).Contents (Elt F)),
    StableHlo.binary main_v16 main_v60 main_v61 (subf : (⟨S600000x64, .f32⟩ : BufTy).Contents (Elt F) → (⟨S600000x64, .f32⟩ : BufTy).Contents (Elt F) → (⟨S600000x64, .f32⟩ : BufTy).Contents (Elt F)),
    StableHlo.nullary main_cst_9 (constant S_ .f32 0x41000000#32),
    StableHlo.unary main_cst_9 main_v62 (broadcastInDim S600000x64 ![] bcast_S_S600000x64 : (⟨S_, .f32⟩ : BufTy).Contents (Elt F) → (⟨S600000x64, .f32⟩ : BufTy).Contents (Elt F)),
    StableHlo.binary main_v62 main_v61 main_v63 (mulf : (⟨S600000x64, .f32⟩ : BufTy).Contents (Elt F) → (⟨S600000x64, .f32⟩ : BufTy).Contents (Elt F) → (⟨S600000x64, .f32⟩ : BufTy).Contents (Elt F)),
    StableHlo.unary main_v63 main_v64 (Host.exp : (⟨S600000x64, .f32⟩ : BufTy).Contents (Elt F) → (⟨S600000x64, .f32⟩ : BufTy).Contents (Elt F)),
    StableHlo.nullary main_c_10 (constantI S_ 32 0#32),
    StableHlo.unary main_c_10 main_v65 (broadcastInDim S600000 ![] bcast_S_S600000 : (⟨S_, .i32⟩ : BufTy).Contents (Elt F) → (⟨S600000, .i32⟩ : BufTy).Contents (Elt F)),
    StableHlo.binary main_arg1 main_v65 main_v66 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 200000#32),
    StableHlo.unary main_c_11 main_v67 (broadcastInDim S600000 ![] bcast_S_S600000 : (⟨S_, .i32⟩ : BufTy).Contents (Elt F) → (⟨S600000, .i32⟩ : BufTy).Contents (Elt F)),
    StableHlo.binary main_arg1 main_v67 main_v68 (addi : (⟨S600000, .i32⟩ : BufTy).Contents (Elt F) → (⟨S600000, .i32⟩ : BufTy).Contents (Elt F) → (⟨S600000, .i32⟩ : BufTy).Contents (Elt F)),
    StableHlo.ternary main_v66 main_v68 main_arg1 main_v69 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v69 main_v70 (broadcastInDim S600000x1 ![0] bcast_S600000_S600000x1_0 : (⟨S600000, .i32⟩ : BufTy).Contents (Elt F) → (⟨S600000x1, .i32⟩ : BufTy).Contents (Elt F)),
    StableHlo.ternary main_v59 main_v70 main_v64 main_v71 ((fun x i u => Host.scatterAdd scatter_S200000x64_S600000x1_S600000x64_1_0_0_1 x i u) : (⟨S200000x64, .f32⟩ : BufTy).Contents (Elt F) → (⟨S600000x1, .i32⟩ : BufTy).Contents (Elt F) → (⟨S600000x64, .f32⟩ : BufTy).Contents (Elt F) → (⟨S200000x64, .f32⟩ : BufTy).Contents (Elt F)),
    StableHlo.unary main_v58 main_v72 (broadcastInDim S600000x64 ![] bcast_S_S600000x64 : (⟨S_, .f32⟩ : BufTy).Contents (Elt F) → (⟨S600000x64, .f32⟩ : BufTy).Contents (Elt F)),
    StableHlo.binary main_v34 main_v72 main_v73 (subf : (⟨S600000x64, .f32⟩ : BufTy).Contents (Elt F) → (⟨S600000x64, .f32⟩ : BufTy).Contents (Elt F) → (⟨S600000x64, .f32⟩ : BufTy).Contents (Elt F)),
    StableHlo.nullary main_cst_12 (constant S_ .f32 0x41000000#32),
    StableHlo.unary main_cst_12 main_v74 (broadcastInDim S600000x64 ![] bcast_S_S600000x64 : (⟨S_, .f32⟩ : BufTy).Contents (Elt F) → (⟨S600000x64, .f32⟩ : BufTy).Contents (Elt F)),
    StableHlo.binary main_v74 main_v73 main_v75 (mulf : (⟨S600000x64, .f32⟩ : BufTy).Contents (Elt F) → (⟨S600000x64, .f32⟩ : BufTy).Contents (Elt F) → (⟨S600000x64, .f32⟩ : BufTy).Contents (Elt F)),
    StableHlo.unary main_v75 main_v76 (Host.exp : (⟨S600000x64, .f32⟩ : BufTy).Contents (Elt F) → (⟨S600000x64, .f32⟩ : BufTy).Contents (Elt F)),
    StableHlo.nullary main_c_13 (constantI S_ 32 0#32),
    StableHlo.unary main_c_13 main_v77 (broadcastInDim S600000 ![] bcast_S_S600000 : (⟨S_, .i32⟩ : BufTy).Contents (Elt F) → (⟨S600000, .i32⟩ : BufTy).Contents (Elt F)),
    StableHlo.binary main_arg2 main_v77 main_v78 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 200000#32),
    StableHlo.unary main_c_14 main_v79 (broadcastInDim S600000 ![] bcast_S_S600000 : (⟨S_, .i32⟩ : BufTy).Contents (Elt F) → (⟨S600000, .i32⟩ : BufTy).Contents (Elt F)),
    StableHlo.binary main_arg2 main_v79 main_v80 (addi : (⟨S600000, .i32⟩ : BufTy).Contents (Elt F) → (⟨S600000, .i32⟩ : BufTy).Contents (Elt F) → (⟨S600000, .i32⟩ : BufTy).Contents (Elt F)),
    StableHlo.ternary main_v78 main_v80 main_arg2 main_v81 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v81 main_v82 (broadcastInDim S600000x1 ![0] bcast_S600000_S600000x1_0 : (⟨S600000, .i32⟩ : BufTy).Contents (Elt F) → (⟨S600000x1, .i32⟩ : BufTy).Contents (Elt F)),
    StableHlo.ternary main_v71 main_v82 main_v76 main_v83 ((fun x i u => Host.scatterAdd scatter_S200000x64_S600000x1_S600000x64_1_0_0_1 x i u) : (⟨S200000x64, .f32⟩ : BufTy).Contents (Elt F) → (⟨S600000x1, .i32⟩ : BufTy).Contents (Elt F) → (⟨S600000x64, .f32⟩ : BufTy).Contents (Elt F) → (⟨S200000x64, .f32⟩ : BufTy).Contents (Elt F)),
    StableHlo.unary main_v58 main_v84 (broadcastInDim S600000x64 ![] bcast_S_S600000x64 : (⟨S_, .f32⟩ : BufTy).Contents (Elt F) → (⟨S600000x64, .f32⟩ : BufTy).Contents (Elt F)),
    StableHlo.binary main_v52 main_v84 main_v85 (subf : (⟨S600000x64, .f32⟩ : BufTy).Contents (Elt F) → (⟨S600000x64, .f32⟩ : BufTy).Contents (Elt F) → (⟨S600000x64, .f32⟩ : BufTy).Contents (Elt F)),
    StableHlo.nullary main_cst_15 (constant S_ .f32 0x41000000#32),
    StableHlo.unary main_cst_15 main_v86 (broadcastInDim S600000x64 ![] bcast_S_S600000x64 : (⟨S_, .f32⟩ : BufTy).Contents (Elt F) → (⟨S600000x64, .f32⟩ : BufTy).Contents (Elt F)),
    StableHlo.binary main_v86 main_v85 main_v87 (mulf : (⟨S600000x64, .f32⟩ : BufTy).Contents (Elt F) → (⟨S600000x64, .f32⟩ : BufTy).Contents (Elt F) → (⟨S600000x64, .f32⟩ : BufTy).Contents (Elt F)),
    StableHlo.unary main_v87 main_v88 (Host.exp : (⟨S600000x64, .f32⟩ : BufTy).Contents (Elt F) → (⟨S600000x64, .f32⟩ : BufTy).Contents (Elt F)),
    StableHlo.nullary main_c_16 (constantI S_ 32 0#32),
    StableHlo.unary main_c_16 main_v89 (broadcastInDim S600000 ![] bcast_S_S600000 : (⟨S_, .i32⟩ : BufTy).Contents (Elt F) → (⟨S600000, .i32⟩ : BufTy).Contents (Elt F)),
    StableHlo.binary main_arg3 main_v89 main_v90 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 200000#32),
    StableHlo.unary main_c_17 main_v91 (broadcastInDim S600000 ![] bcast_S_S600000 : (⟨S_, .i32⟩ : BufTy).Contents (Elt F) → (⟨S600000, .i32⟩ : BufTy).Contents (Elt F)),
    StableHlo.binary main_arg3 main_v91 main_v92 (addi : (⟨S600000, .i32⟩ : BufTy).Contents (Elt F) → (⟨S600000, .i32⟩ : BufTy).Contents (Elt F) → (⟨S600000, .i32⟩ : BufTy).Contents (Elt F)),
    StableHlo.ternary main_v90 main_v92 main_arg3 main_v93 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v93 main_v94 (broadcastInDim S600000x1 ![0] bcast_S600000_S600000x1_0 : (⟨S600000, .i32⟩ : BufTy).Contents (Elt F) → (⟨S600000x1, .i32⟩ : BufTy).Contents (Elt F)),
    StableHlo.ternary main_v83 main_v94 main_v88 main_v95 ((fun x i u => Host.scatterAdd scatter_S200000x64_S600000x1_S600000x64_1_0_0_1 x i u) : (⟨S200000x64, .f32⟩ : BufTy).Contents (Elt F) → (⟨S600000x1, .i32⟩ : BufTy).Contents (Elt F) → (⟨S600000x64, .f32⟩ : BufTy).Contents (Elt F) → (⟨S200000x64, .f32⟩ : BufTy).Contents (Elt F)),
    StableHlo.unary main_arg16 main_v96 ((transpose S128x128 [1, 0] · transposes_S128x128_S128x128_1_0) : (⟨S128x128, .f32⟩ : BufTy).Contents (Elt F) → (⟨S128x128, .f32⟩ : BufTy).Contents (Elt F)),
    StableHlo.unary main_v96 main_v97 ((truncf .bf16 · bitsLt_bf16_f32) : (⟨S128x128, .f32⟩ : BufTy).Contents (Elt F) → (⟨S128x128, .bf16⟩ : BufTy).Contents (Elt F)),
    StableHlo.unary main_arg18 main_v98 ((transpose S128x64 [1, 0] · transposes_S64x128_S128x64_1_0) : (⟨S64x128, .f32⟩ : BufTy).Contents (Elt F) → (⟨S128x64, .f32⟩ : BufTy).Contents (Elt F)),
    StableHlo.unary main_v98 main_v99 ((truncf .bf16 · bitsLt_bf16_f32) : (⟨S128x64, .f32⟩ : BufTy).Contents (Elt F) → (⟨S128x64, .bf16⟩ : BufTy).Contents (Elt F)),
    StableHlo.reshape main_arg17 main_v100 rfl shapeCasts_S128_S1x128,
    StableHlo.reshape main_arg19 main_v101 rfl shapeCasts_S64_S1x64,
    StableHlo.reshape main_v58 main_v102 rfl shapeCasts_S_S1x1 ]

/-- The stretch is its three parts in order. -/
theorem split3 (W : Valuation τ sig (Elt F)) : after hostOps3 W = after post3 (nary3.result (after pre3 W)) := rfl
end Parts

variable [Cert.ReferenceIdeal.Facts]
variable (W : Valuation τ sig (Elt Ideal))

/-! ## Before the stacking -/

/-- Relation 2's output, one message per row. -/
theorem p_flat : (after pre3 W (Proc.devRef .tc main_v52) : S600000x64.Idx → EReal) = Cert.Chain.flat192 (W (Proc.devRef .tc main_v51)) := by
  dsimp only [pre3]
  after_results
  all_goals rfl

/-- Relation 0's maximum as a one-entry vector. -/
theorem p_54 : (after pre3 W (Proc.devRef .tc main_v54) : S1.Idx → EReal) = broadcastInDim Cert.ReferenceIdeal.S1 ![] Cert.ReferenceIdeal.Facts₀.bcast_S_S1 (W (Proc.devRef .tc main_v17)) := by
  dsimp only [pre3]
  after_results
  all_goals rfl

/-- Relation 1's maximum as a one-entry vector. -/
theorem p_55 : (after pre3 W (Proc.devRef .tc main_v55) : S1.Idx → EReal) = broadcastInDim Cert.ReferenceIdeal.S1 ![] Cert.ReferenceIdeal.Facts₀.bcast_S_S1 (W (Proc.devRef .tc main_v35)) := by
  dsimp only [pre3]
  after_results
  all_goals rfl

/-- Relation 2's maximum as a one-entry vector. -/
theorem p_56 : (after pre3 W (Proc.devRef .tc main_v56) : S1.Idx → EReal) = broadcastInDim Cert.ReferenceIdeal.S1 ![] Cert.ReferenceIdeal.Facts₀.bcast_S_S1 (Cert.Chain.mxOf (Cert.Chain.flat192 (W (Proc.devRef .tc main_v51)))) := by
  dsimp only [pre3]
  after_results
  all_goals rfl

/-- The first six operations write none of the buffers read later from the stretch's start. -/
theorem p_keep (r : Ref sig .tc) (h : r ∉ ([main_v52, main_cst_6, main_v53, main_v54, main_v55, main_v56] : List (Ref sig .tc))) :
    after pre3 W (Proc.devRef .tc r) = W (Proc.devRef .tc r) :=
  after_of_writes_sub pre3 W (by
    simp only [pre3, List.Forall, StableHlo.nullary_writes, StableHlo.unary_writes, StableHlo.binary_writes, StableHlo.reshape_writes,
      Finset.singleton_subset_iff, List.mem_toFinset]
    refine ⟨?_, ?_, ?_, ?_, ?_, ?_⟩ <;> exact List.mem_map_of_mem (by decide)) h

/-! ## The stacking -/

/-- The stacked vector: the three operands' contents in order. -/
theorem n_57 (P : Valuation τ sig (Elt Ideal)) : (nary3.result P (Proc.devRef .tc main_v57) : S3.Idx → EReal)
    = concatenate Cert.ReferenceIdeal.S3 0 [⟨Cert.ReferenceIdeal.S1, (P (Proc.devRef .tc main_v54) : S1.Idx → EReal)⟩, ⟨Cert.ReferenceIdeal.S1, (P (Proc.devRef .tc main_v55) : S1.Idx → EReal)⟩,
        ⟨Cert.ReferenceIdeal.S1, (P (Proc.devRef .tc main_v56) : S1.Idx → EReal)⟩] Cert.ReferenceIdeal.Facts₀.concatenates_S1_S1_S1_S3_d0 := by
  dsimp only [nary3]
  exact (nary_result _ _ _ _ _ P).trans rfl

/-- The stacking writes only the stacked vector. -/
theorem n_keep (P : Valuation τ sig (Elt Ideal)) (r : Ref sig .tc) (h : r ≠ main_v57) : nary3.result P (Proc.devRef .tc r) = P (Proc.devRef .tc r) := by
  dsimp only [nary3]
  exact nary_result_ne _ _ _ _ _ P h

end Cert.KernelIdeal.HostReads

end
-- ==== Proof.KernelHost3b.lean ====
/-
  The last stretch of host operations, after the stacking of the three maxima, and the whole stretch put together.

  Given the stacked vector (the three relation maxima), the operations after it take the overall maximum `mx`, form
  exp(8·(o − mx)) of each flattened relation output and add the three into the node table one after the other, and lay out
  the update network's operands.  With the first two maxima computed by the earlier stretches from the very outputs this
  stretch reads (the hypotheses `hM0`, `hM1`), the table the update network reads is Chain.lean's `esum` of the three
  flattened outputs and the 1×1 offset holds Chain.lean's `mxAll`.
-/
import proofs.«171401_j10385230921929_1_alg».proof.Proof.KernelHost3

set_option maxRecDepth 16384

noncomputable section

namespace Cert.KernelIdeal.HostReads

open Idealize.ShloMosaic Idealize.ShloMosaic.TcCoe Idealize.ShloMosaic.ValueIdx Idealize.ShloMosaic.StableHlo
open Idealize.SL.Sem
open Cert.KernelIdeal Cert.KernelIdeal.Gen Cert.Spec Cert.LibTwoLayer

variable [Cert.ReferenceIdeal.Facts]

section Post
variable (U : Valuation τ sig (Elt Ideal))

set_option maxHeartbeats 2000000 in
/-- The node table after the three scatter-adds, when the stacked vector holds the three relation maxima. -/
theorem q_esum (hU : (U (Proc.devRef .tc main_v57) : S3.Idx → EReal) = concatenate Cert.ReferenceIdeal.S3 0 [⟨Cert.ReferenceIdeal.S1, broadcastInDim Cert.ReferenceIdeal.S1 ![] Cert.ReferenceIdeal.Facts₀.bcast_S_S1 (Cert.Chain.mxOf (U (Proc.devRef .tc main_v16)))⟩,
        ⟨Cert.ReferenceIdeal.S1, broadcastInDim Cert.ReferenceIdeal.S1 ![] Cert.ReferenceIdeal.Facts₀.bcast_S_S1 (Cert.Chain.mxOf (U (Proc.devRef .tc main_v34)))⟩,
        ⟨Cert.ReferenceIdeal.S1, broadcastInDim Cert.ReferenceIdeal.S1 ![] Cert.ReferenceIdeal.Facts₀.bcast_S_S1 (Cert.Chain.mxOf (U (Proc.devRef .tc main_v52)))⟩] Cert.ReferenceIdeal.Facts₀.concatenates_S1_S1_S1_S3_d0) :
    (after post3 U (Proc.devRef .tc main_v95) : S200000x64.Idx → EReal)
      = Cert.Chain.esum (U (Proc.devRef .tc main_v16)) (U (Proc.devRef .tc main_v34)) (U (Proc.devRef .tc main_v52)) (U (Proc.devRef .tc main_arg1)) (U (Proc.devRef .tc main_arg2)) (U (Proc.devRef .tc main_arg3)) := by
  dsimp only [post3]
  after_results_simp
  rw [hU]
  rfl

set_option maxHeartbeats 2000000 in
/-- The offset handed to the update network: the overall maximum, as a 1×1 array. -/
theorem q_off (hU : (U (Proc.devRef .tc main_v57) : S3.Idx → EReal) = concatenate Cert.ReferenceIdeal.S3 0 [⟨Cert.ReferenceIdeal.S1, broadcastInDim Cert.ReferenceIdeal.S1 ![] Cert.ReferenceIdeal.Facts₀.bcast_S_S1 (Cert.Chain.mxOf (U (Proc.devRef .tc main_v16)))⟩,
        ⟨Cert.ReferenceIdeal.S1, broadcastInDim Cert.ReferenceIdeal.S1 ![] Cert.ReferenceIdeal.Facts₀.bcast_S_S1 (Cert.Chain.mxOf (U (Proc.devRef .tc main_v34)))⟩,
        ⟨Cert.ReferenceIdeal.S1, broadcastInDim Cert.ReferenceIdeal.S1 ![] Cert.ReferenceIdeal.Facts₀.bcast_S_S1 (Cert.Chain.mxOf (U (Proc.devRef .tc main_v52)))⟩] Cert.ReferenceIdeal.Facts₀.concatenates_S1_S1_S1_S3_d0) :
    (after post3 U (Proc.devRef .tc main_v102) : S1x1.Idx → EReal) (ix2 ⟨0, Nat.one_pos⟩ ⟨0, Nat.one_pos⟩)
      = Cert.Chain.mxAll (U (Proc.devRef .tc main_v16)) (U (Proc.devRef .tc main_v34)) (U (Proc.devRef .tc main_v52)) ix0 := by
  have e : (after post3 U (Proc.devRef .tc main_v102) : S1x1.Idx → EReal)
      = shapeCast S1x1 (Cert.Chain.mxAll (U (Proc.devRef .tc main_v16)) (U (Proc.devRef .tc main_v34)) (U (Proc.devRef .tc main_v52)) : S_.Idx → EReal) shapeCasts_S_S1x1 := by
    dsimp only [post3]
    after_results_simp
    rw [hU]
    rfl
  rw [e]
  exact shapeCast_apply _ shapeCasts_S_S1x1 _ ix0 (by decide)

/-- The update network's first weight matrix, transposed. -/
theorem q_w1 : (after post3 U (Proc.devRef .tc main_v97) : S128x128.Idx → EReal) = transpose Cert.ReferenceIdeal.S128x128 [1, 0] (U (Proc.devRef .tc main_arg16)) Cert.ReferenceIdeal.Facts₀.transposes_S128x128_S128x128_1_0 := by
  dsimp only [post3]
  after_results_simp
  all_goals rfl

/-- The update network's second weight matrix, transposed. -/
theorem q_w2 : (after post3 U (Proc.devRef .tc main_v99) : S128x64.Idx → EReal) = transpose Cert.ReferenceIdeal.S128x64 [1, 0] (U (Proc.devRef .tc main_arg18)) Cert.ReferenceIdeal.Facts₀.transposes_S64x128_S128x64_1_0 := by
  dsimp only [post3]
  after_results_simp
  all_goals rfl

/-- The update network's first bias, as a row. -/
theorem q_b1 : rowVec (after post3 U (Proc.devRef .tc main_v100) : S1x128.Idx → EReal) = (U (Proc.devRef .tc main_arg17) : S128.Idx → EReal) := by
  have e : (after post3 U (Proc.devRef .tc main_v100) : S1x128.Idx → EReal) = shapeCast S1x128 (U (Proc.devRef .tc main_arg17) : S128.Idx → EReal) shapeCasts_S128_S1x128 := by
    dsimp only [post3]
    after_results_simp
    all_goals rfl
  rw [e]
  funext j
  exact (LibBiasRows.row_of_vector _ shapeCasts_S128_S1x128 (j 0)).trans (congrArg _ (eq_ix1 j).symm)

/-- The update network's second bias, as a row. -/
theorem q_b2 : rowVec (after post3 U (Proc.devRef .tc main_v101) : S1x64.Idx → EReal) = (U (Proc.devRef .tc main_arg19) : S64.Idx → EReal) := by
  have e : (after post3 U (Proc.devRef .tc main_v101) : S1x64.Idx → EReal) = shapeCast S1x64 (U (Proc.devRef .tc main_arg19) : S64.Idx → EReal) shapeCasts_S64_S1x64 := by
    dsimp only [post3]
    after_results_simp
    all_goals rfl
  rw [e]
  funext j
  exact (LibBiasRows.row_of_vector _ shapeCasts_S64_S1x64 (j 0)).trans (congrArg _ (eq_ix1 j).symm)

/-- The operations after the stacking write none of the arguments. -/
theorem q_arg0 : after post3 U (Proc.devRef .tc main_arg0) = U (Proc.devRef .tc main_arg0) := by
  dsimp only [post3]
  after_results_simp
end Post

/-! ## The whole stretch -/

section Whole
variable (W : Valuation τ sig (Elt Ideal))
variable (hM0 : (W (Proc.devRef .tc main_v17) : S_.Idx → EReal) = Cert.Chain.mxOf (W (Proc.devRef .tc main_v16)))
variable (hM1 : (W (Proc.devRef .tc main_v35) : S_.Idx → EReal) = Cert.Chain.mxOf (W (Proc.devRef .tc main_v34)))

include hM0 hM1 in
/-- After the stacking the stacked vector holds the three relation maxima. -/
theorem stacked : (nary3.result (after pre3 W) (Proc.devRef .tc main_v57) : S3.Idx → EReal)
    = concatenate Cert.ReferenceIdeal.S3 0 [⟨Cert.ReferenceIdeal.S1, broadcastInDim Cert.ReferenceIdeal.S1 ![] Cert.ReferenceIdeal.Facts₀.bcast_S_S1 (Cert.Chain.mxOf (nary3.result (after pre3 W) (Proc.devRef .tc main_v16)))⟩,
        ⟨Cert.ReferenceIdeal.S1, broadcastInDim Cert.ReferenceIdeal.S1 ![] Cert.ReferenceIdeal.Facts₀.bcast_S_S1 (Cert.Chain.mxOf (nary3.result (after pre3 W) (Proc.devRef .tc main_v34)))⟩,
        ⟨Cert.ReferenceIdeal.S1, broadcastInDim Cert.ReferenceIdeal.S1 ![] Cert.ReferenceIdeal.Facts₀.bcast_S_S1 (Cert.Chain.mxOf (nary3.result (after pre3 W) (Proc.devRef .tc main_v52)))⟩]
        Cert.ReferenceIdeal.Facts₀.concatenates_S1_S1_S1_S3_d0 := by
  rw [n_57, p_54, p_55, p_56, hM0, hM1, (n_keep (after pre3 W) main_v16 (by decide)).trans (p_keep W main_v16 (by decide)), (n_keep (after pre3 W) main_v34 (by decide)).trans (p_keep W main_v34 (by decide)),
    (n_keep (after pre3 W) main_v52 (by decide)).trans (p_flat W)]

include hM0 hM1 in
/-- The node table the update network reads. -/
theorem h3_esum : (after hostOps3 W (Proc.devRef .tc main_v95) : S200000x64.Idx → EReal)
    = Cert.Chain.esum (W (Proc.devRef .tc main_v16)) (W (Proc.devRef .tc main_v34)) (Cert.Chain.flat192 (W (Proc.devRef .tc main_v51)))
        (W (Proc.devRef .tc main_arg1)) (W (Proc.devRef .tc main_arg2)) (W (Proc.devRef .tc main_arg3)) := by
  rw [split3 W, q_esum _ (stacked W hM0 hM1), (n_keep (after pre3 W) main_v16 (by decide)).trans (p_keep W main_v16 (by decide)), (n_keep (after pre3 W) main_v34 (by decide)).trans (p_keep W main_v34 (by decide)),
    (n_keep (after pre3 W) main_v52 (by decide)).trans (p_flat W), (n_keep (after pre3 W) main_arg1 (by decide)).trans (p_keep W main_arg1 (by decide)), (n_keep (after pre3 W) main_arg2 (by decide)).trans (p_keep W main_arg2 (by decide)), (n_keep (after pre3 W) main_arg3 (by decide)).trans (p_keep W main_arg3 (by decide))]

include hM0 hM1 in
/-- The offset the update network reads. -/
theorem h3_off : (after hostOps3 W (Proc.devRef .tc main_v102) : S1x1.Idx → EReal) (ix2 ⟨0, Nat.one_pos⟩ ⟨0, Nat.one_pos⟩)
    = Cert.Chain.mxAll (W (Proc.devRef .tc main_v16)) (W (Proc.devRef .tc main_v34)) (Cert.Chain.flat192 (W (Proc.devRef .tc main_v51))) ix0 := by
  rw [split3 W, q_off _ (stacked W hM0 hM1), (n_keep (after pre3 W) main_v16 (by decide)).trans (p_keep W main_v16 (by decide)), (n_keep (after pre3 W) main_v34 (by decide)).trans (p_keep W main_v34 (by decide)),
    (n_keep (after pre3 W) main_v52 (by decide)).trans (p_flat W)]

/-- The update network's weights and bias rows. -/
theorem h3_w1 : (after hostOps3 W (Proc.devRef .tc main_v97) : S128x128.Idx → EReal)
    = transpose Cert.ReferenceIdeal.S128x128 [1, 0] (W (Proc.devRef .tc main_arg16)) Cert.ReferenceIdeal.Facts₀.transposes_S128x128_S128x128_1_0 := by
  rw [split3 W, q_w1, (n_keep (after pre3 W) main_arg16 (by decide)).trans (p_keep W main_arg16 (by decide))]
theorem h3_w2 : (after hostOps3 W (Proc.devRef .tc main_v99) : S128x64.Idx → EReal)
    = transpose Cert.ReferenceIdeal.S128x64 [1, 0] (W (Proc.devRef .tc main_arg18)) Cert.ReferenceIdeal.Facts₀.transposes_S64x128_S128x64_1_0 := by
  rw [split3 W, q_w2, (n_keep (after pre3 W) main_arg18 (by decide)).trans (p_keep W main_arg18 (by decide))]
theorem h3_b1 : rowVec (after hostOps3 W (Proc.devRef .tc main_v100) : S1x128.Idx → EReal) = (W (Proc.devRef .tc main_arg17) : S128.Idx → EReal) := by
  rw [split3 W, q_b1, (n_keep (after pre3 W) main_arg17 (by decide)).trans (p_keep W main_arg17 (by decide))]
theorem h3_b2 : rowVec (after hostOps3 W (Proc.devRef .tc main_v101) : S1x64.Idx → EReal) = (W (Proc.devRef .tc main_arg19) : S64.Idx → EReal) := by
  rw [split3 W, q_b2, (n_keep (after pre3 W) main_arg19 (by decide)).trans (p_keep W main_arg19 (by decide))]
end Whole

end Cert.KernelIdeal.HostReads

end
-- ==== Proof.KernelValue.lean ====
/-
  The kernel program's result, as a function of its arguments.

  Region by region: relation r's pallas_call leaves in its output array the two-layer network of the gathered rows of
  relation r — what Chain.lean calls `o128` / `o192` of the arguments —, because its input arrays are what the stretch
  before it computed from buffers that still hold the arguments (no stretch writes an argument and no region stages one
  before the last).  The flattened outputs of relations 0 and 1 and their maxima, computed one and two stretches earlier,
  reach the last stretch untouched; with relation 2's output it forms the table of summed exponentials and the offset;
  and the last pallas_call leaves the update network of that table, the node states and that offset: Chain.lean's `final`.
-/
import proofs.«171401_j10385230921929_1_alg».proof.Proof.IdealRun
import proofs.«171401_j10385230921929_1_alg».proof.Proof.KernelBlocks0
import proofs.«171401_j10385230921929_1_alg».proof.Proof.KernelBlocks1
import proofs.«171401_j10385230921929_1_alg».proof.Proof.KernelBlocks2
import proofs.«171401_j10385230921929_1_alg».proof.Proof.KernelBlocks3
import proofs.«171401_j10385230921929_1_alg».proof.Proof.KernelHost
import proofs.«171401_j10385230921929_1_alg».proof.Proof.KernelHost3b

set_option maxRecDepth 16384

noncomputable section

namespace Cert.KernelIdeal.Value

open Idealize.ShloMosaic Idealize.ShloMosaic.TcCoe Idealize.ShloMosaic.ValueIdx Idealize.ShloMosaic.StableHlo
open Idealize.SL.Sem
open Cert.KernelIdeal Cert.KernelIdeal.Gen Cert.KernelIdeal.Frame Cert.KernelIdeal.Blocks Cert.KernelIdeal.HostReads Cert.Spec Cert.LibTwoLayer

variable [Cert.ReferenceIdeal.Facts]
variable (m : (ℓ : Loc nD τ sig) → Buf (Elt Ideal) ℓ) (ρ : Dev nD → PrngReg) (c : Dev nD)

/-! ## The arguments at the inner boundaries -/

theorem Bd2_arg (r : Ref sig .tc) (h0 : r ∉ hostOps0_W) (n0 : ∀ w, Pipeline.arrRef spec0 w ≠ r) :
    Bd2 m ρ c (Proc.devRef .tc r) = m ((c : Thread nD τ).loc r) :=
  (Bd2_of_ne m ρ c r n0).trans ((Bd1_of m ρ c r h0).trans rfl)
theorem Bd4_arg (r : Ref sig .tc) (h0 : r ∉ hostOps0_W) (n0 : ∀ w, Pipeline.arrRef spec0 w ≠ r) (h1 : r ∉ hostOps1_W)
    (n1 : ∀ w, Pipeline.arrRef spec1 w ≠ r) : Bd4 m ρ c (Proc.devRef .tc r) = m ((c : Thread nD τ).loc r) :=
  (Bd4_of_ne m ρ c r n1).trans ((Bd3_of m ρ c r h1).trans (Bd2_arg m ρ c r h0 n0))
theorem Bd6_arg (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r) :
    Bd6 m ρ c (Proc.devRef .tc r) = m ((c : Thread nD τ).loc r) :=
  (Bd6_of_ne m ρ c r n2).trans ((Bd5_of m ρ c r h2).trans (Bd4_arg m ρ c r h0 n0 h1 n1))

/-! ## The three relation outputs -/

/-- Relation 0's output array after its region. -/
theorem out0 : (Bd2 m ρ c (Proc.devRef .tc main_v15) : S300000x128.Idx → EReal)
    = Cert.Chain.o128 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  refine (Bd2_arr m ρ c 5).trans ((final0 (En1 m ρ) c).trans ?_)
  show mlp (after hostOps0 (Bd0 m ρ c) (Proc.devRef .tc main_v8) : S300000x128.Idx → EReal) (after hostOps0 (Bd0 m ρ c) (Proc.devRef .tc main_v10) : S128x128.Idx → EReal)
      (rowVec (after hostOps0 (Bd0 m ρ c) (Proc.devRef .tc main_v13) : S1x128.Idx → EReal)) (after hostOps0 (Bd0 m ρ c) (Proc.devRef .tc main_v12) : S128x128.Idx → EReal)
      (rowVec (after hostOps0 (Bd0 m ρ c) (Proc.devRef .tc main_v14) : S1x128.Idx → EReal)) = _
  rw [h0_x, h0_w1, h0_b1, h0_w2, h0_b2]
  rfl

/-- Relation 1's output array after its region. -/
theorem out1 : (Bd4 m ρ c (Proc.devRef .tc main_v33) : S300000x128.Idx → EReal)
    = Cert.Chain.o128 (m ((c.tc : Thread nD τ).loc main_arg0)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  refine (Bd4_arr m ρ c 5).trans ((final1 (En3 m ρ) c).trans ?_)
  show mlp (after hostOps1 (Bd2 m ρ c) (Proc.devRef .tc main_v26) : S300000x128.Idx → EReal) (after hostOps1 (Bd2 m ρ c) (Proc.devRef .tc main_v28) : S128x128.Idx → EReal)
      (rowVec (after hostOps1 (Bd2 m ρ c) (Proc.devRef .tc main_v31) : S1x128.Idx → EReal)) (after hostOps1 (Bd2 m ρ c) (Proc.devRef .tc main_v30) : S128x128.Idx → EReal)
      (rowVec (after hostOps1 (Bd2 m ρ c) (Proc.devRef .tc main_v32) : S1x128.Idx → EReal)) = _
  rw [h1_x, h1_w1, h1_b1, h1_w2, h1_b2,
    Bd2_arg m ρ c main_arg0 (by decide) (by decide), Bd2_arg m ρ c main_arg2 (by decide) (by decide), Bd2_arg m ρ c main_arg8 (by decide) (by decide),
    Bd2_arg m ρ c main_arg9 (by decide) (by decide), Bd2_arg m ρ c main_arg10 (by decide) (by decide), Bd2_arg m ρ c main_arg11 (by decide) (by decide)]
  rfl

/-- Relation 2's output array after its region. -/
theorem out2 : (Bd6 m ρ c (Proc.devRef .tc main_v51) : S200000x192.Idx → EReal)
    = Cert.Chain.o192 (m ((c.tc : Thread nD τ).loc main_arg0)) (m ((c.tc : Thread nD τ).loc main_arg3)) (m ((c.tc : Thread nD τ).loc main_arg12)) (m ((c.tc : Thread nD τ).loc main_arg13)) (m ((c.tc : Thread nD τ).loc main_arg14)) (m ((c.tc : Thread nD τ).loc main_arg15)) := by
  refine (Bd6_arr m ρ c 5).trans ((final2 (En5 m ρ) c).trans ?_)
  show mlp (after hostOps2 (Bd4 m ρ c) (Proc.devRef .tc main_v44) : S200000x192.Idx → EReal) (after hostOps2 (Bd4 m ρ c) (Proc.devRef .tc main_v46) : S192x192.Idx → EReal)
      (rowVec (after hostOps2 (Bd4 m ρ c) (Proc.devRef .tc main_v49) : S1x192.Idx → EReal)) (after hostOps2 (Bd4 m ρ c) (Proc.devRef .tc main_v48) : S192x192.Idx → EReal)
      (rowVec (after hostOps2 (Bd4 m ρ c) (Proc.devRef .tc main_v50) : S1x192.Idx → EReal)) = _
  rw [h2_x, h2_w1, h2_b1, h2_w2, h2_b2,
    Bd4_arg m ρ c main_arg0 (by decide) (by decide) (by decide) (by decide), Bd4_arg m ρ c main_arg3 (by decide) (by decide) (by decide) (by decide),
    Bd4_arg m ρ c main_arg12 (by decide) (by decide) (by decide) (by decide), Bd4_arg m ρ c main_arg13 (by decide) (by decide) (by decide) (by decide),
    Bd4_arg m ρ c main_arg14 (by decide) (by decide) (by decide) (by decide), Bd4_arg m ρ c main_arg15 (by decide) (by decide) (by decide) (by decide)]
  rfl

/-! ## What the last stretch starts from -/

/-- Relation 0's flattened output and its maximum, computed by stretch 1, reach the last stretch untouched. -/
theorem flat0_at6 : (Bd6 m ρ c (Proc.devRef .tc main_v16) : S600000x64.Idx → EReal)
    = Cert.Chain.flat128 (Cert.Chain.o128 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  rw [Bd6_of_ne m ρ c main_v16 (by decide), Bd5_of m ρ c main_v16 (by decide), Bd4_of_ne m ρ c main_v16 (by decide)]
  show (after hostOps1 (Bd2 m ρ c) (Proc.devRef .tc main_v16) : S600000x64.Idx → EReal) = _
  rw [h1_flat, out0]
theorem mx0_at6 : (Bd6 m ρ c (Proc.devRef .tc main_v17) : S_.Idx → EReal)
    = Cert.Chain.mxOf (Cert.Chain.flat128 (Cert.Chain.o128 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)))) := by
  rw [Bd6_of_ne m ρ c main_v17 (by decide), Bd5_of m ρ c main_v17 (by decide), Bd4_of_ne m ρ c main_v17 (by decide)]
  show (after hostOps1 (Bd2 m ρ c) (Proc.devRef .tc main_v17) : S_.Idx → EReal) = _
  rw [h1_mx, out0]
/-- Relation 1's flattened output and its maximum, computed by stretch 2. -/
theorem flat1_at6 : (Bd6 m ρ c (Proc.devRef .tc main_v34) : S600000x64.Idx → EReal)
    = Cert.Chain.flat128 (Cert.Chain.o128 (m ((c.tc : Thread nD τ).loc main_arg0)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11))) := by
  rw [Bd6_of_ne m ρ c main_v34 (by decide)]
  show (after hostOps2 (Bd4 m ρ c) (Proc.devRef .tc main_v34) : S600000x64.Idx → EReal) = _
  rw [h2_flat, out1]
theorem mx1_at6 : (Bd6 m ρ c (Proc.devRef .tc main_v35) : S_.Idx → EReal)
    = Cert.Chain.mxOf (Cert.Chain.flat128 (Cert.Chain.o128 (m ((c.tc : Thread nD τ).loc main_arg0)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)))) := by
  rw [Bd6_of_ne m ρ c main_v35 (by decide)]
  show (after hostOps2 (Bd4 m ρ c) (Proc.devRef .tc main_v35) : S_.Idx → EReal) = _
  rw [h2_mx, out1]

/-! ## The result -/

/-- THE RESULT BUFFER at the end of the kernel program: Chain.lean's `final` of the twenty arguments. -/
theorem result : (Bd8 m ρ c (Proc.devRef .tc main_v103) : S200000x64.Idx → EReal)
    = Cert.Chain.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have hM0 : (Bd6 m ρ c (Proc.devRef .tc main_v17) : S_.Idx → EReal) = Cert.Chain.mxOf (Bd6 m ρ c (Proc.devRef .tc main_v16)) := by
    rw [mx0_at6, flat0_at6]
  have hM1 : (Bd6 m ρ c (Proc.devRef .tc main_v35) : S_.Idx → EReal) = Cert.Chain.mxOf (Bd6 m ρ c (Proc.devRef .tc main_v34)) := by
    rw [mx1_at6, flat1_at6]
  refine (Bd8_arr m ρ c 7).trans ((final3 (En7 m ρ) c).trans ?_)
  show upd (after hostOps3 (Bd6 m ρ c) (Proc.devRef .tc main_v95) : S200000x64.Idx → EReal) (after hostOps3 (Bd6 m ρ c) (Proc.devRef .tc main_arg0) : S200000x64.Idx → EReal)
      ((after hostOps3 (Bd6 m ρ c) (Proc.devRef .tc main_v102) : S1x1.Idx → EReal) (ix2 ⟨0, Nat.one_pos⟩ ⟨0, Nat.one_pos⟩))
      (after hostOps3 (Bd6 m ρ c) (Proc.devRef .tc main_v97) : S128x128.Idx → EReal) (rowVec (after hostOps3 (Bd6 m ρ c) (Proc.devRef .tc main_v100) : S1x128.Idx → EReal))
      (after hostOps3 (Bd6 m ρ c) (Proc.devRef .tc main_v99) : S128x64.Idx → EReal) (rowVec (after hostOps3 (Bd6 m ρ c) (Proc.devRef .tc main_v101) : S1x64.Idx → EReal)) = _
  rw [h3_esum (Bd6 m ρ c) hM0 hM1, h3_off (Bd6 m ρ c) hM0 hM1, h3_w1, h3_b1, h3_w2, h3_b2,
    after_of_writes_sub hostOps3 (Bd6 m ρ c) hostOps3_writes (by decide : main_arg0 ∉ hostOps3_W),
    flat0_at6, flat1_at6, out2,
    Bd6_arg m ρ c main_arg0 (by decide) (by decide) (by decide) (by decide) (by decide) (by decide),
    Bd6_arg m ρ c main_arg1 (by decide) (by decide) (by decide) (by decide) (by decide) (by decide),
    Bd6_arg m ρ c main_arg2 (by decide) (by decide) (by decide) (by decide) (by decide) (by decide),
    Bd6_arg m ρ c main_arg3 (by decide) (by decide) (by decide) (by decide) (by decide) (by decide),
    Bd6_arg m ρ c main_arg16 (by decide) (by decide) (by decide) (by decide) (by decide) (by decide),
    Bd6_arg m ρ c main_arg17 (by decide) (by decide) (by decide) (by decide) (by decide) (by decide),
    Bd6_arg m ρ c main_arg18 (by decide) (by decide) (by decide) (by decide) (by decide) (by decide),
    Bd6_arg m ρ c main_arg19 (by decide) (by decide) (by decide) (by decide) (by decide) (by decide)]
  rfl

end Cert.KernelIdeal.Value

end
-- ==== Proof.LibHostTwoLayer.lean ====
/-
  The host's spelling of a two-layer network, and of the update network's input, read as the row functions of Spec.lean.

  The host program multiplies the row array by the first weight matrix (a plain [n, K] × [K, d] product), adds the first
  bias vector — laid out as a row [1, d] and then repeated down the n rows —, takes the maximum with a scalar zero
  repeated over the whole array, multiplies by the second weight matrix and adds the second bias vector in the same way.
  At entry (r, q) this is the two-layer row function of row r of the input, at q: a plain product's entry is the
  row-by-column sum, a repeated bias row adds its entry of the same column, a repeated scalar is that scalar, and nothing
  moves between rows.

  The update network's input is the join, along the columns, of the message array  (1/8)·log e + offset  (the constant
  and the offset scalars repeated over the array) and the state array; row r of the join is the message of row r of e
  joined to row r of the states, so the two layers on it are Spec.upd.

  Generic in the number of rows and in the widths; sums and products on the extended reals are used only as written
  and no finiteness is needed.
-/
import proofs.«171401_j10385230921929_1_alg».proof.Proof.Spec
import proofs.«171401_j10385230921929_1_alg».proof.Proof.LibDense

noncomputable section

namespace Cert.LibHostTwoLayer

open Idealize.ShloMosaic Idealize.ShloMosaic.ValueIdx Cert.Spec

/-- A vector [d] laid out as a row [1, d] and repeated down n rows, at entry (r, j), is the vector at j. -/
theorem bias_rows {n d : ℕ} (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1]) (i : (⟨2, ![n, d]⟩ : Shape).Idx) :
    broadcastInDim ⟨2, ![n, d]⟩ ![0, 1] h2 (broadcastInDim ⟨2, ![1, d]⟩ ![1] h1 b) i = b (ix1 (i 1)) := by
  have hlt : (i 1).val < d := idx2_lt1 i
  refine (broadcastInDim_apply ![0, 1] h2 _ i (ix2 ⟨0, Nat.one_pos⟩ (i 1)) (fun a => ?_)).trans ?_
  · match a with
    | ⟨0, _⟩ => exact (if_pos rfl).symm
    | ⟨1, _⟩ =>
      show (i 1).val = if d = 1 then 0 else (i 1).val
      split
      · omega
      · rfl
  · refine broadcastInDim_apply ![1] h1 b _ (ix1 (i 1)) (fun a => ?_)
    match a with
    | ⟨0, _⟩ =>
      show (i 1).val = if d = 1 then 0 else (i 1).val
      split
      · omega
      · rfl

/-- A scalar repeated over an array, at any entry, is the scalar. -/
theorem scalar_rows {t : Shape} (x : FVec Ideal ⟨0, ![]⟩ .f32) (dims : Fin 0 → Fin t.rank)
    (h : (⟨0, ![]⟩ : Shape).BroadcastsInDim t dims) (i : t.Idx) :
    broadcastInDim t dims h x i = x ix0 :=
  broadcastInDim_apply dims h x i ix0 (fun a => a.elim0)

/-- The hidden layer as the host spells it, at an entry. -/
theorem host_hidden {n K d : ℕ} (x : FVec Ideal ⟨2, ![n, K]⟩ .f32) (w : FVec Ideal ⟨2, ![K, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![]) (r : Fin n) (k : Fin d) :
    maximumf (addf (Host.dotGeneral (DotDims.plain n K d) none x w)
        (broadcastInDim ⟨2, ![n, d]⟩ ![0, 1] h2 (broadcastInDim ⟨2, ![1, d]⟩ ![1] h1 b)))
      (broadcastInDim ⟨2, ![n, d]⟩ ![] hz (constant (F := Ideal) ⟨0, ![]⟩ .f32 0x00000000#32)) (ix2 r k)
      = hiddenRow (row x r) w b k := by
  show max (FloatOps.dotGeneral (F := Ideal) (φ₁ := .f32) (φ₂ := .f32) (DotDims.plain n K d) none .single x w (ix2 r k)
      + broadcastInDim ⟨2, ![n, d]⟩ ![0, 1] h2 (broadcastInDim ⟨2, ![1, d]⟩ ![1] h1 b) (ix2 r k))
      (broadcastInDim ⟨2, ![n, d]⟩ ![] hz (constant (F := Ideal) ⟨0, ![]⟩ .f32 0x00000000#32) (ix2 r k)) = _
  rw [LibDense.dotGeneral_plain, bias_rows, scalar_rows]
  rfl

/-- The two layers as the host spells them. -/
theorem host_mlp {n K d e : ℕ} (x : FVec Ideal ⟨2, ![n, K]⟩ .f32) (w1 : FVec Ideal ⟨2, ![K, d]⟩ .f32) (b1 : FVec Ideal ⟨1, ![d]⟩ .f32)
    (w2 : FVec Ideal ⟨2, ![d, e]⟩ .f32) (b2 : FVec Ideal ⟨1, ![e]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![])
    (h3 : (⟨1, ![e]⟩ : Shape).BroadcastsInDim ⟨2, ![1, e]⟩ ![1])
    (h4 : (⟨2, ![1, e]⟩ : Shape).BroadcastsInDim ⟨2, ![n, e]⟩ ![0, 1]) :
    addf (Host.dotGeneral (DotDims.plain n d e) none
        (maximumf (addf (Host.dotGeneral (DotDims.plain n K d) none x w1)
            (broadcastInDim ⟨2, ![n, d]⟩ ![0, 1] h2 (broadcastInDim ⟨2, ![1, d]⟩ ![1] h1 b1)))
          (broadcastInDim ⟨2, ![n, d]⟩ ![] hz (constant (F := Ideal) ⟨0, ![]⟩ .f32 0x00000000#32))) w2)
      (broadcastInDim ⟨2, ![n, e]⟩ ![0, 1] h4 (broadcastInDim ⟨2, ![1, e]⟩ ![1] h3 b2))
      = mlp x w1 b1 w2 b2 := by
  funext i
  obtain ⟨r, q, rfl⟩ : ∃ (r : Fin n) (q : Fin e), i = ix2 r q := ⟨i 0, i 1, eq_ix2 i⟩
  show FloatOps.dotGeneral (F := Ideal) (φ₁ := .f32) (φ₂ := .f32) (DotDims.plain n d e) none .single _ w2 (ix2 r q)
      + broadcastInDim ⟨2, ![n, e]⟩ ![0, 1] h4 (broadcastInDim ⟨2, ![1, e]⟩ ![1] h3 b2) (ix2 r q) = _
  rw [LibDense.dotGeneral_plain, bias_rows]
  unfold LibDense.prod
  refine congrArg₂ (· + ·) (Finset.sum_congr rfl fun k _ => congrArg (· * w2 (ix2 k q)) ?_) rfl
  exact host_hidden x w1 b1 h1 h2 hz r k

/-- Row r of the join of the message array and the state array is the message of row r joined to the state row r. -/
theorem host_join_row {n : ℕ} (e s : FVec Ideal ⟨2, ![n, 64]⟩ .f32) (mx : FVec Ideal ⟨0, ![]⟩ .f32)
    (hs : (⟨0, ![]⟩ : Shape).BroadcastsInDim ⟨2, ![n, 64]⟩ ![])
    (hc : Shape.Concatenates [(⟨2, ![n, 64]⟩ : Shape), ⟨2, ![n, 64]⟩] ⟨2, ![n, 128]⟩ 1) (r : Fin n) :
    row (concatenate ⟨2, ![n, 128]⟩ 1
        [⟨⟨2, ![n, 64]⟩, addf (mulf (broadcastInDim ⟨2, ![n, 64]⟩ ![] hs (constant (F := Ideal) ⟨0, ![]⟩ .f32 0x3E000000#32)) (Host.log e))
            (broadcastInDim ⟨2, ![n, 64]⟩ ![] hs mx)⟩, ⟨⟨2, ![n, 64]⟩, s⟩] hc) r
      = catRow (msgRow (row e r) (mx ix0)) (row s r) := by
  funext k
  unfold row catRow
  split
  · rename_i hk
    refine (concatenate_pair_apply_left (s₁ := ⟨2, ![n, 64]⟩) (s₂ := ⟨2, ![n, 64]⟩) (1 : Fin 2) _ s hc (ix2 r k) rfl (ix2 r ⟨k.val, hk⟩) (fun b => ?_)).trans ?_
    · match b with
      | ⟨0, _⟩ => rfl
      | ⟨1, _⟩ => rfl
    · show broadcastInDim ⟨2, ![n, 64]⟩ ![] hs (constant (F := Ideal) ⟨0, ![]⟩ .f32 0x3E000000#32) (ix2 r ⟨k.val, hk⟩)
          * Ideal.log (e (ix2 r ⟨k.val, hk⟩)) + broadcastInDim ⟨2, ![n, 64]⟩ ![] hs mx (ix2 r ⟨k.val, hk⟩) = _
      rw [scalar_rows, scalar_rows]
      rfl
  · rename_i hk
    have hk' : 64 ≤ k.val := Nat.le_of_not_lt hk
    refine concatenate_pair_apply_right (s₁ := ⟨2, ![n, 64]⟩) (s₂ := ⟨2, ![n, 64]⟩) (1 : Fin 2) _ s hc (ix2 r k) rfl rfl (ix2 r ⟨k.val - 64, by have := k.isLt; omega⟩) (fun b hb => ?_) ?_
    · match b with
      | ⟨0, _⟩ => rfl
      | ⟨1, _⟩ => exact absurd rfl hb
    · show (k.val - 64) + 64 = k.val
      omega

/-- The update network as the host spells it: the two layers on the join of the message array and the states. -/
theorem host_upd {n d : ℕ} (e s : FVec Ideal ⟨2, ![n, 64]⟩ .f32) (mx : FVec Ideal ⟨0, ![]⟩ .f32)
    (w1 : FVec Ideal ⟨2, ![128, d]⟩ .f32) (b1 : FVec Ideal ⟨1, ![d]⟩ .f32)
    (w2 : FVec Ideal ⟨2, ![d, 64]⟩ .f32) (b2 : FVec Ideal ⟨1, ![64]⟩ .f32)
    (hs : (⟨0, ![]⟩ : Shape).BroadcastsInDim ⟨2, ![n, 64]⟩ ![])
    (hc : Shape.Concatenates [(⟨2, ![n, 64]⟩ : Shape), ⟨2, ![n, 64]⟩] ⟨2, ![n, 128]⟩ 1)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![])
    (h3 : (⟨1, ![64]⟩ : Shape).BroadcastsInDim ⟨2, ![1, 64]⟩ ![1])
    (h4 : (⟨2, ![1, 64]⟩ : Shape).BroadcastsInDim ⟨2, ![n, 64]⟩ ![0, 1]) :
    addf (Host.dotGeneral (DotDims.plain n d 64) none
        (maximumf (addf (Host.dotGeneral (DotDims.plain n 128 d) none
              (concatenate ⟨2, ![n, 128]⟩ 1
                [⟨⟨2, ![n, 64]⟩, addf (mulf (broadcastInDim ⟨2, ![n, 64]⟩ ![] hs (constant (F := Ideal) ⟨0, ![]⟩ .f32 0x3E000000#32)) (Host.log e))
                    (broadcastInDim ⟨2, ![n, 64]⟩ ![] hs mx)⟩, ⟨⟨2, ![n, 64]⟩, s⟩] hc) w1)
            (broadcastInDim ⟨2, ![n, d]⟩ ![0, 1] h2 (broadcastInDim ⟨2, ![1, d]⟩ ![1] h1 b1)))
          (broadcastInDim ⟨2, ![n, d]⟩ ![] hz (constant (F := Ideal) ⟨0, ![]⟩ .f32 0x00000000#32))) w2)
      (broadcastInDim ⟨2, ![n, 64]⟩ ![0, 1] h4 (broadcastInDim ⟨2, ![1, 64]⟩ ![1] h3 b2))
      = upd e s (mx ix0) w1 b1 w2 b2 := by
  rw [host_mlp]
  funext i
  obtain ⟨r, q, rfl⟩ : ∃ (r : Fin n) (q : Fin 64), i = ix2 r q := ⟨i 0, i 1, eq_ix2 i⟩
  exact congrArg (fun x => mlpRow x w1 b1 w2 b2 q) (host_join_row e s mx hs hc r)

end Cert.LibHostTwoLayer

end
-- ==== Proof.RefValue.lean ====
/-
  The value the reference program leaves in its result buffer, as the chain of Chain.lean.

  The run leaves the fold of the operations' results over the launch contents.  Each operation writes one buffer of its
  own, so the fold is evaluated buffer by buffer: an operation's result at its own buffer is its function of the contents
  of its operands' buffers, and at any other buffer what was there.  The two joins (of the three maxima, and of the
  message array with the states) are first stated as plain functions of their operands' contents, so that the
  evaluation goes on through them.  What comes out is the chain with every network in the host's spelling; the host's spelling of a two-layer network
  and of the update network are the row functions of Spec.lean (LibHostTwoLayer.lean), which gives Chain.final.
-/
import proofs.«171401_j10385230921929_1_alg».proof.Proof.RefRun
import proofs.«171401_j10385230921929_1_alg».proof.Proof.Chain
import proofs.«171401_j10385230921929_1_alg».proof.Proof.LibHostTwoLayer

noncomputable section

namespace Cert.ReferenceIdeal.RefValue

open Idealize.ShloMosaic Idealize.ShloMosaic.TcCoe Idealize.SL.Sem Idealize.ShloMosaic.StableHlo

open Cert.ReferenceIdeal Cert.ReferenceIdeal.Gen Cert.Spec Idealize.ShloMosaic.ValueIdx

/-! ## The two joins, as functions of their operands -/

/-- The join of two arrays of 64 columns along the columns. -/
def cat2 (p q : FVec Ideal S200000x64 .f32) : FVec Ideal S200000x128 .f32 :=
  concatenate S200000x128 1 [⟨S200000x64, p⟩, ⟨S200000x64, q⟩] concatenates_S200000x64_S200000x64_S200000x128_d1

/-- The join of three one-entry vectors. -/
def cat3 (p q r : FVec Ideal S1 .f32) : FVec Ideal S3 .f32 :=
  concatenate S3 0 [⟨S1, p⟩, ⟨S1, q⟩, ⟨S1, r⟩] concatenates_S1_S1_S1_S3_d0

/-- The operation joining the message array and the states, at its own buffer: the join of its operands' contents. -/
theorem cat2_result' (ha hb hy) (V : Valuation τ sig (Elt Ideal)) :
    (binary main_v109 main_arg0 main_v110 ((fun a b => concatenate S200000x128 1 [⟨S200000x64, a⟩, ⟨S200000x64, b⟩] concatenates_S200000x64_S200000x64_S200000x128_d1) : (⟨S200000x64, .f32⟩ : BufTy).Contents (Elt Ideal) → (⟨S200000x64, .f32⟩ : BufTy).Contents (Elt Ideal) → (⟨S200000x128, .f32⟩ : BufTy).Contents (Elt Ideal)) ha hb hy).result V (no_index (Proc.devRef .tc main_v110))
      = cat2 (V (Proc.devRef .tc main_v109)) (V (Proc.devRef .tc main_arg0)) :=
  binary_result' _ ha hb hy V

/-- The operation joining the three maxima, at its own buffer: the join of its operands' contents. -/
theorem cat3_result' (hxs hy) (V : Valuation τ sig (Elt Ideal)) :
    (nary ![main_v63, main_v64, main_v65] main_v66 (fun u => concatenate S3 0 [⟨S1, u 0⟩, ⟨S1, u 1⟩, ⟨S1, u 2⟩] concatenates_S1_S1_S1_S3_d0) hxs hy).result V (no_index (Proc.devRef .tc main_v66))
      = cat3 (V (Proc.devRef .tc main_v63)) (V (Proc.devRef .tc main_v64)) (V (Proc.devRef .tc main_v65)) :=
  (nary_result _ _ _ hxs hy V).trans rfl

/-! ## The networks in the host's spelling, at the program's shapes -/

/-- A relation network of width 128 as the program spells it. -/
def hO128 (x : FVec Ideal S300000x128 .f32) (w1 : FVec Ideal S128x128 .f32) (b1 : FVec Ideal S128 .f32)
    (w2 : FVec Ideal S128x128 .f32) (b2 : FVec Ideal S128 .f32) : FVec Ideal S300000x128 .f32 :=
  addf (Host.dotGeneral dot_S300000x128_S128x128_S300000x128_1_0_0_1_n_n none (maximumf (addf (Host.dotGeneral dot_S300000x128_S128x128_S300000x128_1_0_0_1_n_n none x (transpose S128x128 [1, 0] w1 transposes_S128x128_S128x128_1_0)) (broadcastInDim S300000x128 ![0, 1] bcast_S1x128_S300000x128_0_1 (broadcastInDim S1x128 ![1] bcast_S128_S1x128_1 b1))) (broadcastInDim S300000x128 ![] bcast_S_S300000x128 (constant S_ .f32 0x00000000#32))) (transpose S128x128 [1, 0] w2 transposes_S128x128_S128x128_1_0)) (broadcastInDim S300000x128 ![0, 1] bcast_S1x128_S300000x128_0_1 (broadcastInDim S1x128 ![1] bcast_S128_S1x128_1 b2))

/-- The relation network of width 192 as the program spells it. -/
def hO192 (x : FVec Ideal S200000x192 .f32) (w1 : FVec Ideal S192x192 .f32) (b1 : FVec Ideal S192 .f32)
    (w2 : FVec Ideal S192x192 .f32) (b2 : FVec Ideal S192 .f32) : FVec Ideal S200000x192 .f32 :=
  addf (Host.dotGeneral dot_S200000x192_S192x192_S200000x192_1_0_0_1_n_n none (maximumf (addf (Host.dotGeneral dot_S200000x192_S192x192_S200000x192_1_0_0_1_n_n none x (transpose S192x192 [1, 0] w1 transposes_S192x192_S192x192_1_0)) (broadcastInDim S200000x192 ![0, 1] bcast_S1x192_S200000x192_0_1 (broadcastInDim S1x192 ![1] bcast_S192_S1x192_1 b1))) (broadcastInDim S200000x192 ![] bcast_S_S200000x192 (constant S_ .f32 0x00000000#32))) (transpose S192x192 [1, 0] w2 transposes_S192x192_S192x192_1_0)) (broadcastInDim S200000x192 ![0, 1] bcast_S1x192_S200000x192_0_1 (broadcastInDim S1x192 ![1] bcast_S192_S1x192_1 b2))

/-- The update network as the program spells it. -/
def hUpd (e s : FVec Ideal S200000x64 .f32) (mx : FVec Ideal S_ .f32) (uw1 : FVec Ideal S128x128 .f32) (ub1 : FVec Ideal S128 .f32)
    (uw2 : FVec Ideal S64x128 .f32) (ub2 : FVec Ideal S64 .f32) : FVec Ideal S200000x64 .f32 :=
  addf (Host.dotGeneral dot_S200000x128_S128x64_S200000x64_1_0_0_1_n_n none (maximumf (addf (Host.dotGeneral dot_S200000x128_S128x128_S200000x128_1_0_0_1_n_n none (concatenate S200000x128 1 [⟨S200000x64, (addf (mulf (broadcastInDim S200000x64 ![] bcast_S_S200000x64 (constant S_ .f32 0x3E000000#32)) (Host.log e)) (broadcastInDim S200000x64 ![] bcast_S_S200000x64 mx))⟩, ⟨S200000x64, s⟩] concatenates_S200000x64_S200000x64_S200000x128_d1) (transpose S128x128 [1, 0] uw1 transposes_S128x128_S128x128_1_0)) (broadcastInDim S200000x128 ![0, 1] bcast_S1x128_S200000x128_0_1 (broadcastInDim S1x128 ![1] bcast_S128_S1x128_1 ub1))) (broadcastInDim S200000x128 ![] bcast_S_S200000x128 (constant S_ .f32 0x00000000#32))) (transpose S128x64 [1, 0] uw2 transposes_S64x128_S128x64_1_0)) (broadcastInDim S200000x64 ![0, 1] bcast_S1x64_S200000x64_0_1 (broadcastInDim S1x64 ![1] bcast_S64_S1x64_1 ub2))

theorem hO128_eq (x : FVec Ideal S300000x128 .f32) (w1 : FVec Ideal S128x128 .f32) (b1 : FVec Ideal S128 .f32)
    (w2 : FVec Ideal S128x128 .f32) (b2 : FVec Ideal S128 .f32) :
    hO128 x w1 b1 w2 b2 = mlp x (transpose S128x128 [1, 0] w1 transposes_S128x128_S128x128_1_0) b1
      (transpose S128x128 [1, 0] w2 transposes_S128x128_S128x128_1_0) b2 :=
  LibHostTwoLayer.host_mlp (n := 300000) (K := 128) (d := 128) (e := 128) x _ b1 _ b2 bcast_S128_S1x128_1 bcast_S1x128_S300000x128_0_1
    bcast_S_S300000x128 bcast_S128_S1x128_1 bcast_S1x128_S300000x128_0_1

theorem hO192_eq (x : FVec Ideal S200000x192 .f32) (w1 : FVec Ideal S192x192 .f32) (b1 : FVec Ideal S192 .f32)
    (w2 : FVec Ideal S192x192 .f32) (b2 : FVec Ideal S192 .f32) :
    hO192 x w1 b1 w2 b2 = mlp x (transpose S192x192 [1, 0] w1 transposes_S192x192_S192x192_1_0) b1
      (transpose S192x192 [1, 0] w2 transposes_S192x192_S192x192_1_0) b2 :=
  LibHostTwoLayer.host_mlp (n := 200000) (K := 192) (d := 192) (e := 192) x _ b1 _ b2 bcast_S192_S1x192_1 bcast_S1x192_S200000x192_0_1
    bcast_S_S200000x192 bcast_S192_S1x192_1 bcast_S1x192_S200000x192_0_1

theorem hUpd_eq (e s : FVec Ideal S200000x64 .f32) (mx : FVec Ideal S_ .f32) (uw1 : FVec Ideal S128x128 .f32) (ub1 : FVec Ideal S128 .f32)
    (uw2 : FVec Ideal S64x128 .f32) (ub2 : FVec Ideal S64 .f32) :
    hUpd e s mx uw1 ub1 uw2 ub2 = upd e s (mx ix0) (transpose S128x128 [1, 0] uw1 transposes_S128x128_S128x128_1_0) ub1
      (transpose S128x64 [1, 0] uw2 transposes_S64x128_S128x64_1_0) ub2 :=
  LibHostTwoLayer.host_upd (n := 200000) (d := 128) e s mx _ ub1 _ ub2 bcast_S_S200000x64 concatenates_S200000x64_S200000x64_S200000x128_d1
    bcast_S128_S1x128_1 bcast_S1x128_S200000x128_0_1 bcast_S_S200000x128 bcast_S64_S1x64_1 bcast_S1x64_S200000x64_0_1

/-- The whole chain with the networks in the program's spelling. -/
def hFinal (nodes : FVec Ideal S200000x64 .f32) (a1 a2 a3 : IVec S600000 32)
    (r0w1 : FVec Ideal S128x128 .f32) (r0b1 : FVec Ideal S128 .f32) (r0w2 : FVec Ideal S128x128 .f32) (r0b2 : FVec Ideal S128 .f32)
    (r1w1 : FVec Ideal S128x128 .f32) (r1b1 : FVec Ideal S128 .f32) (r1w2 : FVec Ideal S128x128 .f32) (r1b2 : FVec Ideal S128 .f32)
    (r2w1 : FVec Ideal S192x192 .f32) (r2b1 : FVec Ideal S192 .f32) (r2w2 : FVec Ideal S192x192 .f32) (r2b2 : FVec Ideal S192 .f32)
    (uw1 : FVec Ideal S128x128 .f32) (ub1 : FVec Ideal S128 .f32) (uw2 : FVec Ideal S64x128 .f32) (ub2 : FVec Ideal S64 .f32) :
    FVec Ideal S200000x64 .f32 :=
  hUpd (Chain.esum (Chain.flat128 (hO128 (Chain.x128 nodes a1) r0w1 r0b1 r0w2 r0b2)) (Chain.flat128 (hO128 (Chain.x128 nodes a2) r1w1 r1b1 r1w2 r1b2))
      (Chain.flat192 (hO192 (Chain.x192 nodes a3) r2w1 r2b1 r2w2 r2b2)) a1 a2 a3)
    nodes
    (Chain.mxAll (Chain.flat128 (hO128 (Chain.x128 nodes a1) r0w1 r0b1 r0w2 r0b2)) (Chain.flat128 (hO128 (Chain.x128 nodes a2) r1w1 r1b1 r1w2 r1b2))
      (Chain.flat192 (hO192 (Chain.x192 nodes a3) r2w1 r2b1 r2w2 r2b2)))
    uw1 ub1 uw2 ub2

theorem hFinal_eq (nodes : FVec Ideal S200000x64 .f32) (a1 a2 a3 : IVec S600000 32)
    (r0w1 : FVec Ideal S128x128 .f32) (r0b1 : FVec Ideal S128 .f32) (r0w2 : FVec Ideal S128x128 .f32) (r0b2 : FVec Ideal S128 .f32)
    (r1w1 : FVec Ideal S128x128 .f32) (r1b1 : FVec Ideal S128 .f32) (r1w2 : FVec Ideal S128x128 .f32) (r1b2 : FVec Ideal S128 .f32)
    (r2w1 : FVec Ideal S192x192 .f32) (r2b1 : FVec Ideal S192 .f32) (r2w2 : FVec Ideal S192x192 .f32) (r2b2 : FVec Ideal S192 .f32)
    (uw1 : FVec Ideal S128x128 .f32) (ub1 : FVec Ideal S128 .f32) (uw2 : FVec Ideal S64x128 .f32) (ub2 : FVec Ideal S64 .f32) :
    hFinal nodes a1 a2 a3 r0w1 r0b1 r0w2 r0b2 r1w1 r1b1 r1w2 r1b2 r2w1 r2b1 r2w2 r2b2 uw1 ub1 uw2 ub2 = Chain.final nodes a1 a2 a3 r0w1 r0b1 r0w2 r0b2 r1w1 r1b1 r1w2 r1b2 r2w1 r2b1 r2w2 r2b2 uw1 ub1 uw2 ub2 := by
  unfold hFinal Chain.final Chain.o128 Chain.o192
  rw [hUpd_eq, hO128_eq, hO128_eq, hO192_eq]

/-! ## The fold, evaluated -/

set_option maxRecDepth 8192 in
set_option maxHeartbeats 60400000 in
/-- The result buffer's fold is the chain in the program's spelling, of the arguments' launch contents. -/
theorem result_host (m : (ℓ : Loc nD τ sig) → Buf (Elt Ideal) ℓ) (c : Dev nD) :
    HandRun.result (F := Ideal) m c = hFinal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold HandRun.result
  simp (disch := decide) only [after_cons, after_nil,
      nullary_result', unary_result', binary_result', ternary_result', quaternary_result', reshape_result', ↓cat2_result', ↓cat3_result',
      nullary_result_ne', unary_result_ne', binary_result_ne', ternary_result_ne', quaternary_result_ne', reshape_result_ne',
      nary_result_ne']
  rfl

/-- The result buffer holds the chain of the arguments' launch contents. -/
theorem result_eq [Cert.ReferenceIdeal.Facts] (m : (ℓ : Loc nD τ sig) → Buf (Elt Ideal) ℓ) (c : Dev nD) :
    HandRun.result (F := Ideal) m c = Cert.Chain.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (result_host m c).trans (hFinal_eq _ _ _ _ _ _ _ _ _ _ _ _ _ _ _ _ _ _ _ _)

end Cert.ReferenceIdeal.RefValue

end
-- ==== Proof.lean ====
/-
  The proof of `Cert.Claim`: a relational graph layer — three relation networks on gathered node rows, a smooth maximum
  of their messages per node, and an update network — computed by four pallas_calls among host operations, against the same
  layer written with plain array operations.

  Frames.  Each program runs to the end without a fault and leaves its twenty arguments as they were.  For the kernel's
  program, at the word level and on the extended reals alike, @main is eight segments — four stretches of host operations
  and four pipelined regions — and the run (Proof/WordRun.lean, Proof/IdealRun.lean) follows the contents of every
  unscoped buffer from the launch to the end; no segment writes an argument.  The reference is a straight line of host
  operations (Proof/RefRun.lean).

  The idealization rewrote no operation, so there is nothing to preserve.

  Values.  On the extended reals rounding to bf16 is the identity, a matrix product is a row-by-column sum in a
  commutative monoid, and a row of each network's output depends only on the matching row of its input.  So each region's
  output array is the row network applied to every row of its input array, however the rows are tiled into blocks
  (Proof/KernelBlocks*.lean over Proof/Spec.lean), the host operations between the regions are the reference's own
  (Proof/KernelHost*.lean), and both programs end with the same function of the arguments, Proof/Chain.lean's `final`
  (Proof/KernelValue.lean, Proof/RefValue.lean).  No finiteness is used: the precondition is never opened.
-/
import proofs.«171401_j10385230921929_1_alg».proof.Defs
import proofs.«171401_j10385230921929_1_alg».proof.Proof.Gen.Kernel
import proofs.«171401_j10385230921929_1_alg».proof.Proof.Gen.KernelIdeal
import proofs.«171401_j10385230921929_1_alg».proof.Proof.Gen.ReferenceIdeal
import proofs.«171401_j10385230921929_1_alg».proof.Proof.Gen.Pre_finite_inputs
import proofs.«171401_j10385230921929_1_alg».proof.Proof.WordRun
import proofs.«171401_j10385230921929_1_alg».proof.Proof.IdealRun
import proofs.«171401_j10385230921929_1_alg».proof.Proof.KernelValue
import proofs.«171401_j10385230921929_1_alg».proof.Proof.RefRun
import proofs.«171401_j10385230921929_1_alg».proof.Proof.RefValue
import Idealize.ShloMosaic.Adequacy
import Idealize.ShloMosaic.Init

noncomputable section

namespace Cert.Proof

open Idealize.ShloMosaic Idealize.SL.Sem

-- the reference's stated side conditions, as the instance the chain's definitions read their records through
attribute [local instance] Cert.ReferenceIdeal.Gen.facts

/-- The word-level program runs and keeps its arguments: its run with the result buffer's value dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Frame.run (F := Bits) m ρ)

/-- The idealized program runs and keeps its arguments. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Frame.run (F := Ideal) m ρ)

/-- The reference runs and keeps its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- From memories that agree on the arguments both programs end with their result buffers at the same function of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Chain.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.KernelIdeal.Value.result m ρ c), (h c).2⟩)
      (Cert.KernelIdeal.Frame.run (F := Ideal) m ρ)
  · refine (θ_run Cert.ReferenceIdeal.defs _ _).mono (fun _ h c => ⟨(h c).1.trans ?_, (h c).2⟩)
      (Cert.ReferenceIdeal.HandRun.run (F := Ideal) m' ρ')
    obtain ⟨e0, e1, e2, e3, e4, e5, e6, e7, e8, e9, e10, e11, e12, e13, e14, e15, e16, e17, e18, e19⟩ := hagree c
    rw [Cert.ReferenceIdeal.RefValue.result_eq m' c, e0, e1, e2, e3, e4, e5, e6, e7, e8, e9, e10, e11, e12, e13, e14, e15, e16, e17, e18, e19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
